-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32 : Shape := ⟨2, ![10000, 32]⟩
abbrev S10000x8192 : Shape := ⟨2, ![10000, 8192]⟩
abbrev S2x32x32 : Shape := ⟨3, ![2, 32, 32]⟩
abbrev S32x32 : Shape := ⟨2, ![32, 32]⟩
abbrev S32 : Shape := ⟨1, ![32]⟩
abbrev S_ : Shape := ⟨0, ![]⟩
abbrev S10000 : Shape := ⟨1, ![10000]⟩
abbrev S8192 : Shape := ⟨1, ![8192]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S10000x8192 : S_.BroadcastsInDim S10000x8192 (![] : Fin 0 → Fin S10000x8192.rank)
  reducesTo_S10000x8192_S_d0_1 : S10000x8192.ReducesTo [0, 1] S_
  bcast_S_S2x32x32 : S_.BroadcastsInDim S2x32x32 (![] : Fin 0 → Fin S2x32x32.rank)
  reducesTo_S2x32x32_S_d0_1_2 : S2x32x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  reducesTo_S10000x8192_S10000_d1 : S10000x8192.ReducesTo [1] S10000
  bcast_S_S10000 : S_.BroadcastsInDim S10000 (![] : Fin 0 → Fin S10000.rank)
  reducesTo_S10000_S_d0 : S10000.ReducesTo [0] S_
  reducesTo_S10000x8192_S8192_d0 : S10000x8192.ReducesTo [0] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : FVec F S10000x8192 .f32) (main_v32 : IVec S_ 1) : IVec S_ 1 :=
  let main_cst_13 : FVec F S_ .f32 := constant S_ .f32 0x00000000#32
  let main_v33 : FVec F S8192 .f32 := (fun x v => Host.reduceAdd x v reducesTo_S10000x8192_S8192_d0 h_S_) main_arg1 main_cst_13
  let main_cst_14 : FVec F S_ .f32 := constant S_ .f32 0x00000000#32
  let main_v34 : FVec F S8192 .f32 := broadcastInDim S8192 ![] bcast_S_S8192 main_cst_14
  let main_v35 : IVec S8192 1 := cmpf .ogt main_v33 main_v34
  let main_c_15 : IVec S_ 1 := constantI S_ 1 1#1
  let main_v36 : IVec S_ 1 := (fun x v => Host.reduce IntOp.andi x v reducesTo_S8192_S_d0 h_S_) main_v35 main_c_15
  let main_v37 : IVec S_ 1 := andi main_v32 main_v36
  main_v37

def fn_part1 {F : FTy → Type} [FloatOps F] (main_arg1 : FVec F S10000x8192 .f32) (main_arg4 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_cst_8 : FVec F S_ .f32 := constant S_ .f32 0x00000000#32
  let main_v24 : FVec F S10000x8192 .f32 := broadcastInDim S10000x8192 ![] bcast_S_S10000x8192 main_cst_8
  let main_v25 : IVec S10000x8192 1 := cmpf .oge main_arg1 main_v24
  let main_c_9 : IVec S_ 1 := constantI S_ 1 1#1
  let main_v26 : IVec S_ 1 := (fun x v => Host.reduce IntOp.andi x v reducesTo_S10000x8192_S_d0_1 h_S_) main_v25 main_c_9
  let main_v27 : IVec S_ 1 := andi main_v23 main_v26
  let main_cst_10 : FVec F S_ .f32 := constant S_ .f32 0x00000000#32
  let main_v28 : FVec F S10000 .f32 := (fun x v => Host.reduceAdd x v reducesTo_S10000x8192_S10000_d1 h_S_) main_arg1 main_cst_10
  let main_cst_11 : FVec F S_ .f32 := constant S_ .f32 0x00000000#32
  let main_v29 : FVec F S10000 .f32 := broadcastInDim S10000 ![] bcast_S_S10000 main_cst_11
  let main_v30 : IVec S10000 1 := cmpf .ogt main_v28 main_v29
  let main_c_12 : IVec S_ 1 := constantI S_ 1 1#1
  let main_v31 : IVec S_ 1 := (fun x v => Host.reduce IntOp.andi x v reducesTo_S10000_S_d0 h_S_) main_v30 main_c_12
  let main_v32 : IVec S_ 1 := andi main_v27 main_v31
  fn_part2 (F := F) main_arg1 main_v32

def fn {F : FTy → Type} [FloatOps F] (main_arg0 : FVec F S10000x32 .f32) (main_arg1 : FVec F S10000x8192 .f32) (main_arg2 : FVec F S2x32x32 .f32) (main_arg3 : FVec F S32x32 .f32) (main_arg4 : FVec F S32 .f32) : IVec S_ 1 :=
  let main_v0 : FVec F S10000x32 .f32 := Host.absf main_arg0
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S10000x8192 .f32 := Host.absf main_arg1
  let main_cst_0 : FVec F S_ .f32 := constant S_ .f32 0x7F800000#32
  let main_v5 : FVec F S10000x8192 .f32 := broadcastInDim S10000x8192 ![] bcast_S_S10000x8192 main_cst_0
  let main_v6 : IVec S10000x8192 1 := cmpf .olt main_v4 main_v5
  let main_c_1 : IVec S_ 1 := constantI S_ 1 1#1
  let main_v7 : IVec S_ 1 := (fun x v => Host.reduce IntOp.andi x v reducesTo_S10000x8192_S_d0_1 h_S_) main_v6 main_c_1
  let main_v8 : IVec S_ 1 := andi main_v3 main_v7
  let main_v9 : FVec F S2x32x32 .f32 := Host.absf main_arg2
  let main_cst_2 : FVec F S_ .f32 := constant S_ .f32 0x7F800000#32
  let main_v10 : FVec F S2x32x32 .f32 := broadcastInDim S2x32x32 ![] bcast_S_S2x32x32 main_cst_2
  let main_v11 : IVec S2x32x32 1 := cmpf .olt main_v9 main_v10
  let main_c_3 : IVec S_ 1 := constantI S_ 1 1#1
  let main_v12 : IVec S_ 1 := (fun x v => Host.reduce IntOp.andi x v reducesTo_S2x32x32_S_d0_1_2 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg4 main_v13 main_v16
-- ==== Kernel.lean ====
abbrev S10000x32 : Shape := ⟨2, ![10000, 32]⟩
abbrev S10000x8192 : Shape := ⟨2, ![10000, 8192]⟩
abbrev S2x32x32 : Shape := ⟨3, ![2, 32, 32]⟩
abbrev S32x32 : Shape := ⟨2, ![32, 32]⟩
abbrev S32 : Shape := ⟨1, ![32]⟩
abbrev S8192x32 : Shape := ⟨2, ![8192, 32]⟩
abbrev S1x8192 : Shape := ⟨2, ![1, 8192]⟩
abbrev S10000x1 : Shape := ⟨2, ![10000, 1]⟩
abbrev S8192 : Shape := ⟨1, ![8192]⟩
abbrev S8192x1 : Shape := ⟨2, ![8192, 1]⟩
abbrev S1x32x32 : Shape := ⟨3, ![1, 32, 32]⟩
abbrev S1x32 : Shape := ⟨2, ![1, 32]⟩
abbrev S400x32 : Shape := ⟨2, ![400, 32]⟩
abbrev S400x8192 : Shape := ⟨2, ![400, 8192]⟩
abbrev S400x1 : Shape := ⟨2, ![400, 1]⟩
abbrev S400 : Shape := ⟨1, ![400]⟩

abbrev nBuf : Space → Nat
  | .hbm => 28
  | .vmem => 30
  | .smem => 0
  | _ => 0

abbrev bufTy : (tb : Table) → Fin (tcTables nBuf tb) → BufTy
  | .hbm, ⟨0, _⟩ => ⟨S10000x32, .f32⟩
  | .hbm, ⟨1, _⟩ => ⟨S10000x8192, .f32⟩
  | .hbm, ⟨2, _⟩ => ⟨S2x32x32, .f32⟩
  | .hbm, ⟨3, _⟩ => ⟨S32x32, .f32⟩
  | .hbm, ⟨4, _⟩ => ⟨S32, .f32⟩
  | .hbm, ⟨5, _⟩ => ⟨S8192x32, .f32⟩
  | .hbm, ⟨6, _⟩ => ⟨S1x8192, .f32⟩
  | .hbm, ⟨7, _⟩ => ⟨S1x8192, .f32⟩
  | .hbm, ⟨8, _⟩ => ⟨S10000x1, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x32, .f32⟩
  | .hbm, ⟨15, _⟩ => ⟨S8192x32, .f32⟩
  | .hbm, ⟨16, _⟩ => ⟨S1x32x32, .f32⟩
  | .hbm, ⟨17, _⟩ => ⟨S32x32, .f32⟩
  | .hbm, ⟨18, _⟩ => ⟨S32x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x32x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S1x32, .f32⟩
  | .hbm, ⟨27, _⟩ => ⟨S10000x32, .f32⟩
  | .local _ .vmem, ⟨0, _⟩ => ⟨S400x32, .f32⟩
  | .local _ .vmem, ⟨1, _⟩ => ⟨S400x32, .f32⟩
  | .local _ .vmem, ⟨2, _⟩ => ⟨S400x8192, .f32⟩
  | .local _ .vmem, ⟨3, _⟩ => ⟨S400x8192, .f32⟩
  | .local _ .vmem, ⟨4, _⟩ => ⟨S8192x32, .f32⟩
  | .local _ .vmem, ⟨5, _⟩ => ⟨S1x8192, .f32⟩
  | .local _ .vmem, ⟨6, _⟩ => ⟨S1x8192, .f32⟩
  | .local _ .vmem, ⟨7, _⟩ => ⟨S400x1, .f32⟩
  | .local _ .vmem, ⟨8, _⟩ => ⟨S400x1, .f32⟩
  | .local _ .vmem, ⟨9, _⟩ => ⟨S400x8192, .f32⟩
  | .local _ .vmem, ⟨10, _⟩ => ⟨S400x8192, .f32⟩
  | .local _ .vmem, ⟨11, _⟩ => ⟨S400x32, .f32⟩
  | .local _ .vmem, ⟨12, _⟩ => ⟨S400x32, .f32⟩
  | .local _ .vmem, ⟨13, _⟩ => ⟨S400x1, .f32⟩
  | .local _ .vmem, ⟨14, _⟩ => ⟨S400x1, .f32⟩
  | .local _ .vmem, ⟨15, _⟩ => ⟨S8192x32, .f32⟩
  | .local _ .vmem, ⟨16, _⟩ => ⟨S32x32, .f32⟩
  | .local _ .vmem, ⟨17, _⟩ => ⟨S8192x32, .f32⟩
  | .local _ .vmem, ⟨18, _⟩ => ⟨S400x8192, .f32⟩
  | .local _ .vmem, ⟨19, _⟩ => ⟨S400x8192, .f32⟩
  | .local _ .vmem, ⟨20, _⟩ => ⟨S400x32, .f32⟩
  | .local _ .vmem, ⟨21, _⟩ => ⟨S400x32, .f32⟩
  | .local _ .vmem, ⟨22, _⟩ => ⟨S400x1, .f32⟩
  | .local _ .vmem, ⟨23, _⟩ => ⟨S400x1, .f32⟩
  | .local _ .vmem, ⟨24, _⟩ => ⟨S8192x32, .f32⟩
  | .local _ .vmem, ⟨25, _⟩ => ⟨S32x32, .f32⟩
  | .local _ .vmem, ⟨26, _⟩ => ⟨S32x32, .f32⟩
  | .local _ .vmem, ⟨27, _⟩ => ⟨S1x32, .f32⟩
  | .local _ .vmem, ⟨28, _⟩ => ⟨S400x32, .f32⟩
  | .local _ .vmem, ⟨29, _⟩ => ⟨S400x32, .f32⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_call0_v0_2 : Ref sig .tc := ⟨.hbm, 7, rfl⟩
abbrev main_call0_v0_3 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8192x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8192x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S1x8192_S8192 : S1x8192.ShapeCasts S8192
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  slices_S2x32x32_S1x32x32_0_0_0 : S2x32x32.Slices ![0, 0, 0] S1x32x32
  shapeCasts_S1x32x32_S32x32 : S1x32x32.ShapeCasts S32x32
  transposes_S32x32_S32x32_1_0 : S32x32.Transposes [1, 0] S32x32
  slices_S2x32x32_S1x32x32_1_0_0 : S2x32x32.Slices ![1, 0, 0] S1x32x32
  bcast_S32_S1x32_1 : S32.BroadcastsInDim S1x32 (![1] : Fin 1 → Fin S1x32.rank)
  inb_S400x8192_S400x8192_0_0 : ∀ a, (![0, 0] : Fin 2 → Nat) a + S400x8192.size a ≤ S400x8192.size a
  h_S400x8192 : 0 < S400x8192.numel
  reduces_S400x8192_S400 : S400x8192.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S8192x32_S8192x32_0_0 : ∀ a, (![0, 0] : Fin 2 → Nat) a + S8192x32.size a ≤ S8192x32.size a
  h_S8192x32 : 0 < S8192x32.numel
  inb_S1x8192_S1x8192_0_0 : ∀ a, (![0, 0] : Fin 2 → Nat) a + S1x8192.size a ≤ S1x8192.size a
  h_S1x8192 : 0 < S1x8192.numel
  shapeCasts_S8192x32_S8192x32 : S8192x32.ShapeCasts S8192x32
  inb_S400x32_S400x32_0_0 : ∀ a, (![0, 0] : Fin 2 → Nat) a + S400x32.size a ≤ S400x32.size a
  h_S400x32 : 0 < S400x32.numel
  shapeCasts_S1x8192_S1x8192 : S1x8192.ShapeCasts S1x8192
  reduces_S400x8192_S8192 : S400x8192.Reduces [0] S8192
  shapeCasts_S8192_S1x8192 : S8192.ShapeCasts S1x8192
  shapeCasts_S400x1_S400x1 : S400x1.ShapeCasts S400x1
  broadcasts_S400x1_S400x32 : S400x1.Broadcasts S400x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  dot_S400x8192_S400x32_S8192x32_0_0_1_1_n_n_wf : DotDims.WF S400x8192 S400x32 S8192x32 [0] [0] [1] [1] [] []
  dot_S400x1_S400x8192_S1x8192_0_0_1_1_n_n_wf : DotDims.WF S400x1 S400x8192 S1x8192 [0] [0] [1] [1] [] []
  dot_S400x8192_S8192x32_S400x32_1_0_0_1_n_n_wf : DotDims.WF S400x8192 S8192x32 S400x32 [1] [0] [0] [1] [] []
  dot_S400x32_S32x32_S400x32_1_0_0_1_n_n_wf : DotDims.WF S400x32 S32x32 S400x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32.size a ≤ S10000x32.size a
  hwx0_0 : ∀ i : grid0.Coords, EltTy.bits .f32 = 32 ∨ (Rect.block (s := S10000x32) S400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x8192.size a ≤ S10000x8192.size a
  hwx0_1 : ∀ i : grid0.Coords, EltTy.bits .f32 = 32 ∨ (Rect.block (s := S10000x8192) S400x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .f32 = 32 ∨ (Rect.block (s := S8192x32) S8192x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x1.size a ≤ S10000x1.size a
  hwx0_5 : ∀ i : grid0.Coords, EltTy.bits .f32 = 32 ∨ (Rect.block (s := S10000x1) S400x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x8192.size a ≤ S10000x8192.size a
  hwx1_0 : ∀ i : grid1.Coords, EltTy.bits .f32 = 32 ∨ (Rect.block (s := S10000x8192) S400x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x32.size a ≤ S10000x32.size a
  hwx1_1 : ∀ i : grid1.Coords, EltTy.bits .f32 = 32 ∨ (Rect.block (s := S10000x32) S400x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x32.size a ≤ S8192x32.size a
  hwx1_3 : ∀ i : grid1.Coords, EltTy.bits .f32 = 32 ∨ (Rect.block (s := S8192x32) S8192x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x32.size a ≤ S8192x32.size a
  hwx1_5 : ∀ i : grid1.Coords, EltTy.bits .f32 = 32 ∨ (Rect.block (s := S8192x32) S8192x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x8192.size a ≤ S10000x8192.size a
  hwx2_0 : ∀ i : grid2.Coords, EltTy.bits .f32 = 32 ∨ (Rect.block (s := S10000x8192) S400x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x32.size a ≤ S10000x32.size a
  hwx2_1 : ∀ i : grid2.Coords, EltTy.bits .f32 = 32 ∨ (Rect.block (s := S10000x32) S400x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x1.size a ≤ S10000x1.size a
  hwx2_2 : ∀ i : grid2.Coords, EltTy.bits .f32 = 32 ∨ (Rect.block (s := S10000x1) S400x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S8192x32.size a
  hwx2_3 : ∀ i : grid2.Coords, EltTy.bits .f32 = 32 ∨ (Rect.block (s := S8192x32) S8192x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x32.size a ≤ S10000x32.size a
  hwx2_7 : ∀ i : grid2.Coords, EltTy.bits .f32 = 32 ∨ (Rect.block (s := S10000x32) S400x32.size (cc2_transform_7 i) (hinb2_7 i)).WholeWords (EltTy.packing .f32)

variable [Facts₀]

def dot_S400x8192_S400x32_S8192x32_0_0_1_1_n_n : DotDims S400x8192 S400x32 S8192x32 where
  lhsContracting := [0]
  rhsContracting := [0]
  lhsNonContracting := [1]
  rhsNonContracting := [1]
  lhsBatch := []
  rhsBatch := []
  wf := dot_S400x8192_S400x32_S8192x32_0_0_1_1_n_n_wf
def dot_S400x1_S400x8192_S1x8192_0_0_1_1_n_n : DotDims S400x1 S400x8192 S1x8192 where
  lhsContracting := [0]
  rhsContracting := [0]
  lhsNonContracting := [1]
  rhsNonContracting := [1]
  lhsBatch := []
  rhsBatch := []
  wf := dot_S400x1_S400x8192_S1x8192_0_0_1_1_n_n_wf
def dot_S400x8192_S8192x32_S400x32_1_0_0_1_n_n : DotDims S400x8192 S8192x32 S400x32 where
  lhsContracting := [1]
  rhsContracting := [0]
  lhsNonContracting := [0]
  rhsNonContracting := [1]
  lhsBatch := []
  rhsBatch := []
  wf := dot_S400x8192_S8192x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf

abbrev win0_0 : Pipeline.Window sig grid0 :=
  Pipeline.Window.ofSpec (Memref.whole main_arg0) S400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S8192x32.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_2) S1x8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_3) S400x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_3) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S8192x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v10) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v11) S8192x32.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0_3) S400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v13) S8192x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v16) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v17) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v18) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v0) S400x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x32 : Shape := ⟨2, ![10000, 32]⟩
abbrev S10000x8192 : Shape := ⟨2, ![10000, 8192]⟩
abbrev S2x32x32 : Shape := ⟨3, ![2, 32, 32]⟩
abbrev S32x32 : Shape := ⟨2, ![32, 32]⟩
abbrev S32 : Shape := ⟨1, ![32]⟩
abbrev S1x32x32 : Shape := ⟨3, ![1, 32, 32]⟩
abbrev S8192x10000 : Shape := ⟨2, ![8192, 10000]⟩
abbrev S_ : Shape := ⟨0, ![]⟩
abbrev S8192 : Shape := ⟨1, ![8192]⟩
abbrev S8192x32 : Shape := ⟨2, ![8192, 32]⟩
abbrev S8192x1 : Shape := ⟨2, ![8192, 1]⟩
abbrev S10000 : Shape := ⟨1, ![10000]⟩
abbrev S10000x1 : Shape := ⟨2, ![10000, 1]⟩
abbrev S1x32 : Shape := ⟨2, ![1, 32]⟩

abbrev nBuf : Space → Nat
  | .hbm => 90
  | .vmem => 0
  | .smem => 0
  | _ => 0

abbrev bufTy : (tb : Table) → Fin (tcTables nBuf tb) → BufTy
  | .hbm, ⟨0, _⟩ => ⟨S10000x32, .f32⟩
  | .hbm, ⟨1, _⟩ => ⟨S10000x8192, .f32⟩
  | .hbm, ⟨2, _⟩ => ⟨S2x32x32, .f32⟩
  | .hbm, ⟨3, _⟩ => ⟨S32x32, .f32⟩
  | .hbm, ⟨4, _⟩ => ⟨S32, .f32⟩
  | .hbm, ⟨5, _⟩ => ⟨S1x32x32, .f32⟩
  | .hbm, ⟨6, _⟩ => ⟨S32x32, .f32⟩
  | .hbm, ⟨7, _⟩ => ⟨S8192x10000, .f32⟩
  | .hbm, ⟨8, _⟩ => ⟨S_, .f32⟩
  | .hbm, ⟨9, _⟩ => ⟨S8192, .f32⟩
  | .hbm, ⟨10, _⟩ => ⟨S8192x32, .f32⟩
  | .hbm, ⟨11, _⟩ => ⟨S8192x1, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S10000, .f32⟩
  | .hbm, ⟨16, _⟩ => ⟨S10000x1, .f32⟩
  | .hbm, ⟨17, _⟩ => ⟨S8192x1, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x32, .f32⟩
  | .hbm, ⟨23, _⟩ => ⟨S8192x32, .f32⟩
  | .hbm, ⟨24, _⟩ => ⟨S10000x32, .f32⟩
  | .hbm, ⟨25, _⟩ => ⟨S10000, .f32⟩
  | .hbm, ⟨26, _⟩ => ⟨S10000x1, .f32⟩
  | .hbm, ⟨27, _⟩ => ⟨S10000x32, .f32⟩
  | .hbm, ⟨28, _⟩ => ⟨S10000x32, .f32⟩
  | .hbm, ⟨29, _⟩ => ⟨S_, .f32⟩
  | .hbm, ⟨30, _⟩ => ⟨S10000x32, .f32⟩
  | .hbm, ⟨31, _⟩ => ⟨S10000x32, .f32⟩
  | .hbm, ⟨32, _⟩ => ⟨S_, .f32⟩
  | .hbm, ⟨33, _⟩ => ⟨S10000x32, .f32⟩
  | .hbm, ⟨34, _⟩ => ⟨S10000x32, .f32⟩
  | .hbm, ⟨35, _⟩ => ⟨S10000x32, .f32⟩
  | .hbm, ⟨36, _⟩ => ⟨S_, .f32⟩
  | .hbm, ⟨37, _⟩ => ⟨S10000x32, .f32⟩
  | .hbm, ⟨38, _⟩ => ⟨S10000x32, .f32⟩
  | .hbm, ⟨39, _⟩ => ⟨S32x32, .f32⟩
  | .hbm, ⟨40, _⟩ => ⟨S10000x32, .f32⟩
  | .hbm, ⟨41, _⟩ => ⟨S_, .f32⟩
  | .hbm, ⟨42, _⟩ => ⟨S10000x32, .f32⟩
  | .hbm, ⟨43, _⟩ => ⟨S10000x32, .f32⟩
  | .hbm, ⟨44, _⟩ => ⟨S10000x32, .f32⟩
  | .hbm, ⟨45, _⟩ => ⟨S1x32x32, .f32⟩
  | .hbm, ⟨46, _⟩ => ⟨S32x32, .f32⟩
  | .hbm, ⟨47, _⟩ => ⟨S8192x10000, .f32⟩
  | .hbm, ⟨48, _⟩ => ⟨S_, .f32⟩
  | .hbm, ⟨49, _⟩ => ⟨S8192, .f32⟩
  | .hbm, ⟨50, _⟩ => ⟨S8192x32, .f32⟩
  | .hbm, ⟨51, _⟩ => ⟨S8192x1, .f32⟩
  | .hbm, ⟨52, _⟩ => ⟨S8192x32, .f32⟩
  | .hbm, ⟨53, _⟩ => ⟨S8192x32, .f32⟩
  | .hbm, ⟨54, _⟩ => ⟨S_, .f32⟩
  | .hbm, ⟨55, _⟩ => ⟨S10000, .f32⟩
  | .hbm, ⟨56, _⟩ => ⟨S10000x1, .f32⟩
  | .hbm, ⟨57, _⟩ => ⟨S8192x1, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192x1, .f32⟩
  | .hbm, ⟨62, _⟩ => ⟨S8192x32, .f32⟩
  | .hbm, ⟨63, _⟩ => ⟨S8192x32, .f32⟩
  | .hbm, ⟨64, _⟩ => ⟨S10000x32, .f32⟩
  | .hbm, ⟨65, _⟩ => ⟨S10000, .f32⟩
  | .hbm, ⟨66, _⟩ => ⟨S10000x1, .f32⟩
  | .hbm, ⟨67, _⟩ => ⟨S10000x32, .f32⟩
  | .hbm, ⟨68, _⟩ => ⟨S10000x32, .f32⟩
  | .hbm, ⟨69, _⟩ => ⟨S_, .f32⟩
  | .hbm, ⟨70, _⟩ => ⟨S10000x32, .f32⟩
  | .hbm, ⟨71, _⟩ => ⟨S10000x32, .f32⟩
  | .hbm, ⟨72, _⟩ => ⟨S_, .f32⟩
  | .hbm, ⟨73, _⟩ => ⟨S10000x32, .f32⟩
  | .hbm, ⟨74, _⟩ => ⟨S10000x32, .f32⟩
  | .hbm, ⟨75, _⟩ => ⟨S10000x32, .f32⟩
  | .hbm, ⟨76, _⟩ => ⟨S_, .f32⟩
  | .hbm, ⟨77, _⟩ => ⟨S10000x32, .f32⟩
  | .hbm, ⟨78, _⟩ => ⟨S10000x32, .f32⟩
  | .hbm, ⟨79, _⟩ => ⟨S32x32, .f32⟩
  | .hbm, ⟨80, _⟩ => ⟨S10000x32, .f32⟩
  | .hbm, ⟨81, _⟩ => ⟨S_, .f32⟩
  | .hbm, ⟨82, _⟩ => ⟨S10000x32, .f32⟩
  | .hbm, ⟨83, _⟩ => ⟨S10000x32, .f32⟩
  | .hbm, ⟨84, _⟩ => ⟨S10000x32, .f32⟩
  | .hbm, ⟨85, _⟩ => ⟨S32x32, .f32⟩
  | .hbm, ⟨86, _⟩ => ⟨S10000x32, .f32⟩
  | .hbm, ⟨87, _⟩ => ⟨S1x32, .f32⟩
  | .hbm, ⟨88, _⟩ => ⟨S10000x32, .f32⟩
  | .hbm, ⟨89, _⟩ => ⟨S10000x32, .f32⟩
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]

class Facts₀ : Prop where
  slices_S2x32x32_S1x32x32_0_0_0 : S2x32x32.Slices ![0, 0, 0] S1x32x32
  shapeCasts_S1x32x32_S32x32 : S1x32x32.ShapeCasts S32x32
  transposes_S10000x8192_S8192x10000_1_0 : S10000x8192.Transposes [1, 0] S8192x10000
  reducesTo_S10000x8192_S8192_d0 : S10000x8192.ReducesTo [0] S8192
  h_S_ : 0 < S_.numel
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  reducesTo_S10000x8192_S10000_d1 : S10000x8192.ReducesTo [1] S10000
  bcast_S10000_S10000x1_0 : S10000.BroadcastsInDim S10000x1 (![0] : Fin 1 → Fin S10000x1.rank)
  shapeCasts_S8192x1_S8192 : S8192x1.ShapeCasts S8192
  bcast_S10000x1_S10000x32_0_1 : S10000x1.BroadcastsInDim S10000x32 (![0, 1] : Fin 2 → Fin S10000x32.rank)
  bcast_S_S10000x32 : S_.BroadcastsInDim S10000x32 (![] : Fin 0 → Fin S10000x32.rank)
  transposes_S32x32_S32x32_1_0 : S32x32.Transposes [1, 0] S32x32
  slices_S2x32x32_S1x32x32_1_0_0 : S2x32x32.Slices ![1, 0, 0] S1x32x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S8192x10000_S10000x32_S8192x32_1_0_0_1_n_n_wf : DotDims.WF S8192x10000 S10000x32 S8192x32 [1] [0] [0] [1] [] []
  dot_S8192x10000_S10000x1_S8192x1_1_0_0_1_n_n_wf : DotDims.WF S8192x10000 S10000x1 S8192x1 [1] [0] [0] [1] [] []
  dot_S10000x8192_S8192x32_S10000x32_1_0_0_1_n_n_wf : DotDims.WF S10000x8192 S8192x32 S10000x32 [1] [0] [0] [1] [] []
  dot_S10000x32_S32x32_S10000x32_1_0_0_1_n_n_wf : DotDims.WF S10000x32 S32x32 S10000x32 [1] [0] [0] [1] [] []

variable [Facts₀]

def dot_S8192x10000_S10000x32_S8192x32_1_0_0_1_n_n : DotDims S8192x10000 S10000x32 S8192x32 where
  lhsContracting := [1]
  rhsContracting := [0]
  lhsNonContracting := [0]
  rhsNonContracting := [1]
  lhsBatch := []
  rhsBatch := []
  wf := dot_S8192x10000_S10000x32_S8192x32_1_0_0_1_n_n_wf
def dot_S8192x10000_S10000x1_S8192x1_1_0_0_1_n_n : DotDims S8192x10000 S10000x1 S8192x1 where
  lhsContracting := [1]
  rhsContracting := [0]
  lhsNonContracting := [0]
  rhsNonContracting := [1]
  lhsBatch := []
  rhsBatch := []
  wf := dot_S8192x10000_S10000x1_S8192x1_1_0_0_1_n_n_wf
def dot_S10000x8192_S8192x32_S10000x32_1_0_0_1_n_n : DotDims S10000x8192 S8192x32 S10000x32 where
  lhsContracting := [1]
  rhsContracting := [0]
  lhsNonContracting := [0]
  rhsNonContracting := [1]
  lhsBatch := []
  rhsBatch := []
  wf := dot_S10000x8192_S8192x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.Spec.lean ====
/-
  The mathematics of the two programs, as functions of the five argument arrays over the extended reals.

  A hypergraph on 10000 nodes and 8192 hyperedges is given by its incidence weights `I n e`; node features are
  [10000, 32] arrays. Two sums carry everything: the edge aggregate `∑ n, I n e · z n f` of a node array and the
  node scatter `∑ e, I n e · y e f` of an edge array. With the node degree `dv n = ∑ e, I n e`, the edge degree
  `de e = ∑ n, I n e` and the degree-weighted edge sum `ss e = ∑ n, dv n · I n e`, one layer sends a node array
  `z` to  upd (½ · scat (edge message of z) / √dv + ½ · x),  upd u = ½ u + ½ u Wᵀ.

  The two programs differ only in the edge message:
    the kernel     multiplies the aggregate by  rsqrt (de · ss),
    the reference  divides it by `de` and then by  sqrt (ss / de),
  and in where the node normalisation sits (a product with rsqrt dv against a quotient by sqrt dv).
  For positive degrees these agree:  de · √(ss/de) = √(de · ss).
-/
import Idealize.ShloMosaic.PureOps.Ideal
import Idealize.ShloMosaic.Lib.ValueIdx

noncomputable section

open Idealize.ShloMosaic Idealize.ShloMosaic.ValueIdx

namespace Cert.Gcn

abbrev SNF : Shape := ⟨2, ![10000, 32]⟩
abbrev SNE : Shape := ⟨2, ![10000, 8192]⟩
abbrev SN1 : Shape := ⟨2, ![10000, 1]⟩
abbrev SEF : Shape := ⟨2, ![8192, 32]⟩
abbrev S1E : Shape := ⟨2, ![1, 8192]⟩
abbrev SW : Shape := ⟨3, ![2, 32, 32]⟩
abbrev SFF : Shape := ⟨2, ![32, 32]⟩
abbrev S1F : Shape := ⟨2, ![1, 32]⟩
abbrev SF : Shape := ⟨1, ![32]⟩

/-- The one float literal of both programs besides zero: ½. -/
abbrev half : EReal := Ideal.ofBits .f32 0x3F000000#32

/-! ## The sums -/

/-- Node degree: the row sum of the incidence weights. -/
def dv (I : SNE.Idx → EReal) (n : Fin 10000) : EReal := ∑ e : Fin 8192, I (ix2 n e)
/-- Edge degree: the column sum. -/
def de (I : SNE.Idx → EReal) (e : Fin 8192) : EReal := ∑ n : Fin 10000, I (ix2 n e)
/-- The degree-weighted column sum, degree first (the kernel's order of the factors). -/
def ss (I : SNE.Idx → EReal) (e : Fin 8192) : EReal := ∑ n : Fin 10000, dv I n * I (ix2 n e)
/-- The same, weight first (the reference's order). -/
def ssR (I : SNE.Idx → EReal) (e : Fin 8192) : EReal := ∑ n : Fin 10000, I (ix2 n e) * dv I n
/-- Edge aggregate of a node array. -/
def agg (I : SNE.Idx → EReal) (z : Fin 10000 → Fin 32 → EReal) (e : Fin 8192) (f : Fin 32) : EReal :=
  ∑ n : Fin 10000, I (ix2 n e) * z n f
/-- Node scatter of an edge array. -/
def scat (I : SNE.Idx → EReal) (y : Fin 8192 → Fin 32 → EReal) (n : Fin 10000) (f : Fin 32) : EReal :=
  ∑ e : Fin 8192, I (ix2 n e) * y e f
/-- The identity-mapping update with a [32, 32] weight array read as `Wt k f`. -/
def upd (Wt : Fin 32 → Fin 32 → EReal) (u : Fin 10000 → Fin 32 → EReal) (n : Fin 10000) (f : Fin 32) : EReal :=
  half * u n f + half * ∑ k : Fin 32, u n k * Wt k f
/-- The output head: a [32, 32] weight array read as `Wt f c`, and a bias. -/
def head (Wt : Fin 32 → Fin 32 → EReal) (bias : Fin 32 → EReal) (u : Fin 10000 → Fin 32 → EReal)
    (n : Fin 10000) (c : Fin 32) : EReal :=
  (∑ f : Fin 32, u n f * Wt f c) + bias c

/-! ## One fused node step of the kernel, over the arrays a region is handed -/

/-- The combined features a stripe computes from the incidence `I`, the skip features `X`, the degree column
    `D` and the scaled edge messages `Y`:  (½ · scat) · rsqrt D + ½ · X. -/
def comb (I : SNE.Idx → EReal) (X : SNF.Idx → EReal) (D : SN1.Idx → EReal) (Y : SEF.Idx → EReal)
    (n : Fin 10000) (f : Fin 32) : EReal :=
  (half * scat I (fun e f => Y (ix2 e f)) n f) * Ideal.rsqrt (D (ix2 n 0)) + half * X (ix2 n f)

/-- The node features after the step: the update of the combined features with the transposed weights `Wt`. -/
def step (I : SNE.Idx → EReal) (X : SNF.Idx → EReal) (D : SN1.Idx → EReal) (Y : SEF.Idx → EReal)
    (Wt : SFF.Idx → EReal) : Fin 10000 → Fin 32 → EReal :=
  upd (fun k f => Wt (ix2 k f)) (comb I X D Y)

/-! ## The kernel's result -/

section
variable (x : SNF.Idx → EReal) (I : SNE.Idx → EReal) (W : SW.Idx → EReal) (Wo : SFF.Idx → EReal) (b : SF.Idx → EReal)

/-- The kernel's edge scaling. -/
def cK (e : Fin 8192) : EReal := Ideal.rsqrt (de I e * ss I e)
/-- The degree column the first pass writes. -/
def dvCol : SN1.Idx → EReal := fun j => dv I (j 0)
/-- Layer `l`'s weights transposed, as the [32, 32] array the kernel is handed. -/
def wT (l : Fin 2) : SFF.Idx → EReal := fun j => W (ix3 l (j 1) (j 0))
/-- The scaled edge messages of a node array. -/
def msgK (z : Fin 10000 → Fin 32 → EReal) : SEF.Idx → EReal := fun j => agg I z (j 0) (j 1) * cK I (j 0)
def x1K : Fin 10000 → Fin 32 → EReal := step I x (dvCol I) (msgK I fun n f => x (ix2 n f)) (wT W 0)
def x2K : Fin 10000 → Fin 32 → EReal := step I x (dvCol I) (msgK I (x1K x I W)) (wT W 1)
/-- What the kernel returns, at node `n` and class `c`. -/
def outK (n : Fin 10000) (c : Fin 32) : EReal :=
  head (fun f c => Wo (ix2 c f)) (fun c => b (ix1 c)) (x2K x I W) n c

/-! ## The reference's result -/

/-- The reference's edge message of a node array: the mean, over the root of the mean degree. -/
def msgR (z : Fin 10000 → Fin 32 → EReal) (e : Fin 8192) (f : Fin 32) : EReal :=
  Ideal.div (Ideal.div (agg I z e f) (de I e)) (Ideal.sqrt (Ideal.div (ssR I e) (de I e)))
def combR (z : Fin 10000 → Fin 32 → EReal) (n : Fin 10000) (f : Fin 32) : EReal :=
  half * Ideal.div (scat I (msgR I z) n f) (Ideal.sqrt (dv I n)) + half * x (ix2 n f)
def layerR (l : Fin 2) (z : Fin 10000 → Fin 32 → EReal) : Fin 10000 → Fin 32 → EReal :=
  upd (fun k f => W (ix3 l f k)) (combR x I z)
def x1R : Fin 10000 → Fin 32 → EReal := layerR x I W 0 fun n f => x (ix2 n f)
def x2R : Fin 10000 → Fin 32 → EReal := layerR x I W 1 (x1R x I W)
/-- What the reference returns, at node `n` and class `c`. -/
def outR (n : Fin 10000) (c : Fin 32) : EReal :=
  head (fun f c => Wo (ix2 c f)) (fun c => b (ix1 c)) (x2R x I W) n c

end

/-- The domain on which the two agree: every incidence weight a real number and none negative, every node
    degree and every edge degree positive. (The features and the weights may be any extended reals: the two
    programs treat them by the same sums and products.) -/
structure Dom (I : SNE.Idx → EReal) : Prop where
  I_fin : ∀ j, ∃ r : ℝ, I j = r
  I_nonneg : ∀ j, 0 ≤ I j
  dv_pos : ∀ n, 0 < dv I n
  de_pos : ∀ e, 0 < de I e

/-! ## What each of the kernel's three passes leaves, as functions of the arrays it is handed -/

/-- Pass one: the edge aggregate of the features, the edge degrees, the degree-weighted edge sums (rows of
    extent one), and the node degrees (a column). -/
def pass1_agg (X : SNF.Idx → EReal) (I : SNE.Idx → EReal) : SEF.Idx → EReal :=
  fun j => agg I (fun n f => X (ix2 n f)) (j 0) (j 1)
def pass1_de (I : SNE.Idx → EReal) : S1E.Idx → EReal := fun j => de I (j 1)
def pass1_ss (I : SNE.Idx → EReal) : S1E.Idx → EReal := fun j => ss I (j 1)
def pass1_dv (I : SNE.Idx → EReal) : SN1.Idx → EReal := fun j => dv I (j 0)

/-- Pass two: the edge aggregate of the stepped node features. -/
def pass2 (I : SNE.Idx → EReal) (X : SNF.Idx → EReal) (D : SN1.Idx → EReal) (Y : SEF.Idx → EReal)
    (Wt : SFF.Idx → EReal) : SEF.Idx → EReal :=
  fun j => agg I (step I X D Y Wt) (j 0) (j 1)

/-- Pass three: the output head of the stepped node features, with the head's weights `Wot f c` and the bias
    as a row of extent one. -/
def pass3 (I : SNE.Idx → EReal) (X : SNF.Idx → EReal) (D : SN1.Idx → EReal) (Y : SEF.Idx → EReal)
    (Wt Wot : SFF.Idx → EReal) (B : S1F.Idx → EReal) : SNF.Idx → EReal :=
  fun j => head (fun f c => Wot (ix2 f c)) (fun c => B (ix2 0 c)) (step I X D Y Wt) (j 0) (j 1)

end Cert.Gcn

end
-- ==== Proof.Algebra.lean ====
/-
  The two edge scalings and the two node normalisations agree on the domain `Dom`.

  On `Dom` every incidence weight is a real number and none is negative, so the node degrees `dv`, the edge
  degrees `de` and the degree-weighted edge sums `ss` are real numbers; `dv` and `de` are positive by hypothesis
  and `ss e` is positive because some weight in column `e` is positive and its node's degree is positive.
  For reals `d, s > 0`:  d⁻¹ · (√(s / d))⁻¹ = (√(d · s))⁻¹, so dividing any extended real `a` by `d` and then by
  `√(s / d)` is multiplying it by `rsqrt (d · s)`: only associativity and commutativity of the product on the
  extended reals are used, and nothing is asked of `a`. Likewise `(½ · u) · rsqrt v = ½ · (u / √v)` for real `v > 0`.
  The rest is rewriting under the sums.
-/
import proofs.«172867_g78700980732061_cont_9to1_m_422_2_alg».proof.Proof.Spec

noncomputable section

open Idealize.ShloMosaic Idealize.ShloMosaic.ValueIdx

namespace Cert.Gcn

/-! ## Real sums in the extended reals -/

/-- The coercion of a finite sum of reals is the sum of the coercions. -/
theorem coe_finsum {ι : Type} (s : Finset ι) (r : ι → ℝ) :
    ((∑ i ∈ s, r i : ℝ) : EReal) = ∑ i ∈ s, (r i : EReal) := by
  classical
  induction s using Finset.induction_on with
  | empty => rw [Finset.sum_empty, Finset.sum_empty, EReal.coe_zero]
  | insert a s ha ih => rw [Finset.sum_insert ha, Finset.sum_insert ha, EReal.coe_add, ih]

/-! ## The two laws, over real scales -/

/-- For positive reals: d⁻¹ · (√(s · d⁻¹))⁻¹ = (√(d · s))⁻¹. -/
theorem inv_mul_inv_sqrt {d s : ℝ} (hd : 0 < d) :
    1 / d * (1 / Real.sqrt (s * (1 / d))) = (Real.sqrt (d * s))⁻¹ := by
  have h : Real.sqrt (d * s) = d * Real.sqrt (s * (1 / d)) := by
    have e : d * s = d ^ 2 * (s * (1 / d)) := by field_simp
    rw [e, Real.sqrt_mul (sq_nonneg d), Real.sqrt_sq hd.le]
  rw [h, mul_inv, one_div, one_div]

/-- The edge scaling: a quotient by `d` and then by `√(s / d)` is a product with `rsqrt (d · s)`, at every
    extended real `a`. -/
theorem edge_scale {d s : ℝ} (hd : 0 < d) (hs : 0 < s) (a : EReal) :
    Ideal.div (Ideal.div a (d : EReal)) (Ideal.sqrt (Ideal.div (s : EReal) (d : EReal)))
      = a * Ideal.rsqrt ((d : EReal) * (s : EReal)) := by
  have hq : 0 < s * (1 / d) := mul_pos hs (one_div_pos.mpr hd)
  have hsq : Real.sqrt (s * (1 / d)) ≠ 0 := (Real.sqrt_pos.mpr hq).ne'
  have hds : 0 < d * s := mul_pos hd hs
  rw [Ideal.div_coe hd.ne', Ideal.div_coe hd.ne', ← EReal.coe_mul, Ideal.sqrt_coe, if_neg (not_lt.mpr hq.le),
    Ideal.div_coe hsq, mul_assoc, ← EReal.coe_mul, ← EReal.coe_mul, Ideal.rsqrt_coe, if_neg (not_lt.mpr hds.le),
    if_neg hds.ne', inv_mul_inv_sqrt hd]

/-- The node normalisation: a product with `rsqrt v` is a quotient by `√v`, and the factor ½ moves across. -/
theorem node_scale {v : ℝ} (hv : 0 < v) (u : EReal) :
    (half * u) * Ideal.rsqrt (v : EReal) = half * Ideal.div u (Ideal.sqrt (v : EReal)) := by
  have hsq : Real.sqrt v ≠ 0 := (Real.sqrt_pos.mpr hv).ne'
  rw [Ideal.rsqrt_coe, if_neg (not_lt.mpr hv.le), if_neg hv.ne', Ideal.sqrt_coe, if_neg (not_lt.mpr hv.le),
    Ideal.div_coe hsq, mul_assoc, one_div]

/-! ## The degrees on the domain -/

/-- On the domain the incidence weights are the coercions of real numbers, none negative. -/
theorem Dom.reals {I : SNE.Idx → EReal} (h : Dom I) :
    ∃ r : SNE.Idx → ℝ, (∀ j, I j = (r j : EReal)) ∧ ∀ j, 0 ≤ r j := by
  choose r hr using h.I_fin
  refine ⟨r, hr, fun j => ?_⟩
  have h0 := h.I_nonneg j
  rw [hr j] at h0
  exact EReal.coe_nonneg.mp h0

section
variable {I : SNE.Idx → EReal} {r : SNE.Idx → ℝ} (hr : ∀ j, I j = (r j : EReal))
include hr

theorem dv_coe (n : Fin 10000) : dv I n = ((∑ e : Fin 8192, r (ix2 n e) : ℝ) : EReal) := by
  rw [dv, coe_finsum]
  exact Finset.sum_congr rfl fun e _ => hr _

theorem de_coe (e : Fin 8192) : de I e = ((∑ n : Fin 10000, r (ix2 n e) : ℝ) : EReal) := by
  rw [de, coe_finsum]
  exact Finset.sum_congr rfl fun n _ => hr _

theorem ss_coe (e : Fin 8192) :
    ss I e = ((∑ n : Fin 10000, (∑ e' : Fin 8192, r (ix2 n e')) * r (ix2 n e) : ℝ) : EReal) := by
  rw [ss, coe_finsum]
  refine Finset.sum_congr rfl fun n _ => ?_
  rw [dv_coe hr n, hr (ix2 n e), EReal.coe_mul]

end

/-- The reference's order of the two factors gives the same degree-weighted sum. -/
theorem ssR_eq_ss (I : SNE.Idx → EReal) (e : Fin 8192) : ssR I e = ss I e :=
  Finset.sum_congr rfl fun _ _ => mul_comm _ _

/-- On the domain the degree-weighted edge sum is positive: a column of positive sum has a positive weight,
    at a node of positive degree, and no term is negative. -/
theorem ss_real_pos {r : SNE.Idx → ℝ} (hr0 : ∀ j, 0 ≤ r j) (hv : ∀ n : Fin 10000, 0 < ∑ e' : Fin 8192, r (ix2 n e'))
    (e : Fin 8192) (hd : 0 < ∑ n : Fin 10000, r (ix2 n e)) :
    0 < ∑ n : Fin 10000, (∑ e' : Fin 8192, r (ix2 n e')) * r (ix2 n e) := by
  obtain ⟨n, -, hn⟩ : ∃ n ∈ (Finset.univ : Finset (Fin 10000)), 0 < r (ix2 n e) := by
    by_contra hc
    exact absurd hd (not_lt.mpr (Finset.sum_nonpos fun n hn => not_lt.mp fun hp => hc ⟨n, hn, hp⟩))
  exact Finset.sum_pos' (fun m _ => mul_nonneg (hv m).le (hr0 _)) ⟨n, Finset.mem_univ n, mul_pos (hv n) hn⟩

/-! ## The edge messages, the combined features, the layers, the results -/

section
variable (x : SNF.Idx → EReal) {I : SNE.Idx → EReal} (W : SW.Idx → EReal) (Wo : SFF.Idx → EReal) (b : SF.Idx → EReal)
  (h : Dom I)
include h

/-- The kernel's scaled edge message is the reference's, for every node array. -/
theorem msgK_eq_msgR (z : Fin 10000 → Fin 32 → EReal) (e : Fin 8192) (f : Fin 32) :
    msgK I z (ix2 e f) = msgR I z e f := by
  obtain ⟨r, hr, hr0⟩ := h.reals
  have hvpos : ∀ n : Fin 10000, 0 < ∑ e' : Fin 8192, r (ix2 n e') := fun n => by
    have := h.dv_pos n
    rw [dv_coe hr n] at this
    exact EReal.coe_pos.mp this
  have hdpos : 0 < ∑ n : Fin 10000, r (ix2 n e) := by
    have := h.de_pos e
    rw [de_coe hr e] at this
    exact EReal.coe_pos.mp this
  have hspos := ss_real_pos hr0 hvpos e hdpos
  show agg I z e f * Ideal.rsqrt (de I e * ss I e)
    = Ideal.div (Ideal.div (agg I z e f) (de I e)) (Ideal.sqrt (Ideal.div (ssR I e) (de I e)))
  rw [ssR_eq_ss, de_coe hr e, ss_coe hr e]
  exact (edge_scale hdpos hspos _).symm

/-- The kernel's combined features are the reference's. -/
theorem comb_eq_combR (z : Fin 10000 → Fin 32 → EReal) :
    comb I x (dvCol I) (msgK I z) = combR x I z := by
  obtain ⟨r, hr, -⟩ := h.reals
  have hm : (fun e f => msgK I z (ix2 e f)) = msgR I z :=
    funext fun e => funext fun f => msgK_eq_msgR h z e f
  funext n f
  have hvpos : 0 < ∑ e' : Fin 8192, r (ix2 n e') := by
    have := h.dv_pos n
    rw [dv_coe hr n] at this
    exact EReal.coe_pos.mp this
  show (half * scat I (fun e f => msgK I z (ix2 e f)) n f) * Ideal.rsqrt (dv I n) + half * x (ix2 n f)
    = half * Ideal.div (scat I (msgR I z) n f) (Ideal.sqrt (dv I n)) + half * x (ix2 n f)
  rw [hm, dv_coe hr n, node_scale hvpos]

/-- One fused node step of the kernel is one layer of the reference. -/
theorem step_eq_layerR (l : Fin 2) (z : Fin 10000 → Fin 32 → EReal) :
    step I x (dvCol I) (msgK I z) (wT W l) = layerR x I W l z := by
  show upd (fun k f => W (ix3 l f k)) (comb I x (dvCol I) (msgK I z))
    = upd (fun k f => W (ix3 l f k)) (combR x I z)
  rw [comb_eq_combR x h z]

theorem x1K_eq_x1R : x1K x I W = x1R x I W :=
  step_eq_layerR x W h 0 _

theorem x2K_eq_x2R : x2K x I W = x2R x I W := by
  show step I x (dvCol I) (msgK I (x1K x I W)) (wT W 1) = layerR x I W 1 (x1R x I W)
  rw [x1K_eq_x1R x W h]
  exact step_eq_layerR x W h 1 _

end

/-- On the domain the kernel's result is the reference's. -/
theorem outK_eq_outR (x : SNF.Idx → EReal) (I : SNE.Idx → EReal) (W : SW.Idx → EReal) (Wo : SFF.Idx → EReal)
    (b : SF.Idx → EReal) (h : Dom I) : outK x I W Wo b = outR x I W Wo b := by
  funext n c
  show head (fun f c => Wo (ix2 c f)) (fun c => b (ix1 c)) (x2K x I W) n c
    = head (fun f c => Wo (ix2 c f)) (fun c => b (ix1 c)) (x2R x I W) n c
  rw [x2K_eq_x2R x W h]

end Cert.Gcn

end
-- ==== Proof.PreDom.lean ====
/-
  From the precondition to the domain of the incidence weights.

  The precondition is one conjunction of eight tests, each an "and" over a whole array, evaluated on the five
  argument arrays read as extended reals: |x| < +∞ at every element of each of the five arrays; 0 ≤ I n e at every
  entry of the incidence array; 0 < ∑ e, I n e for every node n; 0 < ∑ n, I n e for every hyperedge e. It says the
  conjunction is the word 1.

  A conjunction of one-bit words is 1 only if each conjunct is; an "and" over an array that starts from 1 and ends
  at 1 met a 1 at every index; and a comparison word that is 1 says the comparison holds in the linear order of the
  extended reals. So four of the eight tests give, index by index, the four facts of `Cert.Gcn.Dom`:
    * max x (-x) < +∞ excludes both infinities, so every weight is a real number;
    * the weight is at least the zero word's value, which is 0;
    * the precondition's row sum (the zero word plus the sum over the column coordinate) is the node degree `dv`,
      and it is above 0;
    * its column sum is the edge degree `de`, and it is above 0.
  The tests on the other four arrays are not used: the two programs treat features and weights by the same sums
  and products, whatever extended reals they are.
-/
import proofs.«172867_g78700980732061_cont_9to1_m_422_2_alg».proof.Defs
import proofs.«172867_g78700980732061_cont_9to1_m_422_2_alg».proof.Proof.Spec
import Idealize.ShloMosaic.Lib.ReduceAll
import Idealize.ShloMosaic.Lib.IdealHost

open Idealize.ShloMosaic Idealize.ShloMosaic.ValueIdx

namespace Cert.Gcn.Pre

open Cert.Pre_finite_inputs

/-- The scalar shape has one index. -/
instance : Subsingleton S_.Idx := ⟨fun a b => funext fun d => d.elim0⟩

/-- The one-bit word of a decided proposition is 1 only when the proposition holds. -/
theorem of_ofBool_one {p : Prop} [Decidable p] (h : BitVec.ofBool (decide p) = 1#1) : p := by
  by_contra hn
  rw [decide_eq_false hn] at h
  exact absurd h (by decide)

/-- The three comparisons the precondition uses, read back from their word: "less than" … -/
theorem lt_of_cmp_olt {x y : EReal} (h : Ideal.cmp .olt x y = 1#1) : x < y := of_ofBool_one h

/-- … "greater than" … -/
theorem lt_of_cmp_ogt {x y : EReal} (h : Ideal.cmp .ogt x y = 1#1) : y < x := of_ofBool_one h

/-- … and "greater than or equal". -/
theorem le_of_cmp_oge {x y : EReal} (h : Ideal.cmp .oge x y = 1#1) : y ≤ x := of_ofBool_one h

/-- The word with all exponent bits set and no fraction bit is +∞. -/
theorem inf_word : Ideal.ofBits .f32 0x7F800000#32 = ⊤ := by simp [Ideal.ofBits, Ideal.ieee]

/-- An extended real whose absolute value max x (-x) is below +∞ is a real number: at -∞ and at +∞ the
    maximum is +∞ itself. -/
theorem real_of_abs_lt (x : EReal) (h : max x (-x) < Ideal.ofBits .f32 0x7F800000#32) : ∃ r : ℝ, x = r := by
  rw [inf_word] at h
  induction x using EReal.rec with
  | bot => simp at h
  | coe r => exact ⟨r, rfl⟩
  | top => simp at h

/-- A conjunction of two one-bit arrays is 1 at an index only if both are. -/
theorem andi_split {s : Shape} (x y : IVec s 1) (i : s.Idx) (h : andi x y i = 1#1) : x i = 1#1 ∧ y i = 1#1 :=
  IntOp.andi_eq_one.1 h

/-- The finiteness test at one index: |x i| below the broadcast +∞ makes x i a real number. -/
theorem real_at {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = r := by
  have e' : Ideal.cmp .olt (max (x i) (-(x i))) (Ideal.ofBits .f32 0x7F800000#32) = 1#1 := e
  exact real_of_abs_lt _ (lt_of_cmp_olt e')

/-- The sign test at one index: x i at least the broadcast zero. -/
theorem nonneg_at {s : Shape} (x : FVec Ideal s .f32) (hb : S_.BroadcastsInDim s (![] : Fin 0 → Fin s.rank)) (i : s.Idx)
    (e : cmpf .oge x (broadcastInDim s ![] hb (constant (F := Ideal) S_ .f32 0x00000000#32)) i = 1#1) : 0 ≤ x i := by
  have e' : Ideal.cmp .oge (x i) (Ideal.ofBits .f32 0x00000000#32) = 1#1 := e
  have := le_of_cmp_oge e'
  rwa [Ideal.ofBits_zero_f32] at this

/-- The positivity test at one index: x i above the broadcast zero. -/
theorem pos_at {s : Shape} (x : FVec Ideal s .f32) (hb : S_.BroadcastsInDim s (![] : Fin 0 → Fin s.rank)) (i : s.Idx)
    (e : cmpf .ogt x (broadcastInDim s ![] hb (constant (F := Ideal) S_ .f32 0x00000000#32)) i = 1#1) : 0 < x i := by
  have e' : Ideal.cmp .ogt (x i) (Ideal.ofBits .f32 0x00000000#32) = 1#1 := e
  have := lt_of_cmp_ogt e'
  rwa [Ideal.ofBits_zero_f32] at this

/-- The precondition's sum of the incidence array over its second axis, from zero, is the node degree: at node n it is
    0 + ∑ e, I (n, e), the inserted coordinate taking the column's place. -/
theorem rowsum_eq (a1 : FVec Ideal S10000x8192 .f32) (h' : S10000x8192.ReducesTo [1] S10000) (hu : 0 < S_.numel)
    (n : Fin 10000) :
    Host.reduceAdd a1 (constant (F := Ideal) S_ .f32 0x00000000#32) h' hu (ix1 n) = Cert.Gcn.dv a1 n := by
  have hR : S10000x8192.Reduces [1] S10000 := by decide
  rw [hostReduceAdd_apply, Ideal.hostReduceAdd_single h' hR, constant_apply, Ideal.ofBits_zero_f32, zero_add]
  unfold Cert.Gcn.dv
  refine Finset.sum_congr rfl fun k _ => congrArg a1 ?_
  funext c; apply Fin.ext; match c with | ⟨0, _⟩ => rfl | ⟨1, _⟩ => rfl

/-- Its sum over the first axis, from zero, is the edge degree: at hyperedge e it is 0 + ∑ n, I (n, e). -/
theorem colsum_eq (a1 : FVec Ideal S10000x8192 .f32) (h' : S10000x8192.ReducesTo [0] S8192) (hu : 0 < S_.numel)
    (e : Fin 8192) :
    Host.reduceAdd a1 (constant (F := Ideal) S_ .f32 0x00000000#32) h' hu (ix1 e) = Cert.Gcn.de a1 e := by
  have hR : S10000x8192.Reduces [0] S8192 := by decide
  rw [hostReduceAdd_apply, Ideal.hostReduceAdd_single h' hR, constant_apply, Ideal.ofBits_zero_f32, zero_add]
  unfold Cert.Gcn.de
  refine Finset.sum_congr rfl fun k _ => congrArg a1 ?_
  funext c; apply Fin.ext; match c with | ⟨0, _⟩ => rfl | ⟨1, _⟩ => rfl

/-- The precondition's function on any five arrays: if it is 1, the second array lies in the domain. The eight
    conjuncts are nested to the left, so the last three split off first (edge degrees, node degrees, signs), then
    the finiteness tests of the fifth, fourth and third array are dropped, and the second's is kept. -/
theorem dom_of_fn [Cert.Pre_finite_inputs.Facts] (a0 : FVec Ideal S10000x32 .f32) (a1 : FVec Ideal S10000x8192 .f32)
    (a2 : FVec Ideal S2x32x32 .f32) (a3 : FVec Ideal S32x32 .f32) (a4 : FVec Ideal S32 .f32)
    (h : Cert.Pre_finite_inputs.fn (F := Ideal) a0 a1 a2 a3 a4 = fun _ => 1#1) : Cert.Gcn.Dom a1 := by
  have h0 := congrFun h ix0
  dsimp only [Cert.Pre_finite_inputs.fn, Cert.Pre_finite_inputs.fn_part1, Cert.Pre_finite_inputs.fn_part2] at h0
  obtain ⟨h1, hde⟩ := andi_split _ _ _ h0
  obtain ⟨h2, hdv⟩ := andi_split _ _ _ h1
  obtain ⟨h3, hge⟩ := andi_split _ _ _ h2
  obtain ⟨h4, -⟩ := andi_split _ _ _ h3
  obtain ⟨h5, -⟩ := andi_split _ _ _ h4
  obtain ⟨h6, -⟩ := andi_split _ _ _ h5
  obtain ⟨-, hfin⟩ := andi_split _ _ _ h6
  refine ⟨fun j => ?_, fun j => ?_, fun n => ?_, fun e => ?_⟩
  · exact real_at a1 _ j (Host.reduce_andi_all _ _ _ _ _ hfin j)
  · exact nonneg_at a1 _ j (Host.reduce_andi_all _ _ _ _ _ hge j)
  · have := pos_at _ _ (ix1 n) (Host.reduce_andi_all _ _ _ _ _ hdv (ix1 n))
    rwa [rowsum_eq] at this
  · have := pos_at _ _ (ix1 e) (Host.reduce_andi_all _ _ _ _ _ hde (ix1 e))
    rwa [colsum_eq] at this

/-- The kernel's precondition puts each device's incidence array in the domain. -/
theorem dom_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.Dom (m ((c.tc : Thread Cert.KernelIdeal.nD Cert.KernelIdeal.τ).loc Cert.KernelIdeal.main_arg1)) :=
  dom_of_fn _ _ _ _ _ (h c)

end Cert.Gcn.Pre
-- ==== Proof.RefValue.lean ====
/-
  The reference's result as the specification's function.

  The reference computes, for node features `x` [10000, 32], incidence weights `I` [10000, 8192], layer weights
  `W` [2, 32, 32], head weights `Wo` [32, 32] and a bias `b` [32], two layers of

      z  ↦  upd (½ · scat (msg z) / √dv + ½ · x),      upd u = ½ u + ½ u W[l]ᵀ,
      msg z = (agg z / de) / √(ssR / de),

  and then the head `u Woᵀ + b`. Every sum is a product with the incidence array or a reduction of it from the zero
  word, so at the extended reals each is the plain finite sum of the specification: `dv`, `de` (row and column sums),
  `ssR` (the transposed incidence times the degree column), `agg` (the transposed incidence times a node array) and
  `scat` (the incidence times an edge array).

  The operations from the edge aggregate up to the halved, degree-normalised scatter take the node array they start
  from as an argument, so that stretch is read once, for an arbitrary node array `z` (`agg_read`, `msg_read`,
  `scaled_read`). The second layer applies the same operations to the same incidence array, starting from the first
  layer's result (`second_fold`), so it instantiates the same three lemmas. What is left per layer is the skip term, the
  update with that layer's slice of the weights (`wt0_read`, `wt1_read`: a slice, a reshape and a transposition
  read `W[l]` at the swapped pair of coordinates), and at the end the head (`out_read`).

  Order of factors is the specification's throughout: weight times array in `agg`, `ssR`, `scat`; array times
  weight in the update and the head.
-/
import proofs.«172867_g78700980732061_cont_9to1_m_422_2_alg».proof.Proof.Spec
import proofs.«172867_g78700980732061_cont_9to1_m_422_2_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx Idealize.SL.Sem
open Cert.Gcn (dv de ss ssR agg scat upd head half msgR combR layerR x1R x2R outR)

variable (x : (⟨S10000x32, .f32⟩ : BufTy).Contents (Elt Ideal)) (I : (⟨S10000x8192, .f32⟩ : BufTy).Contents (Elt Ideal))
  (W : (⟨S2x32x32, .f32⟩ : BufTy).Contents (Elt Ideal)) (Wo : (⟨S32x32, .f32⟩ : BufTy).Contents (Elt Ideal))
  (b : (⟨S32, .f32⟩ : BufTy).Contents (Elt Ideal))

/-! ## The four sums -/

/-- The node degree: the host's row sum from the zero word. -/
theorem dv_read (n : Fin 10000) : val_main_v8 (F := Ideal) I (ix1 n) = dv I n := by
  rw [val_main_v8_apply, val_main_cst_0_apply, Ideal.ofBits_def, Ideal.ofBits_zero_f32, zero_add]
  unfold Cert.Gcn.dv
  refine Finset.sum_congr rfl fun k _ => congrArg I ?_
  exact funext fun a => Fin.ext (by match a with | ⟨0, _⟩ => rfl | ⟨1, _⟩ => rfl)

/-- The edge degree: the host's column sum from the zero word. -/
theorem de_read (e : Fin 8192) : val_main_v3 (F := Ideal) I (ix1 e) = de I e := by
  rw [val_main_v3_apply, val_main_cst_apply, Ideal.ofBits_def, Ideal.ofBits_zero_f32, zero_add]
  unfold Cert.Gcn.de
  refine Finset.sum_congr rfl fun k _ => congrArg I ?_
  exact funext fun a => Fin.ext (by match a with | ⟨0, _⟩ => rfl | ⟨1, _⟩ => rfl)

/-- The edge aggregate of a node array `z`: the product of the transposed incidence with `z`. -/
theorem agg_read (z : (⟨S10000x32, .f32⟩ : BufTy).Contents (Elt Ideal)) (e : Fin 8192) (f : Fin 32) :
    val_main_v4 (F := Ideal) z I (ix2 e f) = agg I (fun n f => z (ix2 n f)) e f := by
  rw [val_main_v4_apply]
  unfold Cert.Gcn.agg
  refine Finset.sum_congr rfl fun k _ => ?_
  rw [val_main_v2_apply]
  refine congrArg₂ (· * ·) (congrArg I ?_) (congrArg z ?_)
  · exact funext fun a => Fin.ext (by match a with | ⟨0, _⟩ => rfl | ⟨1, _⟩ => rfl)
  · exact funext fun a => Fin.ext (by match a with | ⟨0, _⟩ => rfl | ⟨1, _⟩ => rfl)

/-- The degree-weighted edge sum, weight first: the product of the transposed incidence with the degree column. -/
theorem ssR_read (e : Fin 8192) : val_main_v10 (F := Ideal) I (ix2 e 0) = ssR I e := by
  rw [val_main_v10_apply]
  unfold Cert.Gcn.ssR
  refine Finset.sum_congr rfl fun k _ => ?_
  rw [val_main_v2_apply, val_main_v9_apply, ← dv_read I k]
  refine congrArg₂ (· * ·) (congrArg I ?_) (congrArg (val_main_v8 (F := Ideal) I) ?_)
  · exact funext fun a => Fin.ext (by match a with | ⟨0, _⟩ => rfl | ⟨1, _⟩ => rfl)
  · exact funext fun a => Fin.ext (by match a with | ⟨0, _⟩ => rfl)

/-! ## The edge message and the scaled scatter of a node array -/

/-- The reference's edge message of `z`: the aggregate over the edge degree, over the root of the mean degree. -/
theorem msg_read (z : (⟨S10000x32, .f32⟩ : BufTy).Contents (Elt Ideal)) (e : Fin 8192) (f : Fin 32) :
    val_main_v16 (F := Ideal) z I (ix2 e f) = msgR I (fun n f => z (ix2 n f)) e f := by
  have h1 : idx_main_v5 (idx_main_v6 (ix2 e f : S8192x32.Idx)) = ix1 e :=
    funext fun a => Fin.ext (by match a with | ⟨0, _⟩ => rfl)
  have h2 : idx_main_v14 (idx_main_v15 (ix2 e f : S8192x32.Idx)) = ix1 e :=
    funext fun a => Fin.ext (by match a with | ⟨0, _⟩ => rfl)
  have h3 : idx_main_v11 (ix1 e : S8192.Idx) = ix2 e 0 :=
    funext fun a => Fin.ext (by match a with | ⟨0, _⟩ => exact Nat.div_one _ | ⟨1, _⟩ => rfl)
  rw [val_main_v16_apply, val_main_v7_apply, val_main_v6_apply, val_main_v5_apply, val_main_v15_apply,
    val_main_v14_apply, val_main_v13_apply, val_main_v12_apply, val_main_v11_apply, h1, h2, h3,
    agg_read, de_read, ssR_read]
  rfl

/-- Half the node scatter of the edge messages of `z`, over the root of the node degree. -/
theorem scaled_read (z : (⟨S10000x32, .f32⟩ : BufTy).Contents (Elt Ideal)) (n : Fin 10000) (f : Fin 32) :
    val_main_v23 (F := Ideal) z I (ix2 n f)
      = half * Ideal.div (scat I (msgR I fun n f => z (ix2 n f)) n f) (Ideal.sqrt (dv I n)) := by
  have h1 : idx_main_v19 (idx_main_v20 (ix2 n f : S10000x32.Idx)) = ix1 n :=
    funext fun a => Fin.ext (by match a with | ⟨0, _⟩ => rfl)
  rw [val_main_v23_apply, val_main_v22_apply, val_main_cst_1_apply, val_main_v21_apply, val_main_v17_apply,
    val_main_v20_apply, val_main_v19_apply, val_main_v18_apply, h1, dv_read]
  unfold Cert.Gcn.scat
  refine congrArg (fun s => half * Ideal.div s (Ideal.sqrt (dv I n))) (Finset.sum_congr rfl fun k _ => ?_)
  rw [← msg_read I z k f]
  refine congrArg₂ (· * ·) (congrArg I ?_) (congrArg (val_main_v16 (F := Ideal) z I) ?_)
  · exact funext fun a => Fin.ext (by match a with | ⟨0, _⟩ => rfl | ⟨1, _⟩ => rfl)
  · exact funext fun a => Fin.ext (by match a with | ⟨0, _⟩ => rfl | ⟨1, _⟩ => rfl)

/-! ## The two layers -/

/-- Layer `0`'s weights as the update reads them: the slice `W[0]`, transposed. -/
theorem wt0_read (k f : Fin 32) : val_main_v29 (F := Ideal) W (ix2 k f) = W (ix3 0 f k) := by
  rw [val_main_v29_apply, val_main_v1_apply, val_main_v0_apply]
  refine congrArg W (funext fun a => Fin.ext ?_)
  have hk := k.isLt; have hf := f.isLt
  match a with
  | ⟨0, _⟩ => rfl
  | ⟨1, _⟩ => show (f.val * 32 + k.val) / 32 % 32 = f.val; omega
  | ⟨2, _⟩ => show (f.val * 32 + k.val) % 32 = k.val; omega

/-- Layer `1`'s weights as the update reads them: the slice `W[1]`, transposed. -/
theorem wt1_read (k f : Fin 32) : val_main_v63 (F := Ideal) W (ix2 k f) = W (ix3 1 f k) := by
  rw [val_main_v63_apply, val_main_v35_apply, val_main_v34_apply]
  refine congrArg W (funext fun a => Fin.ext ?_)
  have hk := k.isLt; have hf := f.isLt
  match a with
  | ⟨0, _⟩ => rfl
  | ⟨1, _⟩ => show (f.val * 32 + k.val) / 32 % 32 = f.val; omega
  | ⟨2, _⟩ => show (f.val * 32 + k.val) % 32 = k.val; omega

/-- The first layer's combined features: the scaled scatter of the features' own messages, plus half the features. -/
theorem comb1_read (n : Fin 10000) (f : Fin 32) :
    val_main_v26 (F := Ideal) x I (ix2 n f) = combR x I (fun n f => x (ix2 n f)) n f := by
  rw [val_main_v26_apply, val_main_v25_apply, val_main_v24_apply, val_main_cst_2_apply, scaled_read]
  rfl

/-- The first layer's result. -/
theorem layer1_read (n : Fin 10000) (f : Fin 32) :
    val_main_v33 (F := Ideal) x I W (ix2 n f) = x1R x I W n f := by
  rw [val_main_v33_apply, val_main_v28_apply, val_main_v27_apply, val_main_cst_3_apply, val_main_v32_apply,
    val_main_v31_apply, val_main_cst_4_apply, val_main_v30_apply, comb1_read]
  unfold Cert.Gcn.x1R Cert.Gcn.layerR Cert.Gcn.upd
  refine congrArg (fun s => half * combR x I (fun n f => x (ix2 n f)) n f + half * s)
    (Finset.sum_congr rfl fun k _ => ?_)
  show _ = combR x I (fun n f => x (ix2 n f)) n k * W (ix3 0 f k)
  rw [← comb1_read x I n k, ← wt0_read W k f]
  refine congrArg₂ (· * ·) (congrArg (val_main_v26 (F := Ideal) x I) ?_) (congrArg (val_main_v29 (F := Ideal) W) ?_)
  · exact funext fun a => Fin.ext (by match a with | ⟨0, _⟩ => rfl | ⟨1, _⟩ => rfl)
  · exact funext fun a => Fin.ext (by match a with | ⟨0, _⟩ => rfl | ⟨1, _⟩ => rfl)

/-- The second layer scatters the messages of the first layer's result: its scaled scatter is the first layer's chain
    of operations applied to that array (the two chains are the same operations on the same incidence array). -/
theorem second_fold : val_main_v57 (F := Ideal) x I W = val_main_v23 (F := Ideal) (val_main_v33 (F := Ideal) x I W) I := rfl

/-- The second layer's combined features. -/
theorem comb2_read (n : Fin 10000) (f : Fin 32) :
    val_main_v60 (F := Ideal) x I W (ix2 n f) = combR x I (x1R x I W) n f := by
  rw [val_main_v60_apply, val_main_v59_apply, val_main_v58_apply, val_main_cst_8_apply, second_fold, scaled_read]
  simp only [layer1_read]
  rfl

/-- The second layer's result. -/
theorem layer2_read (n : Fin 10000) (f : Fin 32) :
    val_main_v67 (F := Ideal) x I W (ix2 n f) = x2R x I W n f := by
  rw [val_main_v67_apply, val_main_v62_apply, val_main_v61_apply, val_main_cst_9_apply, val_main_v66_apply,
    val_main_v65_apply, val_main_cst_10_apply, val_main_v64_apply, comb2_read]
  unfold Cert.Gcn.x2R Cert.Gcn.layerR Cert.Gcn.upd
  refine congrArg (fun s => half * combR x I (x1R x I W) n f + half * s)
    (Finset.sum_congr rfl fun k _ => ?_)
  show _ = combR x I (x1R x I W) n k * W (ix3 1 f k)
  rw [← comb2_read x I W n k, ← wt1_read W k f]
  refine congrArg₂ (· * ·) (congrArg (val_main_v60 (F := Ideal) x I W) ?_) (congrArg (val_main_v63 (F := Ideal) W) ?_)
  · exact funext fun a => Fin.ext (by match a with | ⟨0, _⟩ => rfl | ⟨1, _⟩ => rfl)
  · exact funext fun a => Fin.ext (by match a with | ⟨0, _⟩ => rfl | ⟨1, _⟩ => rfl)

/-! ## The head, and the run -/

/-- The reference's result array is the specification's `outR`, index by index. -/
theorem out_read :
    val_main_v72 (F := Ideal) x I W Wo b = fun j : S10000x32.Idx => outR x I W Wo b (j 0) (j 1) := by
  funext j
  obtain ⟨n, c, rfl⟩ : ∃ (n : Fin 10000) (c : Fin 32), j = ix2 n c := ⟨j 0, j 1, eq_ix2 j⟩
  rw [val_main_v72_apply, val_main_v69_apply, val_main_v71_apply, val_main_v70_apply]
  show _ = outR x I W Wo b n c
  unfold Cert.Gcn.outR Cert.Gcn.head
  refine congrArg₂ (· + ·) (Finset.sum_congr rfl fun k _ => ?_) (congrArg b ?_)
  · rw [val_main_v68_apply, ← layer2_read x I W n k]
    refine congrArg₂ (· * ·) (congrArg (val_main_v67 (F := Ideal) x I W) ?_) (congrArg Wo ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The reference runs, leaves `outR` of its argument arrays in its result array, and leaves the arguments unchanged. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v72)
        = (fun j : S10000x32.Idx => outR (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (j 0) (j 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run Cert.ReferenceIdeal.defs _ _).mono
    (fun _ h c => ⟨(h c).1.trans ((val_main_v72_eq m' c).trans (out_read _ _ _ _ _)), (h c).2⟩)
    (Cert.ReferenceIdeal.Value.run (F := Ideal) m' ρ')

end Cert.ReferenceIdeal.RefValue

end
-- ==== Proof.RunValue.lean ====
/-
  The kernel's run, with the result named. Every buffer that outlives the three passes ends at the contents the
  passes and the host lines between them leave, folded from the launch memory; the frame reads that fold at the
  five arguments, and here it is read at the result buffer as well: the result array ends at the fold's value
  there (`W5`), which the later modules open pass by pass.
-/
import proofs.«172867_g78700980732061_cont_9to1_m_422_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, the result array at the
    fold's value and the five argument arrays as launched. -/
theorem run_value : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Glue.lean ====
/-
  The host lines between the passes, read at an index over the extended reals.

  Between the first and the second pass the edge degrees and the degree-weighted edge sums (rows of extent one)
  are reshaped to vectors, multiplied, sent through the reciprocal square root, and broadcast along the feature
  axis; the edge aggregate is multiplied by that. The result at (e, f) is the aggregate there times
  rsqrt (de e · ss e): the scaled edge message. The same broadcast scales the second aggregate before the third pass.
  A layer's weights are cut out of the [2, 32, 32] stack, the unit axis dropped, and transposed; the head's
  weights are transposed; the bias becomes a row.
-/
import proofs.«172867_g78700980732061_cont_9to1_m_422_2_alg».proof.Proof.Spec
import Idealize.ShloMosaic.Lib.Pipeline.Value
import Idealize.ShloMosaic.Lib.ValueLayout

noncomputable section

open Idealize.ShloMosaic Idealize.ShloMosaic.ValueIdx

namespace Cert.Gcn

abbrev SE : Shape := ⟨1, ![8192]⟩
abbrev SE1 : Shape := ⟨2, ![8192, 1]⟩
abbrev S1FF : Shape := ⟨3, ![1, 32, 32]⟩

/-- The edge scaling as the column the host broadcasts: entry (e, 0) is rsqrt (de-row e · ss-row e). -/
theorem scale_col_apply (dr sr : FVec Ideal S1E .f32) (h1 h2 : S1E.ShapeCasts SE)
    (hb : SE.BroadcastsInDim SE1 ![0]) (e : Fin 8192) (u : Fin 1) :
    broadcastInDim SE1 ![0] hb (Host.rsqrt (mulf (shapeCast SE dr h1) (shapeCast SE sr h2)) : FVec Ideal SE .f32) (ix2 e u)
      = Ideal.rsqrt (dr (ix2 0 e) * sr (ix2 0 e)) := by
  rw [broadcastInDim_apply ![0] hb _ (ix2 e u) (ix1 e) (fun a => by match a with | ⟨0, _⟩ => rfl)]
  show Ideal.rsqrt (shapeCast SE dr h1 (ix1 e) * shapeCast SE sr h2 (ix1 e)) = _
  rw [shapeCast_1a_a_apply dr h1 e, shapeCast_1a_a_apply sr h2 e]

/-- An edge array times the scaling column broadcast along the features. -/
theorem scaled_apply (M : FVec Ideal SEF .f32) (col : FVec Ideal SE1 .f32) (hb : SE1.BroadcastsInDim SEF ![0, 1])
    (e : Fin 8192) (f : Fin 32) :
    mulf M (broadcastInDim SEF ![0, 1] hb col) (ix2 e f) = M (ix2 e f) * col (ix2 e 0) := by
  show M (ix2 e f) * broadcastInDim SEF ![0, 1] hb col (ix2 e f) = _
  rw [broadcastInDim_apply ![0, 1] hb col (ix2 e f) (ix2 e 0)
    (fun a => by match a with | ⟨0, _⟩ => rfl | ⟨1, _⟩ => rfl)]

/-- Layer `l`'s weights cut out of the stack, the unit axis dropped, transposed: entry (k, f) is W (l, f, k). -/
theorem wT_eq (W : FVec Ideal SW .f32) (l : Fin 2) (hs : SW.Slices ![l.val, 0, 0] S1FF) (hc : S1FF.ShapeCasts SFF)
    (ht : SFF.Transposes [1, 0] SFF) :
    transpose SFF [1, 0] (shapeCast SFF (extractStridedSlice S1FF ![l.val, 0, 0] W hs) hc) ht = wT W l := by
  funext j
  obtain ⟨k, f, rfl⟩ : ∃ (k f : Fin 32), j = ix2 k f := ⟨j 0, j 1, eq_ix2 j⟩
  rw [transpose_ix2_apply _ ht k f, shapeCast_1ab_ab_apply _ hc f k]
  refine extractStridedSlice_apply _ W hs _ (ix3 l f k) fun a => ?_
  match a with
  | ⟨0, _⟩ => show l.val = l.val + 0; rfl
  | ⟨1, _⟩ => show f.val = 0 + f.val; omega
  | ⟨2, _⟩ => show k.val = 0 + k.val; omega

/-- The head's weights transposed: entry (f, c) is Wo (c, f). -/
theorem woT_apply (Wo : FVec Ideal SFF .f32) (ht : SFF.Transposes [1, 0] SFF) (f c : Fin 32) :
    transpose SFF [1, 0] Wo ht (ix2 f c) = Wo (ix2 c f) := transpose_ix2_apply Wo ht f c

/-- The bias as a row: entry (0, c) is b c. -/
theorem bias_row_apply (b : FVec Ideal SF .f32) (hb : SF.BroadcastsInDim S1F ![1]) (c : Fin 32) :
    broadcastInDim S1F ![1] hb b (ix2 0 c) = b (ix1 c) :=
  broadcastInDim_apply ![1] hb b _ _ (fun a => by match a with | ⟨0, _⟩ => rfl)

end Cert.Gcn

end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.Assemble.lean ====
/-
  The kernel's result buffer, opened pass by pass.

  The run leaves the result buffer at a fold through @main: the third pass's output array, computed from the
  buffers as the second stretch of host lines leaves them, which in turn hold the second pass's array scaled, and so
  on back to the launch memory. Here every link is read: a buffer that no host line of a stretch writes keeps its
  contents across the stretch; a pass hands its input arrays on unchanged and touches no buffer that is not one of
  its arrays; the host lines' values are the plain compositions of their operations; and, given what each pass
  leaves in its output arrays as a function of the arrays it is handed, the composite is the specification's
  `outK` of the five arguments:
    pass one leaves the edge aggregate of the features, the edge degrees, the degree-weighted edge sums, the node degrees;
    the host multiplies the aggregate by rsqrt (de · ss), edge by edge: the scaled messages of the features;
    pass two leaves the edge aggregate of the first layer's features; the host scales it the same way;
    pass three leaves the head of the second layer's features.
-/
import proofs.«172867_g78700980732061_cont_9to1_m_422_2_alg».proof.Proof.Gen.KernelIdeal.Frame
import proofs.«172867_g78700980732061_cont_9to1_m_422_2_alg».proof.Proof.Spec
import proofs.«172867_g78700980732061_cont_9to1_m_422_2_alg».proof.Proof.Glue
import proofs.«172867_g78700980732061_cont_9to1_m_422_2_alg».proof.Proof.LibHostLine
import Idealize.ShloMosaic.Lib.StableHlo.Run
set_option maxRecDepth 16384
noncomputable section
namespace Cert.KernelIdeal.Assemble
open Cert.KernelIdeal Cert.KernelIdeal.Gen Cert.Gcn
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg) (c : Dev nD)

/-- The scaling column: the two rows reshaped, multiplied, through the reciprocal root, as a column. -/
def scaleCol (dr sr : FVec Ideal S1x8192 .f32) : FVec Ideal S8192x1 .f32 :=
  broadcastInDim S8192x1 ![0] bcast_S8192_S8192x1_0
    (Host.rsqrt (mulf (shapeCast S8192 dr shapeCasts_S1x8192_S8192) (shapeCast S8192 sr shapeCasts_S1x8192_S8192)))
/-- An edge array times a column broadcast along the features. -/
def scaledBy (M : FVec Ideal S8192x32 .f32) (col : FVec Ideal S8192x1 .f32) : FVec Ideal S8192x32 .f32 :=
  mulf M (broadcastInDim S8192x32 ![0, 1] bcast_S8192x1_S8192x32_0_1 col)
/-- The first layer's weights, transposed. -/
def layerWT0 (W : FVec Ideal S2x32x32 .f32) : FVec Ideal S32x32 .f32 :=
  transpose S32x32 [1, 0] (shapeCast S32x32 (extractStridedSlice S1x32x32 ![0, 0, 0] W slices_S2x32x32_S1x32x32_0_0_0)
    shapeCasts_S1x32x32_S32x32) transposes_S32x32_S32x32_1_0
/-- The second layer's weights, transposed. -/
def layerWT1 (W : FVec Ideal S2x32x32 .f32) : FVec Ideal S32x32 .f32 :=
  transpose S32x32 [1, 0] (shapeCast S32x32 (extractStridedSlice S1x32x32 ![1, 0, 0] W slices_S2x32x32_S1x32x32_1_0_0)
    shapeCasts_S1x32x32_S32x32) transposes_S32x32_S32x32_1_0
def headWT (Wo : FVec Ideal S32x32 .f32) : FVec Ideal S32x32 .f32 := transpose S32x32 [1, 0] Wo transposes_S32x32_S32x32_1_0
def biasRow (b : FVec Ideal S32 .f32) : FVec Ideal S1x32 .f32 := broadcastInDim S1x32 ![1] bcast_S32_S1x32_1 b

theorem v5_eq : W2 m ρ c (Proc.devRef .tc main_call0_v5)
    = scaleCol (W1 m ρ c (Proc.devRef .tc main_call0_v0_1)) (W1 m ρ c (Proc.devRef .tc main_call0_v0_2)) := by
  show StableHlo.after hostOps1 (W1 m ρ c) (Proc.devRef .tc main_call0_v5) = _
  after_results
  simp only [Cert.LibHostLine.ofBuf_toBuf]
  rfl

theorem v7_eq : W2 m ρ c (Proc.devRef .tc main_call0_v7)
    = scaledBy (W1 m ρ c (Proc.devRef .tc main_call0_v0_0))
        (scaleCol (W1 m ρ c (Proc.devRef .tc main_call0_v0_1)) (W1 m ρ c (Proc.devRef .tc main_call0_v0_2))) := by
  show StableHlo.after hostOps1 (W1 m ρ c) (Proc.devRef .tc main_call0_v7) = _
  after_results
  simp only [Cert.LibHostLine.ofBuf_toBuf]
  rfl

theorem v10_eq : W2 m ρ c (Proc.devRef .tc main_call0_v10) = layerWT0 (W1 m ρ c (Proc.devRef .tc main_arg2)) := by
  show StableHlo.after hostOps1 (W1 m ρ c) (Proc.devRef .tc main_call0_v10) = _
  after_results
  simp only [Cert.LibHostLine.ofBuf_toBuf]
  rfl

theorem v13_eq : W4 m ρ c (Proc.devRef .tc main_call0_v13)
    = scaledBy (W3 m ρ c (Proc.devRef .tc main_call0_v11)) (W3 m ρ c (Proc.devRef .tc main_call0_v5)) := by
  show StableHlo.after hostOps2 (W3 m ρ c) (Proc.devRef .tc main_call0_v13) = _
  after_results
  simp only [Cert.LibHostLine.ofBuf_toBuf]
  rfl

theorem v16_eq : W4 m ρ c (Proc.devRef .tc main_call0_v16) = layerWT1 (W3 m ρ c (Proc.devRef .tc main_arg2)) := by
  show StableHlo.after hostOps2 (W3 m ρ c) (Proc.devRef .tc main_call0_v16) = _
  after_results
  simp only [Cert.LibHostLine.ofBuf_toBuf]
  rfl

theorem v17_eq : W4 m ρ c (Proc.devRef .tc main_call0_v17) = headWT (W3 m ρ c (Proc.devRef .tc main_arg3)) := by
  show StableHlo.after hostOps2 (W3 m ρ c) (Proc.devRef .tc main_call0_v17) = _
  after_results
  simp only [Cert.LibHostLine.ofBuf_toBuf]
  rfl

theorem v18_eq : W4 m ρ c (Proc.devRef .tc main_call0_v18) = biasRow (W3 m ρ c (Proc.devRef .tc main_arg4)) := by
  show StableHlo.after hostOps2 (W3 m ρ c) (Proc.devRef .tc main_call0_v18) = _
  after_results
  simp only [Cert.LibHostLine.ofBuf_toBuf]
  rfl

/-! ## Buffers no host line writes keep their contents across a stretch -/

local macro "keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W2_arg0 : W2 m ρ c (Proc.devRef .tc main_arg0) = W1 m ρ c (Proc.devRef .tc main_arg0) := by keeps hostOps1
theorem W2_arg1 : W2 m ρ c (Proc.devRef .tc main_arg1) = W1 m ρ c (Proc.devRef .tc main_arg1) := by keeps hostOps1
theorem W2_dv : W2 m ρ c (Proc.devRef .tc main_call0_v0_3) = W1 m ρ c (Proc.devRef .tc main_call0_v0_3) := by keeps hostOps1
theorem W4_arg0 : W4 m ρ c (Proc.devRef .tc main_arg0) = W3 m ρ c (Proc.devRef .tc main_arg0) := by keeps hostOps2
theorem W4_arg1 : W4 m ρ c (Proc.devRef .tc main_arg1) = W3 m ρ c (Proc.devRef .tc main_arg1) := by keeps hostOps2
theorem W4_dv : W4 m ρ c (Proc.devRef .tc main_call0_v0_3) = W3 m ρ c (Proc.devRef .tc main_call0_v0_3) := by keeps hostOps2

/-! ## A pass hands its input arrays on unchanged, and leaves every buffer that is not one of its arrays alone -/

theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 : W1 m ρ c (Proc.devRef .tc main_arg2) = m ((c : Thread nD τ).loc main_arg2) :=
  W1_of_ne m ρ c main_arg2 (by decide)
theorem W3_arg1 : W3 m ρ c (Proc.devRef .tc main_arg1) = W2 m ρ c (Proc.devRef .tc main_arg1) :=
  (W3_arr m ρ c 0).trans (((dat1 (V2 m ρ) c).arrAt_in 0 rfl _).trans (A_eq1 (V2 m ρ) c 0))
theorem W3_arg0 : W3 m ρ c (Proc.devRef .tc main_arg0) = W2 m ρ c (Proc.devRef .tc main_arg0) :=
  (W3_arr m ρ c 1).trans (((dat1 (V2 m ρ) c).arrAt_in 1 rfl _).trans (A_eq1 (V2 m ρ) c 1))
theorem W3_dv : W3 m ρ c (Proc.devRef .tc main_call0_v0_3) = W2 m ρ c (Proc.devRef .tc main_call0_v0_3) :=
  (W3_arr m ρ c 2).trans (((dat1 (V2 m ρ) c).arrAt_in 2 rfl _).trans (A_eq1 (V2 m ρ) c 2))
theorem W3_v5 : W3 m ρ c (Proc.devRef .tc main_call0_v5) = W2 m ρ c (Proc.devRef .tc main_call0_v5) :=
  W3_of_ne m ρ c main_call0_v5 (by decide)

/-- The weights, the head's weights and the bias reach the second stretch of host lines as launched. -/
theorem W3_arg2 : W3 m ρ c (Proc.devRef .tc main_arg2) = m ((c : Thread nD τ).loc main_arg2) :=
  (W3_of_ne m ρ c main_arg2 (by decide)).trans
    ((show W2 m ρ c (Proc.devRef .tc main_arg2) = W1 m ρ c (Proc.devRef .tc main_arg2) by keeps hostOps1).trans (W1_arg2 m ρ c))
theorem W3_arg3 : W3 m ρ c (Proc.devRef .tc main_arg3) = m ((c : Thread nD τ).loc main_arg3) :=
  (W3_of_ne m ρ c main_arg3 (by decide)).trans
    ((show W2 m ρ c (Proc.devRef .tc main_arg3) = W1 m ρ c (Proc.devRef .tc main_arg3) by keeps hostOps1).trans
      (W1_of_ne m ρ c main_arg3 (by decide)))
theorem W3_arg4 : W3 m ρ c (Proc.devRef .tc main_arg4) = m ((c : Thread nD τ).loc main_arg4) :=
  (W3_of_ne m ρ c main_arg4 (by decide)).trans
    ((show W2 m ρ c (Proc.devRef .tc main_arg4) = W1 m ρ c (Proc.devRef .tc main_arg4) by keeps hostOps1).trans
      (W1_of_ne m ρ c main_arg4 (by decide)))

/-! ## The host lines' composites are the specification's -/

/-- An edge aggregate times the scaling column of the first pass's degrees is the scaled edge message. -/
theorem scaled_msg (I : FVec Ideal S10000x8192 .f32) (z : Fin 10000 → Fin 32 → EReal) (M : FVec Ideal S8192x32 .f32)
    (hM : ∀ e f, M (ix2 e f) = agg I z e f) :
    scaledBy M (scaleCol (pass1_de I) (pass1_ss I)) = msgK I z := by
  funext j
  obtain ⟨e, f, rfl⟩ : ∃ (e : Fin 8192) (f : Fin 32), j = ix2 e f := ⟨j 0, j 1, eq_ix2 j⟩
  unfold scaledBy scaleCol
  rw [Cert.Gcn.scaled_apply, Cert.Gcn.scale_col_apply, hM]
  rfl

theorem layerWT0_eq (W : FVec Ideal S2x32x32 .f32) : layerWT0 W = wT W 0 := Cert.Gcn.wT_eq W 0 _ _ _
theorem layerWT1_eq (W : FVec Ideal S2x32x32 .f32) : layerWT1 W = wT W 1 := Cert.Gcn.wT_eq W 1 _ _ _

/-- The third pass on the second layer's arrays returns the kernel's result. -/
theorem pass3_out (X : FVec Ideal S10000x32 .f32) (I : FVec Ideal S10000x8192 .f32) (W : FVec Ideal S2x32x32 .f32)
    (Wo : FVec Ideal S32x32 .f32) (b : FVec Ideal S32 .f32) :
    pass3 I X (pass1_dv I) (msgK I (x1K X I W)) (wT W 1) (headWT Wo) (biasRow b)
      = fun j => outK X I W Wo b (j 0) (j 1) := by
  funext j
  have hw : (fun f c => headWT Wo (ix2 f c)) = fun (f c : Fin 32) => Wo (ix2 c f) :=
    funext fun f => funext fun c => Cert.Gcn.woT_apply Wo _ f c
  have hb : (fun c => biasRow b (ix2 0 c)) = fun (c : Fin 32) => b (ix1 c) :=
    funext fun c => Cert.Gcn.bias_row_apply b _ c
  show head (fun f c => headWT Wo (ix2 f c)) (fun c => biasRow b (ix2 0 c)) (step I X (pass1_dv I) (msgK I (x1K X I W)) (wT W 1)) (j 0) (j 1)
    = head (fun f c => Wo (ix2 c f)) (fun c => b (ix1 c)) (x2K X I W) (j 0) (j 1)
  rw [hw, hb]
  rfl

/-! ## The result buffer -/

section
variable
  (H1a : ∀ (V : (c : Dev nD) → (b : Ref sig .tc) → Buf (Elt Ideal) ((c : Thread nD τ).loc b)) (c : Dev nD),
    (dat0 (F := Ideal) V c).arrAt 2 cfg0.N = pass1_agg (V c (Pipeline.arrRef spec0 0)) (V c (Pipeline.arrRef spec0 1)))
  (H1b : ∀ (V : (c : Dev nD) → (b : Ref sig .tc) → Buf (Elt Ideal) ((c : Thread nD τ).loc b)) (c : Dev nD),
    (dat0 (F := Ideal) V c).arrAt 3 cfg0.N = pass1_de (V c (Pipeline.arrRef spec0 1)))
  (H1c : ∀ (V : (c : Dev nD) → (b : Ref sig .tc) → Buf (Elt Ideal) ((c : Thread nD τ).loc b)) (c : Dev nD),
    (dat0 (F := Ideal) V c).arrAt 4 cfg0.N = pass1_ss (V c (Pipeline.arrRef spec0 1)))
  (H1d : ∀ (V : (c : Dev nD) → (b : Ref sig .tc) → Buf (Elt Ideal) ((c : Thread nD τ).loc b)) (c : Dev nD),
    (dat0 (F := Ideal) V c).arrAt 5 cfg0.N = pass1_dv (V c (Pipeline.arrRef spec0 1)))
  (H2 : ∀ (V : (c : Dev nD) → (b : Ref sig .tc) → Buf (Elt Ideal) ((c : Thread nD τ).loc b)) (c : Dev nD),
    (dat1 (F := Ideal) V c).arrAt 5 cfg1.N = pass2 (V c (Pipeline.arrRef spec1 0)) (V c (Pipeline.arrRef spec1 1))
      (V c (Pipeline.arrRef spec1 2)) (V c (Pipeline.arrRef spec1 3)) (V c (Pipeline.arrRef spec1 4)))
  (H3 : ∀ (V : (c : Dev nD) → (b : Ref sig .tc) → Buf (Elt Ideal) ((c : Thread nD τ).loc b)) (c : Dev nD),
    (dat2 (F := Ideal) V c).arrAt 7 cfg2.N = pass3 (V c (Pipeline.arrRef spec2 0)) (V c (Pipeline.arrRef spec2 1))
      (V c (Pipeline.arrRef spec2 2)) (V c (Pipeline.arrRef spec2 3)) (V c (Pipeline.arrRef spec2 4))
      (V c (Pipeline.arrRef spec2 5)) (V c (Pipeline.arrRef spec2 6)))
include H1a H1b H1c H1d H2 H3

theorem result_eq : W5 m ρ c (Proc.devRef .tc main_v0)
    = fun j => outK (m ((c : Thread nD τ).loc main_arg0)) (m ((c : Thread nD τ).loc main_arg1))
        (m ((c : Thread nD τ).loc main_arg2)) (m ((c : Thread nD τ).loc main_arg3)) (m ((c : Thread nD τ).loc main_arg4)) (j 0) (j 1) := by
  -- the first pass's four arrays
  have e_agg : W1 m ρ c (Proc.devRef .tc main_call0_v0_0)
      = pass1_agg (m ((c : Thread nD τ).loc main_arg0)) (m ((c : Thread nD τ).loc main_arg1)) :=
    (W1_arr m ρ c 2).trans (H1a (V0 m ρ) c)
  have e_de : W1 m ρ c (Proc.devRef .tc main_call0_v0_1) = pass1_de (m ((c : Thread nD τ).loc main_arg1)) :=
    (W1_arr m ρ c 3).trans (H1b (V0 m ρ) c)
  have e_ss : W1 m ρ c (Proc.devRef .tc main_call0_v0_2) = pass1_ss (m ((c : Thread nD τ).loc main_arg1)) :=
    (W1_arr m ρ c 4).trans (H1c (V0 m ρ) c)
  have e_dv : W1 m ρ c (Proc.devRef .tc main_call0_v0_3) = pass1_dv (m ((c : Thread nD τ).loc main_arg1)) :=
    (W1_arr m ρ c 5).trans (H1d (V0 m ρ) c)
  -- the second pass's five input arrays
  have i2_1 : W2 m ρ c (Proc.devRef .tc main_arg1) = m ((c : Thread nD τ).loc main_arg1) := (W2_arg1 m ρ c).trans (W1_arg1 m ρ c)
  have i2_0 : W2 m ρ c (Proc.devRef .tc main_arg0) = m ((c : Thread nD τ).loc main_arg0) := (W2_arg0 m ρ c).trans (W1_arg0 m ρ c)
  have i2_d : W2 m ρ c (Proc.devRef .tc main_call0_v0_3) = pass1_dv (m ((c : Thread nD τ).loc main_arg1)) := (W2_dv m ρ c).trans e_dv
  have i2_y : W2 m ρ c (Proc.devRef .tc main_call0_v7)
      = msgK (m ((c : Thread nD τ).loc main_arg1)) (fun n f => m ((c : Thread nD τ).loc main_arg0) (ix2 n f)) := by
    rw [v7_eq, e_agg, e_de, e_ss]
    exact scaled_msg _ _ _ fun e f => rfl
  have i2_w : W2 m ρ c (Proc.devRef .tc main_call0_v10) = wT (m ((c : Thread nD τ).loc main_arg2)) 0 := by
    rw [v10_eq, W1_arg2, layerWT0_eq]
  -- the second pass's result
  have e_m2 : W3 m ρ c (Proc.devRef .tc main_call0_v11)
      = pass2 (m ((c : Thread nD τ).loc main_arg1)) (m ((c : Thread nD τ).loc main_arg0)) (pass1_dv (m ((c : Thread nD τ).loc main_arg1)))
          (msgK (m ((c : Thread nD τ).loc main_arg1)) (fun n f => m ((c : Thread nD τ).loc main_arg0) (ix2 n f)))
          (wT (m ((c : Thread nD τ).loc main_arg2)) 0) := by
    refine ((W3_arr m ρ c 5).trans (H2 (V2 m ρ) c)).trans ?_
    show pass2 (W2 m ρ c (Proc.devRef .tc main_arg1)) (W2 m ρ c (Proc.devRef .tc main_arg0)) (W2 m ρ c (Proc.devRef .tc main_call0_v0_3))
      (W2 m ρ c (Proc.devRef .tc main_call0_v7)) (W2 m ρ c (Proc.devRef .tc main_call0_v10)) = _
    rw [i2_1, i2_0, i2_d, i2_y, i2_w]
  -- the third pass's seven input arrays
  have i4_1 : W4 m ρ c (Proc.devRef .tc main_arg1) = m ((c : Thread nD τ).loc main_arg1) :=
    (W4_arg1 m ρ c).trans ((W3_arg1 m ρ c).trans i2_1)
  have i4_0 : W4 m ρ c (Proc.devRef .tc main_arg0) = m ((c : Thread nD τ).loc main_arg0) :=
    (W4_arg0 m ρ c).trans ((W3_arg0 m ρ c).trans i2_0)
  have i4_d : W4 m ρ c (Proc.devRef .tc main_call0_v0_3) = pass1_dv (m ((c : Thread nD τ).loc main_arg1)) :=
    (W4_dv m ρ c).trans ((W3_dv m ρ c).trans i2_d)
  have e_col : W3 m ρ c (Proc.devRef .tc main_call0_v5)
      = scaleCol (pass1_de (m ((c : Thread nD τ).loc main_arg1))) (pass1_ss (m ((c : Thread nD τ).loc main_arg1))) := by
    rw [W3_v5, v5_eq, e_de, e_ss]
  have i4_y : W4 m ρ c (Proc.devRef .tc main_call0_v13)
      = msgK (m ((c : Thread nD τ).loc main_arg1))
          (x1K (m ((c : Thread nD τ).loc main_arg0)) (m ((c : Thread nD τ).loc main_arg1)) (m ((c : Thread nD τ).loc main_arg2))) := by
    rw [v13_eq, e_m2, e_col]
    exact scaled_msg _ _ _ fun e f => rfl
  have i4_w : W4 m ρ c (Proc.devRef .tc main_call0_v16) = wT (m ((c : Thread nD τ).loc main_arg2)) 1 := by
    rw [v16_eq, W3_arg2, layerWT1_eq]
  have i4_o : W4 m ρ c (Proc.devRef .tc main_call0_v17) = headWT (m ((c : Thread nD τ).loc main_arg3)) := by
    rw [v17_eq, W3_arg3]
  have i4_b : W4 m ρ c (Proc.devRef .tc main_call0_v18) = biasRow (m ((c : Thread nD τ).loc main_arg4)) := by
    rw [v18_eq, W3_arg4]
  -- the third pass's result
  refine ((W5_arr m ρ c 7).trans (H3 (V4 m ρ) c)).trans ?_
  show pass3 (W4 m ρ c (Proc.devRef .tc main_arg1)) (W4 m ρ c (Proc.devRef .tc main_arg0)) (W4 m ρ c (Proc.devRef .tc main_call0_v0_3))
    (W4 m ρ c (Proc.devRef .tc main_call0_v13)) (W4 m ρ c (Proc.devRef .tc main_call0_v16))
    (W4 m ρ c (Proc.devRef .tc main_call0_v17)) (W4 m ρ c (Proc.devRef .tc main_call0_v18)) = _
  rw [i4_1, i4_0, i4_d, i4_y, i4_w, i4_o, i4_b]
  exact pass3_out _ _ _ _ _
end

end Cert.KernelIdeal.Assemble
end
-- ==== Proof.Pass3Pay.lean ====
/-
  Pass three on one stripe, index by index, over the extended reals.

  The body of the third region multiplies a [400, 8192] stripe of the incidence weights into the [8192, 32] scaled edge
  messages, scales by ½ and by the reciprocal root of the stripe's degree column, adds ½ of the stripe's skip features,
  applies the identity-mapping update with the transposed layer weights, and finishes with the output head (a product
  with the transposed head weights plus the bias row). Read at row `p` and column `q` of the stripe this is the
  specification's `pass3` at the node the row stands for, provided the stripe's blocks read that node's rows of the arrays.
-/
import proofs.«172867_g78700980732061_cont_9to1_m_422_2_alg».proof.Proof.Spec
import proofs.«172867_g78700980732061_cont_9to1_m_422_2_alg».proof.Proof.Gen.KernelIdeal.Skeleton
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.Pass3

open Cert.KernelIdeal Cert.KernelIdeal.Gen Cert.Gcn

/-! ## The two block products at an index -/

/-- The stripe product's left operand is read at the output's row … -/
theorem big_l0 (i : S400x32.Idx) (k : (dot_S400x8192_S8192x32_S400x32_1_0_0_1_n_n).contr.Idx) :
    ((dot_S400x8192_S8192x32_S400x32_1_0_0_1_n_n).lhsIdx i k 0).val = (i 0).val := by
  unfold DotDims.lhsIdx
  rw [dif_neg (show ¬(0 : Fin S400x8192.rank) ∈ (dot_S400x8192_S8192x32_S400x32_1_0_0_1_n_n).lhsBatch by decide),
    dif_pos (show (0 : Fin S400x8192.rank) ∈ (dot_S400x8192_S8192x32_S400x32_1_0_0_1_n_n).lhsNonContracting by decide)]
  rfl

/-- … and its right operand at the output's column. -/
theorem big_r1 (i : S400x32.Idx) (k : (dot_S400x8192_S8192x32_S400x32_1_0_0_1_n_n).contr.Idx) :
    ((dot_S400x8192_S8192x32_S400x32_1_0_0_1_n_n).rhsIdx i k 1).val = (i 1).val := by
  unfold DotDims.rhsIdx
  rw [dif_neg (show ¬(1 : Fin S8192x32.rank) ∈ (dot_S400x8192_S8192x32_S400x32_1_0_0_1_n_n).rhsBatch by decide),
    dif_pos (show (1 : Fin S8192x32.rank) ∈ (dot_S400x8192_S8192x32_S400x32_1_0_0_1_n_n).rhsNonContracting by decide)]
  rfl

/-- A [400, 8192] block times an [8192, 32] array into the zero block, at row `p` and column `q`. -/
theorem big_apply (a : FVec Ideal S400x8192 .f32) (y : FVec Ideal S8192x32 .f32) (p : Fin 400) (q : Fin 32) :
    matmul dot_S400x8192_S8192x32_S400x32_1_0_0_1_n_n none a y (constant (F := Ideal) S400x32 .f32 0x00000000#32) (ix2 p q)
      = ∑ e : Fin 8192, a (ix2 p e) * y (ix2 e q) := by
  simp only [matmul]
  rw [Ideal.matmul_constant_zero_apply,
    ← Equiv.sum_comp (contrEquiv1 dot_S400x8192_S8192x32_S400x32_1_0_0_1_n_n 8192 rfl rfl).symm]
  refine Finset.sum_congr rfl fun k _ => ?_
  have hk := contrEquiv1_symm_val dot_S400x8192_S8192x32_S400x32_1_0_0_1_n_n 8192 rfl rfl k
  have el : (dot_S400x8192_S8192x32_S400x32_1_0_0_1_n_n).lhsIdx (ix2 p q)
      ((contrEquiv1 dot_S400x8192_S8192x32_S400x32_1_0_0_1_n_n 8192 rfl rfl).symm k) = ix2 p k :=
    funext fun ax => Fin.ext (by
      match ax with
      | ⟨0, _⟩ => exact big_l0 _ _
      | ⟨1, _⟩ => exact ((dot_S400x8192_S8192x32_S400x32_1_0_0_1_n_n).lhsIdx_val_of_single rfl _ _).trans hk)
  have er : (dot_S400x8192_S8192x32_S400x32_1_0_0_1_n_n).rhsIdx (ix2 p q)
      ((contrEquiv1 dot_S400x8192_S8192x32_S400x32_1_0_0_1_n_n 8192 rfl rfl).symm k) = ix2 k q :=
    funext fun ax => Fin.ext (by
      match ax with
      | ⟨0, _⟩ => exact ((dot_S400x8192_S8192x32_S400x32_1_0_0_1_n_n).rhsIdx_val_of_single rfl _ _).trans hk
      | ⟨1, _⟩ => exact big_r1 _ _)
  rw [el, er]

/-- The same two facts for the [400, 32] by [32, 32] products. -/
theorem small_l0 (i : S400x32.Idx) (k : (dot_S400x32_S32x32_S400x32_1_0_0_1_n_n).contr.Idx) :
    ((dot_S400x32_S32x32_S400x32_1_0_0_1_n_n).lhsIdx i k 0).val = (i 0).val := by
  unfold DotDims.lhsIdx
  rw [dif_neg (show ¬(0 : Fin S400x32.rank) ∈ (dot_S400x32_S32x32_S400x32_1_0_0_1_n_n).lhsBatch by decide),
    dif_pos (show (0 : Fin S400x32.rank) ∈ (dot_S400x32_S32x32_S400x32_1_0_0_1_n_n).lhsNonContracting by decide)]
  rfl

theorem small_r1 (i : S400x32.Idx) (k : (dot_S400x32_S32x32_S400x32_1_0_0_1_n_n).contr.Idx) :
    ((dot_S400x32_S32x32_S400x32_1_0_0_1_n_n).rhsIdx i k 1).val = (i 1).val := by
  unfold DotDims.rhsIdx
  rw [dif_neg (show ¬(1 : Fin S32x32.rank) ∈ (dot_S400x32_S32x32_S400x32_1_0_0_1_n_n).rhsBatch by decide),
    dif_pos (show (1 : Fin S32x32.rank) ∈ (dot_S400x32_S32x32_S400x32_1_0_0_1_n_n).rhsNonContracting by decide)]
  rfl

/-- A [400, 32] block times a [32, 32] array into the zero block, at row `p` and column `q`. -/
theorem small_apply (u : FVec Ideal S400x32 .f32) (w : FVec Ideal S32x32 .f32) (p : Fin 400) (q : Fin 32) :
    matmul dot_S400x32_S32x32_S400x32_1_0_0_1_n_n none u w (constant (F := Ideal) S400x32 .f32 0x00000000#32) (ix2 p q)
      = ∑ k : Fin 32, u (ix2 p k) * w (ix2 k q) := by
  simp only [matmul]
  rw [Ideal.matmul_constant_zero_apply,
    ← Equiv.sum_comp (contrEquiv1 dot_S400x32_S32x32_S400x32_1_0_0_1_n_n 32 rfl rfl).symm]
  refine Finset.sum_congr rfl fun k _ => ?_
  have hk := contrEquiv1_symm_val dot_S400x32_S32x32_S400x32_1_0_0_1_n_n 32 rfl rfl k
  have el : (dot_S400x32_S32x32_S400x32_1_0_0_1_n_n).lhsIdx (ix2 p q)
      ((contrEquiv1 dot_S400x32_S32x32_S400x32_1_0_0_1_n_n 32 rfl rfl).symm k) = ix2 p k :=
    funext fun ax => Fin.ext (by
      match ax with
      | ⟨0, _⟩ => exact small_l0 _ _
      | ⟨1, _⟩ => exact ((dot_S400x32_S32x32_S400x32_1_0_0_1_n_n).lhsIdx_val_of_single rfl _ _).trans hk)
  have er : (dot_S400x32_S32x32_S400x32_1_0_0_1_n_n).rhsIdx (ix2 p q)
      ((contrEquiv1 dot_S400x32_S32x32_S400x32_1_0_0_1_n_n 32 rfl rfl).symm k) = ix2 k q :=
    funext fun ax => Fin.ext (by
      match ax with
      | ⟨0, _⟩ => exact ((dot_S400x32_S32x32_S400x32_1_0_0_1_n_n).rhsIdx_val_of_single rfl _ _).trans hk
      | ⟨1, _⟩ => exact small_r1 _ _)
  rw [el, er]

/-- A column of extent one broadcast along the rows' 32 entries reads the column's entry of the row. -/
theorem bcast_col (v : S400x1.Idx → EReal) (h : S400x1.Broadcasts S400x32) (p : Fin 400) (q : Fin 32) :
    broadcastTo S400x32 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The body's arithmetic, in three stages -/

/-- The block of combined features, as the body computes it from the incidence stripe `a`, the edge messages `y`, the
    degree column `d` and the skip features `x`. -/
def combB (a : FVec Ideal S400x8192 .f32) (y : FVec Ideal S8192x32 .f32) (d : FVec Ideal S400x1 .f32) (x : FVec Ideal S400x32 .f32) :
    FVec Ideal S400x32 .f32 :=
  addf (mulf (mulf (broadcast S400x32 (Scalar.ofBits .f32 0x3F000000#32))
      (matmul dot_S400x8192_S8192x32_S400x32_1_0_0_1_n_n none a (shapeCast S8192x32 y shapeCasts_S8192x32_S8192x32 : FVec Ideal S8192x32 .f32) (constant S400x32 .f32 0x00000000#32)))
      (broadcastTo S400x32 (rsqrt (shapeCast S400x1 d shapeCasts_S400x1_S400x1 : FVec Ideal S400x1 .f32)) broadcasts_S400x1_S400x32))
    (mulf (broadcast S400x32 (Scalar.ofBits .f32 0x3F000000#32)) x)

/-- The update of a block of features `u` with the transposed weights `w`. -/
def stepB (u : FVec Ideal S400x32 .f32) (w : FVec Ideal S32x32 .f32) : FVec Ideal S400x32 .f32 :=
  addf (mulf (broadcast S400x32 (Scalar.ofBits .f32 0x3F000000#32)) u)
    (mulf (broadcast S400x32 (Scalar.ofBits .f32 0x3F000000#32))
      (matmul dot_S400x32_S32x32_S400x32_1_0_0_1_n_n none u (shapeCast S32x32 w shapeCasts_S32x32_S32x32 : FVec Ideal S32x32 .f32) (constant S400x32 .f32 0x00000000#32)))

/-- The output head of a block of features `u`. -/
def headB (u : FVec Ideal S400x32 .f32) (wo : FVec Ideal S32x32 .f32) (b : FVec Ideal S1x32 .f32) : FVec Ideal S400x32 .f32 :=
  addf (matmul dot_S400x32_S32x32_S400x32_1_0_0_1_n_n none u (shapeCast S32x32 wo shapeCasts_S32x32_S32x32 : FVec Ideal S32x32 .f32) (constant S400x32 .f32 0x00000000#32))
    (broadcastTo S400x32 (shapeCast S1x32 b shapeCasts_S1x32_S1x32 : FVec Ideal S1x32 .f32) broadcasts_S1x32_S400x32)

/-- The body's payload is the head of the update of the combined features. -/
theorem pay_eq (a : FVec Ideal S400x8192 .f32) (y : FVec Ideal S8192x32 .f32) (d : FVec Ideal S400x1 .f32) (x : FVec Ideal S400x32 .f32)
    (w wo : FVec Ideal S32x32 .f32) (b : FVec Ideal S1x32 .f32) :
    k2_pay1 (F := Ideal) a y d x w wo b = headB (stepB (combB a y d x) w) wo b := rfl

/-- The combined features at a row and a feature: ½ of the row's scatter of the edge messages, times the reciprocal root of
    the row's degree, plus ½ of the skip feature. -/
theorem combB_apply (a : FVec Ideal S400x8192 .f32) (y : FVec Ideal S8192x32 .f32) (d : FVec Ideal S400x1 .f32) (x : FVec Ideal S400x32 .f32)
    (p : Fin 400) (f : Fin 32) :
    combB a y d x (ix2 p f)
      = (half * ∑ e : Fin 8192, a (ix2 p e) * y (ix2 e f)) * Ideal.rsqrt (d (ix2 p (0 : Fin 1))) + half * x (ix2 p f) := by
  unfold combB
  rw [addf_apply, mulf_apply, mulf_apply, mulf_apply, shapeCast_self, shapeCast_self, big_apply, bcast_col]
  rfl

/-- The update at a row and a feature: ½ of the feature plus ½ of the row times the weights' column. -/
theorem stepB_apply (u : FVec Ideal S400x32 .f32) (w : FVec Ideal S32x32 .f32) (p : Fin 400) (f : Fin 32) :
    stepB u w (ix2 p f) = half * u (ix2 p f) + half * ∑ k : Fin 32, u (ix2 p k) * w (ix2 k f) := by
  unfold stepB
  rw [addf_apply, mulf_apply, mulf_apply, shapeCast_self, small_apply]
  rfl

/-- The head at a row and a class: the row times the head weights' column, plus the bias. -/
theorem headB_apply (u : FVec Ideal S400x32 .f32) (wo : FVec Ideal S32x32 .f32) (b : FVec Ideal S1x32 .f32) (p : Fin 400) (q : Fin 32) :
    headB u wo b (ix2 p q) = (∑ f : Fin 32, u (ix2 p f) * wo (ix2 f q)) + b (ix2 (0 : Fin 1) q) := by
  unfold headB
  rw [addf_apply, shapeCast_self, shapeCast_self, small_apply, broadcastTo_1b_ab_apply]

/-! ## One row of a stripe -/

/-- Where the blocks of a stripe read row `n` of the arrays (the stripe's row `p`), the body's payload at `(p, q)` is pass
    three's value at `(n, q)`. -/
theorem point_eq (a : FVec Ideal S400x8192 .f32) (y : FVec Ideal S8192x32 .f32) (d : FVec Ideal S400x1 .f32) (x : FVec Ideal S400x32 .f32)
    (w wo : FVec Ideal S32x32 .f32) (b : FVec Ideal S1x32 .f32)
    (I : SNE.Idx → EReal) (X : SNF.Idx → EReal) (D : SN1.Idx → EReal) (Y : SEF.Idx → EReal) (Wt Wot : SFF.Idx → EReal) (B : S1F.Idx → EReal)
    (n : Fin 10000) (p : Fin 400) (q : Fin 32)
    (h0 : ∀ e : Fin 8192, a (ix2 p e) = I (ix2 n e))
    (h1 : ∀ f : Fin 32, x (ix2 p f) = X (ix2 n f))
    (h2 : d (ix2 p (0 : Fin 1)) = D (ix2 n (0 : Fin 1)))
    (h3 : ∀ (e : Fin 8192) (f : Fin 32), y (ix2 e f) = Y (ix2 e f))
    (h4 : ∀ k f : Fin 32, w (ix2 k f) = Wt (ix2 k f))
    (h5 : ∀ k f : Fin 32, wo (ix2 k f) = Wot (ix2 k f))
    (h6 : ∀ f : Fin 32, b (ix2 (0 : Fin 1) f) = B (ix2 (0 : Fin 1) f)) :
    k2_pay1 (F := Ideal) a y d x w wo b (ix2 p q) = pass3 I X D Y Wt Wot B (ix2 n q) := by
  have hc : ∀ f : Fin 32, combB a y d x (ix2 p f) = comb I X D Y n f := fun f => by
    rw [combB_apply]
    unfold comb scat
    simp only [h0, h1, h2, h3]
  have hs : ∀ f : Fin 32, stepB (combB a y d x) w (ix2 p f) = step I X D Y Wt n f := fun f => by
    rw [stepB_apply]
    unfold step upd
    simp only [hc, h4]
  rw [pay_eq, headB_apply]
  show _ = (∑ f : Fin 32, step I X D Y Wt n f * Wot (ix2 f q)) + B (ix2 (0 : Fin 1) q)
  simp only [hs, h5, h6]

end Cert.KernelIdeal.Pass3

end
-- ==== Proof.Pass3.lean ====
/-
  Pass three, from stripes to the array, over the extended reals.

  The third region visits 25 points; at point `t` it is handed rows `400 t … 400 t + 399` of the incidence weights, of the
  skip features and of the degree column, and the whole of the scaled edge messages, the two transposed weight arrays
  and the bias row, and it writes rows `400 t … 400 t + 399` of the result. Row `p` of each striped block is row
  `400 t + p` of its array, so by the stripe's arithmetic read index by index the block written at point `t` is block `t` of
  the specification's `pass3` of the arrays the region finds. The 25 blocks tile the 10000 rows (row `r` lies in stripe
  `r / 400`), hence the result array ends holding `pass3`.
-/
import proofs.«172867_g78700980732061_cont_9to1_m_422_2_alg».proof.Proof.Spec
import proofs.«172867_g78700980732061_cont_9to1_m_422_2_alg».proof.Proof.Pass3Pay
import proofs.«172867_g78700980732061_cont_9to1_m_422_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass3

open Cert.KernelIdeal Cert.KernelIdeal.Gen Cert.Gcn

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The stripes' block indices, decided over the 25 points: the four striped windows are at block `t` of the rows at
    point `t`, the four whole windows at block 0; every window is at block 0 of the columns. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## Each block read where the point's stripe says -/

/-- Row `p` of the incidence stripe at point `t` is row `400 t + p` of the incidence weights. -/
theorem blk_inc (c : Dev nD) (t : Fin cfg2.N) (p : Fin 400) (e : Fin 8192) (n : Fin 10000) (hn : n.val = 400 * t.val + p.val) :
    (iblk2 V c 0 t : FVec Ideal S400x8192 .f32) (ix2 p e) = (V c main_arg1 : SNE.Idx → EReal) (ix2 n e) := by
  show V c main_arg1 (((cfg2.win 0).blk t).view.emb (ix2 p e)) = V c main_arg1 (ix2 n e)
  refine congrArg _ (funext fun a => Fin.ext ?_)
  obtain ⟨e0, e1, -⟩ := idx_facts t
  match a with
  | ⟨0, _⟩ => show win2_0.index t (0 : Fin 2) * 400 + 1 * p.val = n.val; rw [e0, hn]; omega
  | ⟨1, _⟩ => show win2_0.index t (1 : Fin 2) * 8192 + 1 * e.val = e.val; rw [e1]; omega

/-- Row `p` of the skip-feature block is row `400 t + p` of the skip features. -/
theorem blk_skip (c : Dev nD) (t : Fin cfg2.N) (p : Fin 400) (f : Fin 32) (n : Fin 10000) (hn : n.val = 400 * t.val + p.val) :
    (iblk2 V c 1 t : FVec Ideal S400x32 .f32) (ix2 p f) = (V c main_arg0 : SNF.Idx → EReal) (ix2 n f) := by
  show V c main_arg0 (((cfg2.win 1).blk t).view.emb (ix2 p f)) = V c main_arg0 (ix2 n f)
  refine congrArg _ (funext fun a => Fin.ext ?_)
  obtain ⟨-, -, e0, e1, -⟩ := idx_facts t
  match a with
  | ⟨0, _⟩ => show win2_1.index t (0 : Fin 2) * 400 + 1 * p.val = n.val; rw [e0, hn]; omega
  | ⟨1, _⟩ => show win2_1.index t (1 : Fin 2) * 32 + 1 * f.val = f.val; rw [e1]; omega

/-- Entry `p` of the degree block is entry `400 t + p` of the degree column. -/
theorem blk_deg (c : Dev nD) (t : Fin cfg2.N) (p : Fin 400) (n : Fin 10000) (hn : n.val = 400 * t.val + p.val) :
    (iblk2 V c 2 t : FVec Ideal S400x1 .f32) (ix2 p (0 : Fin 1)) = (V c main_call0_v0_3 : SN1.Idx → EReal) (ix2 n (0 : Fin 1)) := by
  show V c main_call0_v0_3 (((cfg2.win 2).blk t).view.emb (ix2 p (0 : Fin 1))) = V c main_call0_v0_3 (ix2 n (0 : Fin 1))
  refine congrArg _ (funext fun a => Fin.ext ?_)
  obtain ⟨-, -, -, -, e0, e1, -⟩ := idx_facts t
  match a with
  | ⟨0, _⟩ => show win2_2.index t (0 : Fin 2) * 400 + 1 * p.val = n.val; rw [e0, hn]; omega
  | ⟨1, _⟩ => show win2_2.index t (1 : Fin 2) * 1 + 1 * 0 = 0; rw [e1]

/-- The edge messages are handed over whole at every point … -/
theorem blk_msg (c : Dev nD) (t : Fin cfg2.N) (e : Fin 8192) (f : Fin 32) :
    (iblk2 V c 3 t : FVec Ideal S8192x32 .f32) (ix2 e f) = (V c main_call0_v13 : SEF.Idx → EReal) (ix2 e f) := by
  show V c main_call0_v13 (((cfg2.win 3).blk t).view.emb (ix2 e f)) = V c main_call0_v13 (ix2 e f)
  refine congrArg _ (funext fun a => Fin.ext ?_)
  obtain ⟨-, -, -, -, -, -, e0, e1, -⟩ := idx_facts t
  match a with
  | ⟨0, _⟩ => show win2_3.index t (0 : Fin 2) * 8192 + 1 * e.val = e.val; rw [e0]; omega
  | ⟨1, _⟩ => show win2_3.index t (1 : Fin 2) * 32 + 1 * f.val = f.val; rw [e1]; omega

/-- … and so are the transposed layer weights … -/
theorem blk_wt (c : Dev nD) (t : Fin cfg2.N) (k f : Fin 32) :
    (iblk2 V c 4 t : FVec Ideal S32x32 .f32) (ix2 k f) = (V c main_call0_v16 : SFF.Idx → EReal) (ix2 k f) := by
  show V c main_call0_v16 (((cfg2.win 4).blk t).view.emb (ix2 k f)) = V c main_call0_v16 (ix2 k f)
  refine congrArg _ (funext fun a => Fin.ext ?_)
  obtain ⟨-, -, -, -, -, -, -, -, e0, e1, -⟩ := idx_facts t
  match a with
  | ⟨0, _⟩ => show win2_4.index t (0 : Fin 2) * 32 + 1 * k.val = k.val; rw [e0]; omega
  | ⟨1, _⟩ => show win2_4.index t (1 : Fin 2) * 32 + 1 * f.val = f.val; rw [e1]; omega

/-- … the transposed head weights … -/
theorem blk_wot (c : Dev nD) (t : Fin cfg2.N) (k f : Fin 32) :
    (iblk2 V c 5 t : FVec Ideal S32x32 .f32) (ix2 k f) = (V c main_call0_v17 : SFF.Idx → EReal) (ix2 k f) := by
  show V c main_call0_v17 (((cfg2.win 5).blk t).view.emb (ix2 k f)) = V c main_call0_v17 (ix2 k f)
  refine congrArg _ (funext fun a => Fin.ext ?_)
  obtain ⟨-, -, -, -, -, -, -, -, -, -, e0, e1, -⟩ := idx_facts t
  match a with
  | ⟨0, _⟩ => show win2_5.index t (0 : Fin 2) * 32 + 1 * k.val = k.val; rw [e0]; omega
  | ⟨1, _⟩ => show win2_5.index t (1 : Fin 2) * 32 + 1 * f.val = f.val; rw [e1]; omega

/-- … and the bias row. -/
theorem blk_bias (c : Dev nD) (t : Fin cfg2.N) (f : Fin 32) :
    (iblk2 V c 6 t : FVec Ideal S1x32 .f32) (ix2 (0 : Fin 1) f) = (V c main_call0_v18 : S1F.Idx → EReal) (ix2 (0 : Fin 1) f) := by
  show V c main_call0_v18 (((cfg2.win 6).blk t).view.emb (ix2 (0 : Fin 1) f)) = V c main_call0_v18 (ix2 (0 : Fin 1) f)
  refine congrArg _ (funext fun a => Fin.ext ?_)
  obtain ⟨-, -, -, -, -, -, -, -, -, -, -, -, e0, e1, -⟩ := idx_facts t
  match a with
  | ⟨0, _⟩ => show win2_6.index t (0 : Fin 2) * 1 + 1 * 0 = 0; rw [e0]
  | ⟨1, _⟩ => show win2_6.index t (1 : Fin 2) * 32 + 1 * f.val = f.val; rw [e1]; omega

/-- Row `p` of the output's block at point `t` is row `400 t + p` of the result. -/
theorem out_row (t : Fin cfg2.N) (p : Fin 400) (q : Fin 32) (n : Fin 10000) (hn : n.val = 400 * t.val + p.val) :
    ((cfg2.win 7).blk t).view.emb (ix2 p q) = (ix2 n q : SNF.Idx) := by
  refine funext fun a => Fin.ext ?_
  obtain ⟨-, -, -, -, -, -, -, -, -, -, -, -, -, -, e0, e1⟩ := idx_facts t
  match a with
  | ⟨0, _⟩ => show win2_7.index t (0 : Fin 2) * 400 + 1 * p.val = n.val; rw [e0, hn]; omega
  | ⟨1, _⟩ => show win2_7.index t (1 : Fin 2) * 32 + 1 * q.val = q.val; rw [e1]; omega

/-! ## From the blocks to the array -/

/-- Pass three's result over the arrays the region finds. -/
abbrev G (c : Dev nD) : SNF.Idx → EReal :=
  pass3 (V c main_arg1) (V c main_arg0) (V c main_call0_v0_3) (V c main_call0_v13) (V c main_call0_v16) (V c main_call0_v17) (V c main_call0_v18)

/-- What point `t` writes back is block `t` of pass three's result. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S400x8192) hz, View.ld_unit_zero (S := S8192x32) hz, View.ld_unit_zero (S := S400x1) hz,
    View.ld_unit_zero (S := S400x32) hz, View.ld_unit_zero (S := S32x32) hz, View.ld_unit_zero (S := S1x32) hz]
  funext j
  obtain ⟨p, q, rfl⟩ : ∃ (p : Fin 400) (q : Fin 32), j = ix2 p q := ⟨j 0, j 1, eq_ix2 j⟩
  have ht : t.val < 25 := lt_of_lt_of_eq t.isLt (show cfg2.N = 25 from N_2)
  have hp : p.val < 400 := p.isLt
  show k2_pay1 (F := Ideal) (iblk2 V c 0 t) (iblk2 V c 3 t) (iblk2 V c 2 t) (iblk2 V c 1 t) (iblk2 V c 4 t) (iblk2 V c 5 t) (iblk2 V c 6 t) (ix2 p q)
    = G V c (((cfg2.win 7).blk t).view.emb (ix2 p q))
  rw [out_row t p q ⟨400 * t.val + p.val, by omega⟩ rfl]
  exact point_eq (iblk2 V c 0 t) (iblk2 V c 3 t) (iblk2 V c 2 t) (iblk2 V c 1 t) (iblk2 V c 4 t) (iblk2 V c 5 t) (iblk2 V c 6 t)
    (V c main_arg1) (V c main_arg0) (V c main_call0_v0_3) (V c main_call0_v13) (V c main_call0_v16) (V c main_call0_v17) (V c main_call0_v18)
    ⟨400 * t.val + p.val, by omega⟩ p q
    (fun e => blk_inc V c t p e _ rfl) (fun f => blk_skip V c t p f _ rfl) (blk_deg V c t p _ rfl)
    (fun e f => blk_msg V c t e f) (fun k f => blk_wt V c t k f) (fun k f => blk_wot V c t k f) (fun f => blk_bias V c t f)

/-- An index of the result is in point `t`'s block iff each coordinate is in the block's range on its axis. -/
theorem mem_blk (t : Fin cfg2.N) (i : S10000x32.Idx) :
    i ∈ ((cfg2.win 7).blk t).view.set ↔ ∀ a : Fin 2, win2_7.index t a * S400x32.size a ≤ (i a).val
      ∧ (i a).val < win2_7.index t a * S400x32.size a + S400x32.size a := by
  show i ∈ ((View.whole main_v0).slice (win2_7.rect t)).set ↔ _
  rw [View.set_slice_whole, Rect.mem_set_unit]
  exact Iff.rfl

/-- Every row of the result is in the block of the point its stripe belongs to: row `r` is in stripe `r / 400`. -/
theorem cover (i : S10000x32.Idx) : ∃ t : Fin cfg2.N, (cfg2.win 7).flush t = true ∧ i ∈ ((cfg2.win 7).blk t).view.set := by
  have hi0 : (i 0).val < 10000 := (i 0).isLt
  have hi1 : (i 1).val < 32 := (i 1).isLt
  have hN : cfg2.N = 25 := N_2
  have hlt : (i 0).val / 400 < cfg2.N := by rw [hN]; omega
  refine ⟨⟨(i 0).val / 400, hlt⟩, flush2_7 _, ?_⟩
  rw [mem_blk]
  obtain ⟨-, -, -, -, -, -, -, -, -, -, -, -, -, -, e0, e1⟩ := idx_facts ⟨(i 0).val / 400, hlt⟩
  intro a
  match a with
  | ⟨0, _⟩ =>
    show win2_7.index ⟨(i 0).val / 400, hlt⟩ (0 : Fin 2) * 400 ≤ (i 0).val
      ∧ (i 0).val < win2_7.index ⟨(i 0).val / 400, hlt⟩ (0 : Fin 2) * 400 + 400
    rw [e0]
    show (i 0).val / 400 * 400 ≤ (i 0).val ∧ (i 0).val < (i 0).val / 400 * 400 + 400
    omega
  | ⟨1, _⟩ =>
    show win2_7.index ⟨(i 0).val / 400, hlt⟩ (1 : Fin 2) * 32 ≤ (i 1).val
      ∧ (i 1).val < win2_7.index ⟨(i 0).val / 400, hlt⟩ (1 : Fin 2) * 32 + 32
    rw [e1]
    omega

/-- THE RESULT after the third region: pass three of the arrays the region finds. -/
theorem pass3_eq (c : Dev nD) : (dat2 (F := Ideal) V c).arrAt 7 cfg2.N = G V c :=
  (dat2 V c).arrAt_eq_of_cover 7 (G V c) (fun t _ => flushed_eq V c t) cover

/-- The same, with each array named by the window that stages it. -/
theorem pass3_arr (c : Dev nD) : (dat2 (F := Ideal) V c).arrAt 7 cfg2.N
    = pass3 (V c (Pipeline.arrRef spec2 0)) (V c (Pipeline.arrRef spec2 1)) (V c (Pipeline.arrRef spec2 2)) (V c (Pipeline.arrRef spec2 3))
        (V c (Pipeline.arrRef spec2 4)) (V c (Pipeline.arrRef spec2 5)) (V c (Pipeline.arrRef spec2 6)) :=
  pass3_eq V c

end Cert.KernelIdeal.Pass3

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.Pass1Lib.lean ====
/-
  Reads at an index, over the extended reals, of the operations a column-sum accumulator is built from: the sum
  down the columns of an [a, b] array, and a product that contracts the FIRST axis of both operands, so that entry
  (p, q) of the product of a [K, a] array with a [K, b] array is  Σ_k L[k, p] · R[k, q]  (the transposed left
  operand times the right one). Into an all-zero accumulator the product is just that sum: zero is the additive
  identity of the extended reals.
-/
import Idealize.ShloMosaic.Lib.ValueIdx
import Idealize.ShloMosaic.PureOps.Ideal.Laws

noncomputable section

namespace Cert.Pass1Lib

open Idealize.ShloMosaic Idealize.ShloMosaic.ValueIdx
open scoped BigOperators

/-- The sum down the columns of an `[a, b]` array, at column `q`: the sum over the column's `a` entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (funext fun c => by
      match c with
      | ⟨0, _⟩ => exact Fin.ext rfl
      | ⟨1, _⟩ => exact Fin.ext rfl))

variable {K a b : ℕ} (D : DotDims (⟨2, ![K, a]⟩ : Shape) (⟨2, ![K, b]⟩ : Shape) (⟨2, ![a, b]⟩ : Shape))

/-- "Columns by columns": the first axis of each operand is contracted, each operand's second axis survives (the
    left one's first), and there is no batch axis. -/
structure ColsByCols : Prop where
  lc : D.lhsContracting = [0]
  rc : D.rhsContracting = [0]
  ln : D.lhsNonContracting = [1]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand's surviving axis is read at the result's row. -/
theorem lhsIdx_keep (h : ColsByCols D) (j : (⟨2, ![a, b]⟩ : Shape).Idx) (κ : D.contr.Idx) :
    (D.lhsIdx j κ 1).val = (j 0).val := by
  have hb : (1 : Fin (⟨2, ![K, a]⟩ : Shape).rank) ∉ D.lhsBatch := by rw [h.lb]; exact List.not_mem_nil
  have hn : (1 : Fin (⟨2, ![K, a]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand's surviving axis is read at the result's column. -/
theorem rhsIdx_keep (h : ColsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[k, p] · rhs[k, q]`. -/
theorem matmulT_zero_ix2 (h : ColsByCols D) (hr : D.contr.rank = 1) (hs : D.contr.size ⟨0, by omega⟩ = K)
    (prec : Option ContractPrecision) {φ₁ φ₂ : FTy} (lhs : FVec Ideal (⟨2, ![K, a]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 k p) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun ax => Fin.ext (by
    match ax with
    | ⟨0, _⟩ => exact (D.lhsIdx_val_of_single h.lc _ _).trans hk
    | ⟨1, _⟩ => exact lhsIdx_keep h _ _)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_keep h _ _)
  rw [el, er]

/-! ## A sum over 10000 rows as 25 stripes of 400 -/

/-- Row number `n` of a 10000-row array, for any natural `n` (taken modulo the extent, so that the stripes can be
    numbered by naturals without a bound in the way). -/
def row (n : ℕ) : Fin 10000 := ⟨n % 10000, Nat.mod_lt _ (by decide)⟩

theorem row_val (n : ℕ) (h : n < 10000) : (row n).val = n := Nat.mod_eq_of_lt h

theorem row_fin (n : Fin 10000) : row n.val = n := Fin.ext (Nat.mod_eq_of_lt n.isLt)

/-- The sum of `f` over the rows of the first `T` stripes. -/
def part {M : Type*} [AddCommMonoid M] (T : ℕ) (f : Fin 10000 → M) : M :=
  ∑ s ∈ Finset.range T, ∑ r : Fin 400, f (row (400 * s + r.val))

theorem part_zero {M : Type*} [AddCommMonoid M] (f : Fin 10000 → M) : part 0 f = 0 := by
  unfold part; rw [Finset.range_zero, Finset.sum_empty]

theorem part_succ {M : Type*} [AddCommMonoid M] (T : ℕ) (f : Fin 10000 → M) :
    part (T + 1) f = part T f + ∑ r : Fin 400, f (row (400 * T + r.val)) := by
  unfold part; rw [Finset.sum_range_succ]

/-- A sum over the first `400 · T` naturals, stripe by stripe. -/
theorem sum_range_stripes {M : Type*} [AddCommMonoid M] (g : ℕ → M) :
    ∀ T : ℕ, ∑ i ∈ Finset.range (400 * T), g i = ∑ s ∈ Finset.range T, ∑ r : Fin 400, g (400 * s + r.val)
  | 0 => by simp
  | T + 1 => by
    rw [Finset.sum_range_succ, ← sum_range_stripes g T, Nat.mul_succ, Finset.sum_range_add,
      Fin.sum_univ_eq_sum_range (fun r => g (400 * T + r)) 400]

/-- All 25 stripes together are the whole array. -/
theorem part_all {M : Type*} [AddCommMonoid M] (f : Fin 10000 → M) : part 25 f = ∑ n : Fin 10000, f n := by
  unfold part
  rw [← sum_range_stripes (fun i => f (row i)) 25, ← Fin.sum_univ_eq_sum_range (fun i => f (row i)) (400 * 25)]
  exact Finset.sum_congr rfl fun n _ => congrArg f (row_fin n)

end Cert.Pass1Lib

end
-- ==== Proof.Pass1.lean ====
/-
  The first pass of the kernel, read as values over the extended reals.

  The pass sweeps the 10000 rows of the incidence weights in 25 stripes of 400. At stripe t it holds the stripe's
  rows 400 t … 400 t + 399 of the weights and of the node features, and does four things:
    the stripe's row sums are that stripe's block of the node degrees  dv n = Σ_e I n e ;
    the edge aggregate   Σ_n I n e · x n f          gains the stripe's rows' terms;
    the edge degrees     Σ_n I n e                  gain the stripe's column sums;
    the weighted sums    Σ_n dv n · I n e           gain the stripe's terms, the degree of a row of the stripe
                                                    being that row's sum, which the stripe itself holds.
  At the first stripe the three running sums are first set to zero, and zero is the additive identity; so after
  stripe t each holds the sum over the rows below 400 (t + 1), by induction on t, and after the last stripe the sum
  over all 10000 rows. The three running sums are written to their arrays once, after the last stripe; the degree
  blocks are written stripe by stripe and together tile the degree column. Each of the four arrays therefore ends
  at the specification's function of the features and the weights as the pass found them.
-/
import proofs.«172867_g78700980732061_cont_9to1_m_422_2_alg».proof.Proof.Spec
import proofs.«172867_g78700980732061_cont_9to1_m_422_2_alg».proof.Proof.LibKeepdims
import proofs.«172867_g78700980732061_cont_9to1_m_422_2_alg».proof.Proof.Pass1Lib
import proofs.«172867_g78700980732061_cont_9to1_m_422_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen Cert.Pass1Lib

/-! ## What each case of the body leaves in the four output buffers, as the body's arithmetic on the blocks -/

section Pieces
variable {F : FTy → Type} [FloatOps F]

theorem hz : (![0, 0] : Fin 2 → Nat) = fun _ => 0 := funext fun a => by fin_cases a <;> rfl

/-- Away from the first stripe the node-degree block is the row sums of the incidence stripe. -/
theorem outB5 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : ¬cond0_0 i)
    (x0 : Vec F S400x32 .f32) (x1 : Vec F S400x8192 .f32) (xo2 : Vec F S8192x32 .f32) (xo3 xo4 : Vec F S1x8192 .f32) :
    out0_B_5 c i a1 h1 a2 h2 a3 h3 a4 h4 a5 h5 a6 h6 hc x0 x1 xo2 xo3 xo4 = k0_pay1 x1 := by
  unfold out0_B_5
  rw [View.read_writes_eq_canon _ _ _ (cover0_B_5 c i a1 h1 a2 h2 a3 h3 a4 h4 a5 h5 a6 h6 hc x0 x1 xo2 xo3 xo4)]
  unfold kernelRun0_B
  dsimp only
  rw [View.canon_unit_zero hz]
  simp only [View.readAt_eq_ld, h2.read_unread, View.ld_unit_zero (S := S400x8192) hz]

/-- Away from the first stripe the aggregate buffer gains the stripe's product with the feature block. -/
theorem outB2 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : ¬cond0_0 i)
    (x0 : Vec F S400x32 .f32) (x1 : Vec F S400x8192 .f32) (xo2 : Vec F S8192x32 .f32) (xo3 xo4 : Vec F S1x8192 .f32) :
    out0_B_2 c i a1 h1 a2 h2 a3 h3 a4 h4 a5 h5 a6 h6 hc x0 x1 xo2 xo3 xo4 = k0_pay5 x1 xo2 x0 := by
  unfold out0_B_2
  rw [View.read_writes_eq_canon _ _ _ (cover0_B_2 c i a1 h1 a2 h2 a3 h3 a4 h4 a5 h5 a6 h6 hc x0 x1 xo2 xo3 xo4)]
  unfold kernelRun0_B
  dsimp only
  rw [View.canon_unit_zero hz]
  simp only [View.readAt_eq_ld, h1.read_unread, h2.read_unread, h3.read_unread, View.ld_unit_zero (S := S400x8192) hz, View.ld_unit_zero (S := S400x32) hz, View.ld_unit_zero (S := S8192x32) hz]

/-- Away from the first stripe the edge-degree row gains the stripe's column sums. -/
theorem outB3 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : ¬cond0_0 i)
    (x0 : Vec F S400x32 .f32) (x1 : Vec F S400x8192 .f32) (xo2 : Vec F S8192x32 .f32) (xo3 xo4 : Vec F S1x8192 .f32) :
    out0_B_3 c i a1 h1 a2 h2 a3 h3 a4 h4 a5 h5 a6 h6 hc x0 x1 xo2 xo3 xo4 = k0_pay6 x1 xo3 := by
  unfold out0_B_3
  rw [View.read_writes_eq_canon _ _ _ (cover0_B_3 c i a1 h1 a2 h2 a3 h3 a4 h4 a5 h5 a6 h6 hc x0 x1 xo2 xo3 xo4)]
  unfold kernelRun0_B
  dsimp only
  rw [View.canon_unit_zero hz]
  simp only [View.readAt_eq_ld, h2.read_unread, h4.read_unread, View.ld_unit_zero (S := S400x8192) hz, View.ld_unit_zero (S := S1x8192) hz]

/-- Away from the first stripe the weighted row gains the stripe's degree-weighted column sums. -/
theorem outB4 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : ¬cond0_0 i)
    (x0 : Vec F S400x32 .f32) (x1 : Vec F S400x8192 .f32) (xo2 : Vec F S8192x32 .f32) (xo3 xo4 : Vec F S1x8192 .f32) :
    out0_B_4 c i a1 h1 a2 h2 a3 h3 a4 h4 a5 h5 a6 h6 hc x0 x1 xo2 xo3 xo4 = k0_pay7 x1 xo4 := by
  unfold out0_B_4
  rw [View.read_writes_eq_canon _ _ _ (cover0_B_4 c i a1 h1 a2 h2 a3 h3 a4 h4 a5 h5 a6 h6 hc x0 x1 xo2 xo3 xo4)]
  unfold kernelRun0_B
  dsimp only
  rw [View.canon_unit_zero hz]
  simp only [View.readAt_eq_ld, h2.read_unread, h5.read_unread, View.ld_unit_zero (S := S400x8192) hz, View.ld_unit_zero (S := S1x8192) hz]

/-- At the first stripe the node-degree block is the row sums of the incidence stripe as well. -/
theorem outA5 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : cond0_0 i)
    (x0 : Vec F S400x32 .f32) (x1 : Vec F S400x8192 .f32) :
    out0_A_5 c i a1 h1 a2 h2 a3 h3 a4 h4 a5 h5 a6 h6 hc x0 x1 = k0_pay1 x1 := by
  unfold out0_A_5
  rw [View.read_writes_eq_canon _ _ _ (cover0_A_5 c i a1 h1 a2 h2 a3 h3 a4 h4 a5 h5 a6 h6 hc x0 x1)]
  unfold kernelRun0_A
  dsimp only
  rw [View.canon_unit_zero hz]
  simp only [View.readAt_eq_ld, h2.read_unread, View.ld_unit_zero (S := S400x8192) hz]

/-- At the first stripe the aggregate buffer is reset to zero, read back, and gains the stripe's product. -/
theorem outA2 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : cond0_0 i)
    (x0 : Vec F S400x32 .f32) (x1 : Vec F S400x8192 .f32) :
    out0_A_2 c i a1 h1 a2 h2 a3 h3 a4 h4 a5 h5 a6 h6 hc x0 x1 = k0_pay5 x1 k0_pay2 x0 := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_cons_unit_zero (S := S8192x32) hz, View.readCov_unit_zero (S := S8192x32) _ hz]
  simp only [View.readAt_eq_ld, h1.read_unread, h2.read_unread, View.ld_unit_zero (S := S400x8192) hz, View.ld_unit_zero (S := S400x32) hz]

/-- At the first stripe the edge-degree row is reset to zero and gains the stripe's column sums. -/
theorem outA3 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : cond0_0 i)
    (x0 : Vec F S400x32 .f32) (x1 : Vec F S400x8192 .f32) :
    out0_A_3 c i a1 h1 a2 h2 a3 h3 a4 h4 a5 h5 a6 h6 hc x0 x1 = k0_pay6 x1 k0_pay3 := by
  unfold out0_A_3
  rw [View.read_writes_eq_canon _ _ _ (cover0_A_3 c i a1 h1 a2 h2 a3 h3 a4 h4 a5 h5 a6 h6 hc x0 x1)]
  unfold kernelRun0_A
  dsimp only
  sl_unfold_words
  rw [View.canon_cons_unit_zero (S := S1x8192) hz, View.readCov_unit_zero (S := S1x8192) _ hz]
  simp only [View.readAt_eq_ld, h2.read_unread, View.ld_unit_zero (S := S400x8192) hz]

/-- At the first stripe the weighted row is reset to zero and gains the stripe's degree-weighted column sums. -/
theorem outA4 (c : Dev nD) (i : grid0.Coords) (a1 : Memref sig .tc .vmem S400x32 .f32) (h1 : a1.IsWhole)
    (a2 : Memref sig .tc .vmem S400x8192 .f32) (h2 : a2.IsWhole) (a3 : Memref sig .tc .vmem S8192x32 .f32) (h3 : a3.IsWhole)
    (a4 : Memref sig .tc .vmem S1x8192 .f32) (h4 : a4.IsWhole) (a5 : Memref sig .tc .vmem S1x8192 .f32) (h5 : a5.IsWhole)
    (a6 : Memref sig .tc .vmem S400x1 .f32) (h6 : a6.IsWhole) (hc : cond0_0 i)
    (x0 : Vec F S400x32 .f32) (x1 : Vec F S400x8192 .f32) :
    out0_A_4 c i a1 h1 a2 h2 a3 h3 a4 h4 a5 h5 a6 h6 hc x0 x1 = k0_pay7 x1 k0_pay4 := by
  unfold out0_A_4
  rw [View.read_writes_eq_canon _ _ _ (cover0_A_4 c i a1 h1 a2 h2 a3 h3 a4 h4 a5 h5 a6 h6 hc x0 x1)]
  unfold kernelRun0_A
  dsimp only
  sl_unfold_words
  rw [View.canon_cons_unit_zero (S := S1x8192) hz, View.readCov_unit_zero (S := S1x8192) _ hz]
  simp only [View.readAt_eq_ld, h2.read_unread, View.ld_unit_zero (S := S400x8192) hz]

end Pieces

/-! ## The body's arithmetic read at an entry, over the extended reals -/

section Pays

/-- The row sums of a stripe, as a column. -/
theorem pay1_apply (x1 : Vec Ideal S400x8192 .f32) (r : Fin 400) (u : Fin 1) :
    k0_pay1 x1 (ix2 r u) = ∑ e : Fin 8192, x1 (ix2 r e) := by
  unfold k0_pay1
  refine (Cert.LibKeepdims.shapeCast_a_a1_apply _ shapeCasts_S400_S400x1 r u).trans ?_
  exact Cert.LibKeepdims.laneSum_apply x1 reduces_S400x8192_S400 (.inl rfl) rfl r

/-- The three zero blocks the reset stores. -/
theorem pay2_apply (j : S8192x32.Idx) : k0_pay2 (F := Ideal) j = 0 := Ideal.ofBits_zero_f32
theorem pay3_apply (j : S1x8192.Idx) : k0_pay3 (F := Ideal) j = 0 := Ideal.ofBits_zero_f32
theorem pay4_apply (j : S1x8192.Idx) : k0_pay4 (F := Ideal) j = 0 := Ideal.ofBits_zero_f32

/-- The aggregate's step: what was there plus, over the stripe's rows, incidence times feature. -/
theorem pay5_apply (x1 : Vec Ideal S400x8192 .f32) (acc : Vec Ideal S8192x32 .f32) (x0 : Vec Ideal S400x32 .f32)
    (e : Fin 8192) (f : Fin 32) :
    k0_pay5 x1 acc x0 (ix2 e f) = acc (ix2 e f) + ∑ r : Fin 400, x1 (ix2 r e) * x0 (ix2 r f) := by
  unfold k0_pay5
  exact congrArg₂ (· + ·) (congrFun (shapeCast_self acc shapeCasts_S8192x32_S8192x32) (ix2 e f))
    (matmulT_zero_ix2 (D := dot_S400x8192_S400x32_S8192x32_0_0_1_1_n_n) ⟨rfl, rfl, rfl, rfl, rfl, rfl⟩ rfl rfl none x1 x0 e f)

/-- The edge degrees' step: what was there plus the stripe's column sum. -/
theorem pay6_apply (x1 : Vec Ideal S400x8192 .f32) (acc : Vec Ideal S1x8192 .f32) (u : Fin 1) (e : Fin 8192) :
    k0_pay6 x1 acc (ix2 u e) = acc (ix2 u e) + ∑ r : Fin 400, x1 (ix2 r e) := by
  unfold k0_pay6
  exact congrArg₂ (· + ·) (congrFun (shapeCast_self acc shapeCasts_S1x8192_S1x8192) (ix2 u e))
    ((shapeCast_a_1a_apply _ shapeCasts_S8192_S1x8192 u e).trans
      (colSum_apply x1 reduces_S400x8192_S8192 (.inl rfl) rfl e))

/-- The weighted sums' step: what was there plus, over the stripe's rows, row sum times incidence. -/
theorem pay7_apply (x1 : Vec Ideal S400x8192 .f32) (acc : Vec Ideal S1x8192 .f32) (u : Fin 1) (e : Fin 8192) :
    k0_pay7 x1 acc (ix2 u e) = acc (ix2 u e) + ∑ r : Fin 400, (∑ e' : Fin 8192, x1 (ix2 r e')) * x1 (ix2 r e) := by
  unfold k0_pay7
  refine congrArg₂ (· + ·) (congrFun (shapeCast_self acc shapeCasts_S1x8192_S1x8192) (ix2 u e))
    ((matmulT_zero_ix2 (D := dot_S400x1_S400x8192_S1x8192_0_0_1_1_n_n) ⟨rfl, rfl, rfl, rfl, rfl, rfl⟩ rfl rfl none (k0_pay1 x1) x1 u e).trans ?_)
  exact Finset.sum_congr rfl fun r _ => congrArg (· * x1 (ix2 r e)) (pay1_apply x1 r u)

end Pays

/-! ## The running sums: after the first T stripes each accumulator holds the sum over those stripes' rows -/

section Sums
open Cert.Gcn

/-- The aggregate over the first `T` stripes. -/
def acc2 (X : SNF.Idx → EReal) (I : SNE.Idx → EReal) (T : ℕ) : Vec Ideal S8192x32 .f32 :=
  fun j => part T fun n => I (ix2 n (j 0)) * X (ix2 n (j 1))
/-- The edge degrees over the first `T` stripes. -/
def acc3 (I : SNE.Idx → EReal) (T : ℕ) : Vec Ideal S1x8192 .f32 :=
  fun j => part T fun n => I (ix2 n (j 1))
/-- The degree-weighted edge sums over the first `T` stripes. -/
def acc4 (I : SNE.Idx → EReal) (T : ℕ) : Vec Ideal S1x8192 .f32 :=
  fun j => part T fun n => dv I n * I (ix2 n (j 1))
/-- Stripe `T`'s block of the node degrees. -/
def blk5 (I : SNE.Idx → EReal) (T : ℕ) : Vec Ideal S400x1 .f32 :=
  fun j => dv I (row (400 * T + (j 0).val))

variable (X : SNF.Idx → EReal) (I : SNE.Idx → EReal) (T : ℕ)
  (x0 : Vec Ideal S400x32 .f32) (x1 : Vec Ideal S400x8192 .f32)
  (hx0 : ∀ (r : Fin 400) (f : Fin 32), x0 (ix2 r f) = X (ix2 (row (400 * T + r.val)) f))
  (hx1 : ∀ (r : Fin 400) (e : Fin 8192), x1 (ix2 r e) = I (ix2 (row (400 * T + r.val)) e))

theorem zero2 : k0_pay2 (F := Ideal) = acc2 X I 0 := funext fun j => (pay2_apply j).trans (part_zero _).symm
theorem zero3 : k0_pay3 (F := Ideal) = acc3 I 0 := funext fun j => (pay3_apply j).trans (part_zero _).symm
theorem zero4 : k0_pay4 (F := Ideal) = acc4 I 0 := funext fun j => (pay4_apply j).trans (part_zero _).symm

include hx0 hx1 in
/-- One stripe more in the aggregate. -/
theorem step2 (acc : Vec Ideal S8192x32 .f32) (hacc : acc = acc2 X I T) : k0_pay5 x1 acc x0 = acc2 X I (T + 1) := by
  funext j
  obtain ⟨e, f, rfl⟩ : ∃ (e : Fin 8192) (f : Fin 32), j = ix2 e f := ⟨j 0, j 1, eq_ix2 j⟩
  rw [pay5_apply, hacc]
  show part T _ + _ = part (T + 1) _
  rw [part_succ]
  exact congrArg _ (Finset.sum_congr rfl fun r _ => by rw [hx1, hx0])

include hx1 in
/-- One stripe more in the edge degrees. -/
theorem step3 (acc : Vec Ideal S1x8192 .f32) (hacc : acc = acc3 I T) : k0_pay6 x1 acc = acc3 I (T + 1) := by
  funext j
  obtain ⟨u, e, rfl⟩ : ∃ (u : Fin 1) (e : Fin 8192), j = ix2 u e := ⟨j 0, j 1, eq_ix2 j⟩
  rw [pay6_apply, hacc]
  show part T _ + _ = part (T + 1) _
  rw [part_succ]
  exact congrArg _ (Finset.sum_congr rfl fun r _ => by rw [hx1])

include hx1 in
/-- One stripe more in the degree-weighted sums: the row sum of the stripe's row IS that node's degree. -/
theorem step4 (acc : Vec Ideal S1x8192 .f32) (hacc : acc = acc4 I T) : k0_pay7 x1 acc = acc4 I (T + 1) := by
  funext j
  obtain ⟨u, e, rfl⟩ : ∃ (u : Fin 1) (e : Fin 8192), j = ix2 u e := ⟨j 0, j 1, eq_ix2 j⟩
  rw [pay7_apply, hacc]
  show part T _ + _ = part (T + 1) _
  rw [part_succ]
  refine congrArg _ (Finset.sum_congr rfl fun r _ => ?_)
  rw [hx1]
  exact congrArg (· * _) (Finset.sum_congr rfl fun e' _ => hx1 r e')

include hx1 in
/-- The stripe's block of node degrees. -/
theorem step5 : k0_pay1 x1 = blk5 I T := by
  funext j
  obtain ⟨r, u, rfl⟩ : ∃ (r : Fin 400) (u : Fin 1), j = ix2 r u := ⟨j 0, j 1, eq_ix2 j⟩
  rw [pay1_apply]
  exact Finset.sum_congr rfl fun e' _ => hx1 r e'

/-- All 25 stripes: the first pass's four results. -/
theorem acc2_all : acc2 X I 25 = pass1_agg X I := funext fun j => part_all _
theorem acc3_all : acc3 I 25 = pass1_de I := funext fun j => part_all _
theorem acc4_all : acc4 I 25 = pass1_ss I := funext fun j => part_all _

end Sums

/-! ## The region: the blocks the stripes read, the accumulators point by point, the arrays after the last point -/

section Region
open Cert.Gcn

variable (V : (c : Dev nD) → (b : Ref sig .tc) → Buf (Elt Ideal) ((c : Thread nD τ).loc b))

/-- The features and the incidence weights as the region finds them. -/
abbrev Xin (c : Dev nD) : SNF.Idx → EReal := V c (Pipeline.arrRef spec0 0)
abbrev Iin (c : Dev nD) : SNE.Idx → EReal := V c (Pipeline.arrRef spec0 1)

/-- The printed index maps, decided over the grid: the two inputs and the degree column move one block down per
    point; the three accumulators' block never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of the feature block at point `t` is row `400 t + r` of the features. -/
theorem blk0_apply (c : Dev nD) (t : Fin cfg0.N) (r : Fin 400) (f : Fin 32) :
    (iblk0 V c 0 t : Vec Ideal S400x32 .f32) (ix2 r f) = Xin V c (ix2 (row (400 * t.val + r.val)) f) := by
  have hN : t.val < 25 := lt_of_lt_of_eq t.isLt (show cfg0.N = 25 from N_0)
  obtain ⟨e0, e1, -⟩ := idx_facts t
  show V c (Pipeline.arrRef spec0 0) (((cfg0.win 0).blk t).view.emb (ix2 r f)) = V c (Pipeline.arrRef spec0 0) _
  refine congrArg (V c (Pipeline.arrRef spec0 0)) (funext fun a => Fin.ext ?_)
  match a with
  | ⟨0, _⟩ =>
    show win0_0.index t (0 : Fin 2) * 400 + 1 * r.val = (row (400 * t.val + r.val)).val
    rw [e0, row_val _ (by omega)]; omega
  | ⟨1, _⟩ =>
    show win0_0.index t (1 : Fin 2) * 32 + 1 * f.val = f.val
    rw [e1]; omega

/-- Row `r` of the incidence stripe at point `t` is row `400 t + r` of the incidence weights. -/
theorem blk1_apply (c : Dev nD) (t : Fin cfg0.N) (r : Fin 400) (e : Fin 8192) :
    (iblk0 V c 1 t : Vec Ideal S400x8192 .f32) (ix2 r e) = Iin V c (ix2 (row (400 * t.val + r.val)) e) := by
  have hN : t.val < 25 := lt_of_lt_of_eq t.isLt (show cfg0.N = 25 from N_0)
  obtain ⟨-, -, e0, e1, -⟩ := idx_facts t
  show V c (Pipeline.arrRef spec0 1) (((cfg0.win 1).blk t).view.emb (ix2 r e)) = V c (Pipeline.arrRef spec0 1) _
  refine congrArg (V c (Pipeline.arrRef spec0 1)) (funext fun a => Fin.ext ?_)
  match a with
  | ⟨0, _⟩ =>
    show win0_1.index t (0 : Fin 2) * 400 + 1 * r.val = (row (400 * t.val + r.val)).val
    rw [e0, row_val _ (by omega)]; omega
  | ⟨1, _⟩ =>
    show win0_1.index t (1 : Fin 2) * 8192 + 1 * e.val = e.val
    rw [e1]; omega

/-- The first point: the accumulators reset and one stripe in. -/
theorem caseA (c : Dev nD) (t : Fin cfg0.N) (h0 : t.val % 25 = 0) :
    outsAt0 V c t.val t.isLt
      = (acc2 (Xin V c) (Iin V c) 1, acc3 (Iin V c) 1, acc4 (Iin V c) 1, blk5 (Iin V c) 0) := by
  have hN : t.val < 25 := lt_of_lt_of_eq t.isLt (show cfg0.N = 25 from N_0)
  have ht : t.val = 0 := by omega
  have hx0 : ∀ (r : Fin 400) (f : Fin 32), (iblk0 V c 0 t : Vec Ideal S400x32 .f32) (ix2 r f) = Xin V c (ix2 (row (400 * 0 + r.val)) f) :=
    fun r f => by rw [blk0_apply, ht]
  have hx1 : ∀ (r : Fin 400) (e : Fin 8192), (iblk0 V c 1 t : Vec Ideal S400x8192 .f32) (ix2 r e) = Iin V c (ix2 (row (400 * 0 + r.val)) e) :=
    fun r e => by rw [blk1_apply, ht]
  refine (outsAt0_A V c t h0).trans ?_
  exact congrArg₂ Prod.mk
    ((outA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)).trans (step2 (Xin V c) (Iin V c) 0 (iblk0 V c 0 t) (iblk0 V c 1 t) hx0 hx1 (k0_pay2 (F := Ideal)) (zero2 _ _)))
    (congrArg₂ Prod.mk
      ((outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)).trans (step3 (Iin V c) 0 (iblk0 V c 1 t) hx1 (k0_pay3 (F := Ideal)) (zero3 _)))
      (congrArg₂ Prod.mk
        ((outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)).trans (step4 (Iin V c) 0 (iblk0 V c 1 t) hx1 (k0_pay4 (F := Ideal)) (zero4 _)))
        ((outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t)).trans (step5 (Iin V c) 0 (iblk0 V c 1 t) hx1))))

/-- Every later point: one stripe more, over what the point before left. -/
theorem caseB (c : Dev nD) (t : Fin cfg0.N) (hB : ¬t.val % 25 = 0)
    (ih : (outsAt0 V c (t.val - 1) (Nat.lt_of_le_of_lt (Nat.sub_le _ _) t.isLt))
      = (acc2 (Xin V c) (Iin V c) t.val, acc3 (Iin V c) t.val, acc4 (Iin V c) t.val, blk5 (Iin V c) (t.val - 1))) :
    outsAt0 V c t.val t.isLt
      = (acc2 (Xin V c) (Iin V c) (t.val + 1), acc3 (Iin V c) (t.val + 1), acc4 (Iin V c) (t.val + 1), blk5 (Iin V c) t.val) := by
  refine (outsAt0_B V c t hB).trans ?_
  exact congrArg₂ Prod.mk
    ((outB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1).trans (step2 (Xin V c) (Iin V c) t.val (iblk0 V c 0 t) (iblk0 V c 1 t) (blk0_apply V c t) (blk1_apply V c t) _ (congrArg Prod.fst ih)))
    (congrArg₂ Prod.mk
      ((outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1).trans (step3 (Iin V c) t.val (iblk0 V c 1 t) (blk1_apply V c t) _ (congrArg (fun p => p.2.1) ih)))
      (congrArg₂ Prod.mk
        ((outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1).trans (step4 (Iin V c) t.val (iblk0 V c 1 t) (blk1_apply V c t) _ (congrArg (fun p => p.2.2.1) ih)))
        ((outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1).trans (step5 (Iin V c) t.val (iblk0 V c 1 t) (blk1_apply V c t)))))

/-- After point `n` the accumulators hold the sums over the first `n + 1` stripes, and the degree block stripe `n`'s. -/
theorem outsAt_eq (c : Dev nD) : ∀ (n : ℕ) (h : n < cfg0.N), outsAt0 V c n h
      = (acc2 (Xin V c) (Iin V c) (n + 1), acc3 (Iin V c) (n + 1), acc4 (Iin V c) (n + 1), blk5 (Iin V c) n)
  | 0, h => caseA V c ⟨0, h⟩ rfl
  | n + 1, h => by
    have hN : cfg0.N = 25 := N_0
    have hB : ¬(⟨n + 1, h⟩ : Fin cfg0.N).val % 25 = 0 := by dsimp only; omega
    exact caseB V c ⟨n + 1, h⟩ hB (outsAt_eq c n _)

end Region

/-! ## The arrays after the last point -/

section Final
open Cert.Gcn

variable (V : (c : Dev nD) → (b : Ref sig .tc) → Buf (Elt Ideal) ((c : Thread nD τ).loc b))

/-- The last point of the grid. -/
def tLast : Fin cfg0.N := ⟨24, lt_of_lt_of_eq (by decide : 24 < 25) N_0.symm⟩

/-- The one write-back of output 2, at the last point, writes the whole array at the sum over all 25 stripes. -/
theorem flushed2 (c : Dev nD) (t : Fin cfg0.N) (hf : (cfg0.win 2).flush t = true) :
    (dat0 V c).flushed 2 t = ((cfg0.win 2).blk t).view.read (Elt Ideal) (pass1_agg (Xin V c) (Iin V c)) := by
  have hN : cfg0.N = 25 := N_0
  have h24 : t.val + 1 = 25 := by have := (flush0_2 t).mp hf; have := t.isLt; omega
  obtain ⟨-, -, -, -, -, -, e0, e1, -⟩ := idx_facts t
  have hall : acc2 (Xin V c) (Iin V c) (t.val + 1) = pass1_agg (Xin V c) (Iin V c) := by rw [h24]; exact acc2_all _ _
  show (cfg0.win 2).cut (grid0.coords t) ((dat0 V c).after 2 t) = _
  rw [after0_2, outsAt_eq V c t.val t.isLt]
  show acc2 (Xin V c) (Iin V c) (t.val + 1) = _
  rw [hall]
  funext y
  show (pass1_agg (Xin V c) (Iin V c)) y = (pass1_agg (Xin V c) (Iin V c)) (((cfg0.win 2).blk t).view.emb y)
  refine congrArg (pass1_agg (Xin V c) (Iin V c)) (funext fun a => Fin.ext ?_)
  match a with
  | ⟨0, _⟩ =>
    show (y 0).val = win0_2.index t (0 : Fin 2) * 8192 + 1 * (y 0).val
    rw [e0]; omega
  | ⟨1, _⟩ =>
    show (y 1).val = win0_2.index t (1 : Fin 2) * 32 + 1 * (y 1).val
    rw [e1]; omega

/-- So the array ends holding it: the last point's block is the whole array. -/
theorem final2 (c : Dev nD) : (dat0 V c).arrAt 2 cfg0.N = pass1_agg (Xin V c) (Iin V c) :=
  (dat0 V c).arrAt_eq_of_cover 2 (pass1_agg (Xin V c) (Iin V c)) (flushed2 V c) fun i =>
    ⟨tLast, (flush0_2 tLast).mpr rfl, by
      show i ∈ ((View.whole main_call0_v0_0).slice (win0_2.rect tLast)).set
      rw [View.set_slice_whole, Rect.mem_set_unit]
      intro a
      have h0 : (i 0 : Nat) < 8192 := (i 0).isLt
      have h1 : (i 1 : Nat) < 32 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 8192 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 32 from by decide +kernel]; omega⟩

/-- The one write-back of output 3, at the last point, writes the whole array at the sum over all 25 stripes. -/
theorem flushed3 (c : Dev nD) (t : Fin cfg0.N) (hf : (cfg0.win 3).flush t = true) :
    (dat0 V c).flushed 3 t = ((cfg0.win 3).blk t).view.read (Elt Ideal) (pass1_de (Iin V c)) := by
  have hN : cfg0.N = 25 := N_0
  have h24 : t.val + 1 = 25 := by have := (flush0_3 t).mp hf; have := t.isLt; omega
  obtain ⟨-, -, -, -, -, -, -, -, e0, e1, -⟩ := idx_facts t
  have hall : acc3 (Iin V c) (t.val + 1) = pass1_de (Iin V c) := by rw [h24]; exact acc3_all _
  show (cfg0.win 3).cut (grid0.coords t) ((dat0 V c).after 3 t) = _
  rw [after0_3, outsAt_eq V c t.val t.isLt]
  show acc3 (Iin V c) (t.val + 1) = _
  rw [hall]
  funext y
  show (pass1_de (Iin V c)) y = (pass1_de (Iin V c)) (((cfg0.win 3).blk t).view.emb y)
  refine congrArg (pass1_de (Iin V c)) (funext fun a => Fin.ext ?_)
  match a with
  | ⟨0, _⟩ =>
    show (y 0).val = win0_3.index t (0 : Fin 2) * 1 + 1 * (y 0).val
    rw [e0]; omega
  | ⟨1, _⟩ =>
    show (y 1).val = win0_3.index t (1 : Fin 2) * 8192 + 1 * (y 1).val
    rw [e1]; omega

/-- So the array ends holding it: the last point's block is the whole array. -/
theorem final3 (c : Dev nD) : (dat0 V c).arrAt 3 cfg0.N = pass1_de (Iin V c) :=
  (dat0 V c).arrAt_eq_of_cover 3 (pass1_de (Iin V c)) (flushed3 V c) fun i =>
    ⟨tLast, (flush0_3 tLast).mpr rfl, by
      show i ∈ ((View.whole main_call0_v0_1).slice (win0_3.rect tLast)).set
      rw [View.set_slice_whole, Rect.mem_set_unit]
      intro a
      have h0 : (i 0 : Nat) < 1 := (i 0).isLt
      have h1 : (i 1 : Nat) < 8192 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 8192 from by decide +kernel]; omega⟩

/-- The one write-back of output 4, at the last point, writes the whole array at the sum over all 25 stripes. -/
theorem flushed4 (c : Dev nD) (t : Fin cfg0.N) (hf : (cfg0.win 4).flush t = true) :
    (dat0 V c).flushed 4 t = ((cfg0.win 4).blk t).view.read (Elt Ideal) (pass1_ss (Iin V c)) := by
  have hN : cfg0.N = 25 := N_0
  have h24 : t.val + 1 = 25 := by have := (flush0_4 t).mp hf; have := t.isLt; omega
  obtain ⟨-, -, -, -, -, -, -, -, -, -, e0, e1⟩ := idx_facts t
  have hall : acc4 (Iin V c) (t.val + 1) = pass1_ss (Iin V c) := by rw [h24]; exact acc4_all _
  show (cfg0.win 4).cut (grid0.coords t) ((dat0 V c).after 4 t) = _
  rw [after0_4, outsAt_eq V c t.val t.isLt]
  show acc4 (Iin V c) (t.val + 1) = _
  rw [hall]
  funext y
  show (pass1_ss (Iin V c)) y = (pass1_ss (Iin V c)) (((cfg0.win 4).blk t).view.emb y)
  refine congrArg (pass1_ss (Iin V c)) (funext fun a => Fin.ext ?_)
  match a with
  | ⟨0, _⟩ =>
    show (y 0).val = win0_4.index t (0 : Fin 2) * 1 + 1 * (y 0).val
    rw [e0]; omega
  | ⟨1, _⟩ =>
    show (y 1).val = win0_4.index t (1 : Fin 2) * 8192 + 1 * (y 1).val
    rw [e1]; omega

/-- So the array ends holding it: the last point's block is the whole array. -/
theorem final4 (c : Dev nD) : (dat0 V c).arrAt 4 cfg0.N = pass1_ss (Iin V c) :=
  (dat0 V c).arrAt_eq_of_cover 4 (pass1_ss (Iin V c)) (flushed4 V c) fun i =>
    ⟨tLast, (flush0_4 tLast).mpr rfl, by
      show i ∈ ((View.whole main_call0_v0_2).slice (win0_4.rect tLast)).set
      rw [View.set_slice_whole, Rect.mem_set_unit]
      intro a
      have h0 : (i 0 : Nat) < 1 := (i 0).isLt
      have h1 : (i 1 : Nat) < 8192 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 8192 from by decide +kernel]; omega⟩

/-- Every point writes back its stripe's block of the node degrees. -/
theorem flushed5 (c : Dev nD) (t : Fin cfg0.N) (hf : (cfg0.win 5).flush t = true) :
    (dat0 V c).flushed 5 t = ((cfg0.win 5).blk t).view.read (Elt Ideal) (pass1_dv (Iin V c)) := by
  have hN : t.val < 25 := lt_of_lt_of_eq t.isLt (show cfg0.N = 25 from N_0)
  obtain ⟨-, -, -, -, e0, e1, -⟩ := idx_facts t
  show (cfg0.win 5).cut (grid0.coords t) ((dat0 V c).after 5 t) = _
  rw [after0_5, outsAt_eq V c t.val t.isLt]
  show blk5 (Iin V c) t.val = _
  funext y
  have hy : (y 0).val < 400 := (y 0).isLt
  show dv (Iin V c) (row (400 * t.val + (y 0).val)) = dv (Iin V c) ((((cfg0.win 5).blk t).view.emb y) 0)
  refine congrArg (dv (Iin V c)) (Fin.ext ?_)
  show (row (400 * t.val + (y 0).val)).val = win0_5.index t (0 : Fin 2) * 400 + 1 * (y 0).val
  rw [e0, row_val _ (by omega)]; omega

/-- An index of the degree column is in point `t`'s block iff each coordinate is in the block's range on its axis. -/
theorem mem_blk5 (t : Fin cfg0.N) (i : S10000x1.Idx) :
    i ∈ ((cfg0.win 5).blk t).view.set ↔ ∀ a : Fin 2, win0_5.index t a * S400x1.size a ≤ (i a).val ∧ (i a).val < win0_5.index t a * S400x1.size a + S400x1.size a := by
  show i ∈ ((View.whole main_call0_v0_3).slice (win0_5.rect t)).set ↔ _
  rw [View.set_slice_whole, Rect.mem_set_unit]
  exact Iff.rfl

/-- A row of the degree column lies in the block of the point that is its stripe's number. -/
theorem cover5 (i : S10000x1.Idx) : ∃ t : Fin cfg0.N, (cfg0.win 5).flush t = true ∧ i ∈ ((cfg0.win 5).blk t).view.set := by
  have h0 : (i 0).val < 10000 := idx2_lt0 i
  have h1 : (i 1).val < 1 := idx2_lt1 i
  obtain ⟨t, ht⟩ : ∃ t : Fin cfg0.N, t.val = (i 0).val / 400 :=
    ⟨⟨(i 0).val / 400, lt_of_lt_of_eq (by omega : (i 0).val / 400 < 25) N_0.symm⟩, rfl⟩
  obtain ⟨-, -, -, -, e0, e1, -⟩ := idx_facts t
  refine ⟨t, flush0_5 t, ?_⟩
  rw [mem_blk5]
  intro a
  match a with
  | ⟨0, _⟩ =>
    show win0_5.index t (0 : Fin 2) * 400 ≤ (i 0).val ∧ (i 0).val < win0_5.index t (0 : Fin 2) * 400 + 400
    rw [e0, ht]; omega
  | ⟨1, _⟩ =>
    show win0_5.index t (1 : Fin 2) * 1 ≤ (i 1).val ∧ (i 1).val < win0_5.index t (1 : Fin 2) * 1 + 1
    rw [e1]; omega

/-- So the degree column ends holding every node's degree. -/
theorem final5 (c : Dev nD) : (dat0 V c).arrAt 5 cfg0.N = pass1_dv (Iin V c) :=
  (dat0 V c).arrAt_eq_of_cover 5 (pass1_dv (Iin V c)) (flushed5 V c) fun i => cover5 i

/-! ## The first pass's four arrays -/

/-- The edge aggregate of the features. -/
theorem agg_arr (c : Dev nD) : (dat0 (F := Ideal) V c).arrAt 2 cfg0.N
    = Cert.Gcn.pass1_agg (V c (Pipeline.arrRef spec0 0)) (V c (Pipeline.arrRef spec0 1)) := final2 V c
/-- The edge degrees. -/
theorem de_arr (c : Dev nD) : (dat0 (F := Ideal) V c).arrAt 3 cfg0.N
    = Cert.Gcn.pass1_de (V c (Pipeline.arrRef spec0 1)) := final3 V c
/-- The degree-weighted edge sums. -/
theorem ss_arr (c : Dev nD) : (dat0 (F := Ideal) V c).arrAt 4 cfg0.N
    = Cert.Gcn.pass1_ss (V c (Pipeline.arrRef spec0 1)) := final4 V c
/-- The node degrees. -/
theorem dv_arr (c : Dev nD) : (dat0 (F := Ideal) V c).arrAt 5 cfg0.N
    = Cert.Gcn.pass1_dv (V c (Pipeline.arrRef spec0 1)) := final5 V c

end Final

end Cert.KernelIdeal.Pass1
end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Pass2Body.lean ====
/-
  The arithmetic of the second pass's body, read at an index over the extended reals.

  On one stripe of 400 node rows the body forms, from the stripe `A` of the incidence weights [400, 8192], the
  scaled edge messages `Y` [8192, 32], the stripe's degree column `d` [400, 1], its skip features `x` [400, 32]
  and the transposed layer weights `W` [32, 32]:
      comb = (½ · A Y) · rsqrt d + ½ · x,        stepped = ½ · comb + ½ · comb W,
  and adds  Aᵀ · stepped  to the running edge aggregate. The three products are read entry by entry as finite
  sums: the first two contract the left operand's columns with the right operand's rows, the last one contracts
  the ROWS of both operands (the stripe is used transposed).
-/
import proofs.«172867_g78700980732061_cont_9to1_m_422_2_alg».proof.Proof.Spec
import proofs.«172867_g78700980732061_cont_9to1_m_422_2_alg».proof.Proof.Gen.KernelIdeal.Skeleton
import proofs.«172867_g78700980732061_cont_9to1_m_422_2_alg».proof.Proof.LibMatmulRead
import proofs.«172867_g78700980732061_cont_9to1_m_422_2_alg».proof.Proof.LibKeepdims
import proofs.«172867_g78700980732061_cont_9to1_m_422_2_alg».proof.Proof.Pass1Lib

noncomputable section

open Idealize.ShloMosaic Idealize.ShloMosaic.ValueIdx
open scoped BigOperators

namespace Cert.KernelIdeal.Pass2

open Cert.KernelIdeal Cert.KernelIdeal.Gen

/-! ## The stripe's combined and stepped features, as the body computes them (any float instance) -/

section Ops

variable {F : FTy → Type} [FloatOps F]

/-- The combined features of the stripe: (½ · A Y) · rsqrt d + ½ · x, the degree column spread over the 32 lanes. -/
def combV (v0 : Vec F S400x8192 .f32) (v1 : Vec F S8192x32 .f32) (v6 : Vec F S400x1 .f32) (v11 : Vec F S400x32 .f32) :
    FVec F S400x32 .f32 :=
  addf
    (mulf
      (mulf (broadcast S400x32 (Scalar.ofBits .f32 0x3F000000#32))
        (matmul dot_S400x8192_S8192x32_S400x32_1_0_0_1_n_n none v0 v1 (constant S400x32 .f32 0x00000000#32)))
      (broadcastTo S400x32 (rsqrt v6) broadcasts_S400x1_S400x32))
    (mulf (broadcast S400x32 (Scalar.ofBits .f32 0x3F000000#32)) v11)

/-- The stepped features of the stripe: ½ · comb + ½ · comb W. -/
def stepV (v0 : Vec F S400x8192 .f32) (v1 : Vec F S8192x32 .f32) (v6 : Vec F S400x1 .f32) (v11 : Vec F S400x32 .f32)
    (v17 : Vec F S32x32 .f32) : FVec F S400x32 .f32 :=
  addf
    (mulf (broadcast S400x32 (Scalar.ofBits .f32 0x3F000000#32)) (combV v0 v1 v6 v11))
    (mulf (broadcast S400x32 (Scalar.ofBits .f32 0x3F000000#32))
      (matmul dot_S400x32_S32x32_S400x32_1_0_0_1_n_n none (combV v0 v1 v6 v11) v17 (constant S400x32 .f32 0x00000000#32)))

/-- The body's one store writes the running aggregate plus the stripe's transposed product with its stepped features
    (the body's casts of a block to its own shape are the identity). -/
theorem pay2_eq (v0 : Vec F S400x8192 .f32) (v1 : Vec F S8192x32 .f32) (v6 : Vec F S400x1 .f32) (v11 : Vec F S400x32 .f32)
    (v17 : Vec F S32x32 .f32) (v26 : Vec F S8192x32 .f32) :
    k1_pay2 v0 v1 v6 v11 v17 v26
      = addf v26 (matmul dot_S400x8192_S400x32_S8192x32_0_0_1_1_n_n none v0 (stepV v0 v1 v6 v11 v17)
          (constant S8192x32 .f32 0x00000000#32)) := by
  unfold k1_pay2 stepV combV
  simp only [shapeCast_self]

end Ops

/-! ## The same, entry by entry, over the extended reals -/

section AtIdeal

variable (v0 : S400x8192.Idx → EReal) (v1 : S8192x32.Idx → EReal) (v6 : S400x1.Idx → EReal) (v11 : S400x32.Idx → EReal)
  (v17 : S32x32.Idx → EReal)

/-- The stripe's combined features at row `r`, lane `f`. -/
def combB (r : Fin 400) (f : Fin 32) : EReal :=
  (Cert.Gcn.half * ∑ e : Fin 8192, v0 (ix2 r e) * v1 (ix2 e f)) * Ideal.rsqrt (v6 (ix2 r 0)) + Cert.Gcn.half * v11 (ix2 r f)

/-- The stripe's stepped features at row `r`, lane `f`. -/
def stepB (r : Fin 400) (f : Fin 32) : EReal :=
  Cert.Gcn.half * combB v0 v1 v6 v11 r f + Cert.Gcn.half * ∑ k : Fin 32, combB v0 v1 v6 v11 r k * v17 (ix2 k f)

theorem combV_apply (r : Fin 400) (f : Fin 32) :
    combV (F := Ideal) v0 v1 v6 v11 (ix2 r f) = combB v0 v1 v6 v11 r f := by
  unfold combV combB
  show Cert.Gcn.half * (FloatOps.matmul (F := Ideal) dot_S400x8192_S8192x32_S400x32_1_0_0_1_n_n none v0 v1
        (constant (F := Ideal) S400x32 .f32 0x00000000#32) (ix2 r f) : EReal)
      * (broadcastTo S400x32 (rsqrt (F := Ideal) (φ := .f32) v6) broadcasts_S400x1_S400x32 (ix2 r f) : EReal)
      + Cert.Gcn.half * v11 (ix2 r f) = _
  rw [MatmulRead.matmul_zero_ix2 ⟨rfl, rfl, rfl, rfl, rfl, rfl⟩ rfl rfl, Cert.LibKeepdims.broadcastTo_a1_ab_apply]
  rfl

theorem stepV_apply (r : Fin 400) (f : Fin 32) :
    stepV (F := Ideal) v0 v1 v6 v11 v17 (ix2 r f) = stepB v0 v1 v6 v11 v17 r f := by
  unfold stepV stepB
  show Cert.Gcn.half * (combV (F := Ideal) v0 v1 v6 v11 (ix2 r f) : EReal)
      + Cert.Gcn.half * (FloatOps.matmul (F := Ideal) dot_S400x32_S32x32_S400x32_1_0_0_1_n_n none (combV (F := Ideal) v0 v1 v6 v11) v17
        (constant (F := Ideal) S400x32 .f32 0x00000000#32) (ix2 r f) : EReal) = _
  rw [MatmulRead.matmul_zero_ix2 ⟨rfl, rfl, rfl, rfl, rfl, rfl⟩ rfl rfl, combV_apply]
  simp only [combV_apply]

/-- THE BODY'S STORE at edge `e`, lane `f`: the running aggregate there plus the stripe's 400 rows' weighted stepped
    features. -/
theorem pay2_apply (v26 : S8192x32.Idx → EReal) (e : Fin 8192) (f : Fin 32) :
    k1_pay2 (F := Ideal) v0 v1 v6 v11 v17 v26 (ix2 e f)
      = v26 (ix2 e f) + ∑ r : Fin 400, v0 (ix2 r e) * stepB v0 v1 v6 v11 v17 r f := by
  rw [pay2_eq]
  show v26 (ix2 e f) + (FloatOps.matmul (F := Ideal) dot_S400x8192_S400x32_S8192x32_0_0_1_1_n_n none v0 (stepV (F := Ideal) v0 v1 v6 v11 v17)
      (constant (F := Ideal) S8192x32 .f32 0x00000000#32) (ix2 e f) : EReal) = _
  rw [Cert.Pass1Lib.matmulT_zero_ix2 ⟨rfl, rfl, rfl, rfl, rfl, rfl⟩ rfl rfl]
  simp only [stepV_apply]

/-- The zero block the first point stores. -/
theorem pay1_apply (j : S8192x32.Idx) : k1_pay1 (F := Ideal) j = 0 := Ideal.ofBits_zero_f32

end AtIdeal

/-! ## A stripe of the whole arrays: the body's sums are the specification's -/

section Stripe

open Cert.Pass1Lib (row)

variable (I : Cert.Gcn.SNE.Idx → EReal) (X : Cert.Gcn.SNF.Idx → EReal) (D : Cert.Gcn.SN1.Idx → EReal)
  (Y : Cert.Gcn.SEF.Idx → EReal) (Wt : Cert.Gcn.SFF.Idx → EReal)
  (v0 : S400x8192.Idx → EReal) (v6 : S400x1.Idx → EReal) (v11 : S400x32.Idx → EReal) (s : ℕ)
  (h0 : ∀ (r : Fin 400) (e : Fin 8192), v0 (ix2 r e) = I (ix2 (row (400 * s + r.val)) e))
  (h6 : ∀ r : Fin 400, v6 (ix2 r (0 : Fin 1)) = D (ix2 (row (400 * s + r.val)) (0 : Fin 1)))
  (h11 : ∀ (r : Fin 400) (f : Fin 32), v11 (ix2 r f) = X (ix2 (row (400 * s + r.val)) f))

include h0 h6 h11

/-- When the blocks are stripe `s` of the arrays (rows `400 s … 400 s + 399`) and the messages and weights are read
    whole, the stripe's combined features are the specification's at those rows, -/
theorem combB_eq (r : Fin 400) (f : Fin 32) :
    combB v0 Y v6 v11 r f = Cert.Gcn.comb I X D Y (row (400 * s + r.val)) f := by
  unfold combB Cert.Gcn.comb Cert.Gcn.scat
  simp only [h0, h6, h11]

/-- so are its stepped features, -/
theorem stepB_eq (r : Fin 400) (f : Fin 32) :
    stepB v0 Y v6 v11 Wt r f = Cert.Gcn.step I X D Y Wt (row (400 * s + r.val)) f := by
  unfold stepB Cert.Gcn.step Cert.Gcn.upd
  simp only [combB_eq I X D Y v0 v6 v11 s h0 h6 h11]

/-- and the body's store adds the stripe's share of the edge aggregate of the stepped features. -/
theorem point_apply (v26 : S8192x32.Idx → EReal) (e : Fin 8192) (f : Fin 32) :
    k1_pay2 (F := Ideal) v0 Y v6 v11 Wt v26 (ix2 e f)
      = v26 (ix2 e f) + ∑ r : Fin 400, I (ix2 (row (400 * s + r.val)) e) * Cert.Gcn.step I X D Y Wt (row (400 * s + r.val)) f := by
  rw [pay2_apply]
  refine congrArg (v26 (ix2 e f) + ·) (Finset.sum_congr rfl fun r _ => ?_)
  rw [h0, stepB_eq I X D Y Wt v0 v6 v11 s h0 h6 h11]

end Stripe

end Cert.KernelIdeal.Pass2

end
-- ==== Proof.Pass2.lean ====
/-
  The value of the second pass, at the extended reals.

  The second pass runs over 25 stripes of 400 node rows. At each stripe it forms the stepped node features of the
  stripe's rows (the specification's `step`, read there from the region's five arrays) and adds the stripe's
  share  Σ_r I[400 t + r, e] · step[400 t + r, f]  to an [8192, 32] accumulator that is reset to zero at the
  first stripe and written back once, after the last. So after stripe `t` the accumulator holds the edge
  aggregate over the rows of the first `t + 1` stripes (by induction on the stripe), and the array the pass leaves
  is the edge aggregate of the stepped features over all 10000 rows: `Cert.Gcn.pass2`.
-/
import proofs.«172867_g78700980732061_cont_9to1_m_422_2_alg».proof.Proof.Spec
import proofs.«172867_g78700980732061_cont_9to1_m_422_2_alg».proof.Proof.Gen.KernelIdeal.Frame
import proofs.«172867_g78700980732061_cont_9to1_m_422_2_alg».proof.Proof.Pass1Lib
import proofs.«172867_g78700980732061_cont_9to1_m_422_2_alg».proof.Proof.Pass2Body
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen
open Cert.Pass1Lib (row part)

/-! ## What each case of the body leaves in the accumulator's buffer -/

section Pieces

variable {F : FTy → Type} [FloatOps F]

theorem hz : (![0, 0] : Fin 2 → Nat) = fun _ => 0 := funext fun a => by fin_cases a <;> rfl

/-- AT A LATER POINT the body leaves its one covering store's payload: the buffer's contents `xo` plus the stripe's
    share, the loads reading the whole buffers. -/
theorem out_B (c : Dev nD) (i : grid1.Coords)
    (a1 : Memref sig .tc .vmem S400x8192 .f32) (h1 : a1.IsWhole) (a2 : Memref sig .tc .vmem S400x32 .f32) (h2 : a2.IsWhole)
    (a3 : Memref sig .tc .vmem S400x1 .f32) (h3 : a3.IsWhole) (a4 : Memref sig .tc .vmem S8192x32 .f32) (h4 : a4.IsWhole)
    (a5 : Memref sig .tc .vmem S32x32 .f32) (h5 : a5.IsWhole) (a6 : Memref sig .tc .vmem S8192x32 .f32) (h6 : a6.IsWhole)
    (hc : ¬cond1_0 i)
    (x0 : Vec F S400x8192 .f32) (x1 : Vec F S400x32 .f32) (x2 : Vec F S400x1 .f32) (x3 : Vec F S8192x32 .f32)
    (x4 : Vec F S32x32 .f32) (xo : Vec F S8192x32 .f32) :
    out1_B_5 c i a1 h1 a2 h2 a3 h3 a4 h4 a5 h5 a6 h6 hc x0 x1 x2 x3 x4 xo = k1_pay2 x0 x3 x2 x1 x4 xo := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  rw [View.canon_unit_zero hz]
  simp only [View.readAt_eq_ld, h1.read_unread, h2.read_unread, h3.read_unread, h4.read_unread, h5.read_unread, h6.read_unread,
    View.ld_unit_zero (S := S400x8192) hz, View.ld_unit_zero (S := S400x32) hz, View.ld_unit_zero (S := S400x1) hz,
    View.ld_unit_zero (S := S8192x32) hz, View.ld_unit_zero (S := S32x32) hz]

/-- AT THE FIRST POINT the body stores the zero block, reads it back and leaves the zero block plus the stripe's share. -/
theorem out_A (c : Dev nD) (i : grid1.Coords)
    (a1 : Memref sig .tc .vmem S400x8192 .f32) (h1 : a1.IsWhole) (a2 : Memref sig .tc .vmem S400x32 .f32) (h2 : a2.IsWhole)
    (a3 : Memref sig .tc .vmem S400x1 .f32) (h3 : a3.IsWhole) (a4 : Memref sig .tc .vmem S8192x32 .f32) (h4 : a4.IsWhole)
    (a5 : Memref sig .tc .vmem S32x32 .f32) (h5 : a5.IsWhole) (a6 : Memref sig .tc .vmem S8192x32 .f32) (h6 : a6.IsWhole)
    (hc : cond1_0 i)
    (x0 : Vec F S400x8192 .f32) (x1 : Vec F S400x32 .f32) (x2 : Vec F S400x1 .f32) (x3 : Vec F S8192x32 .f32)
    (x4 : Vec F S32x32 .f32) :
    out1_A_5 c i a1 h1 a2 h2 a3 h3 a4 h4 a5 h5 a6 h6 hc x0 x1 x2 x3 x4 = k1_pay2 x0 x3 x2 x1 x4 (k1_pay1 (F := F)) := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S8192x32) hz, View.readCov_unit_zero (S := S8192x32) _ hz]
  simp only [View.readAt_eq_ld, h1.read_unread, h2.read_unread, h3.read_unread, h4.read_unread, h5.read_unread,
    View.ld_unit_zero (S := S400x8192) hz, View.ld_unit_zero (S := S400x32) hz, View.ld_unit_zero (S := S400x1) hz,
    View.ld_unit_zero (S := S8192x32) hz, View.ld_unit_zero (S := S32x32) hz]

end Pieces

/-! ## The region's arrays and their blocks -/

variable (V : (c : Dev nD) → (b : Ref sig .tc) → Buf (Elt Ideal) ((c : Thread nD τ).loc b))

/-- The five arrays the region is handed, as it finds them: the incidence weights, the skip features, the degree
    column, the scaled edge messages, the transposed layer weights. -/
abbrev aI (c : Dev nD) : Cert.Gcn.SNE.Idx → EReal := V c (Pipeline.arrRef spec1 0)
abbrev aX (c : Dev nD) : Cert.Gcn.SNF.Idx → EReal := V c (Pipeline.arrRef spec1 1)
abbrev aD (c : Dev nD) : Cert.Gcn.SN1.Idx → EReal := V c (Pipeline.arrRef spec1 2)
abbrev aY (c : Dev nD) : Cert.Gcn.SEF.Idx → EReal := V c (Pipeline.arrRef spec1 3)
abbrev aW (c : Dev nD) : Cert.Gcn.SFF.Idx → EReal := V c (Pipeline.arrRef spec1 4)

/-- The printed index maps over the grid: the three striped windows move down one block of rows per point, the
    whole windows and the accumulator stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `r` of the incidence block at point `t` is row `400 t + r` of the array. -/
theorem blk0 (c : Dev nD) (t : Fin cfg1.N) (r : Fin 400) (e : Fin 8192) :
    (iblk1 V c 0 t : S400x8192.Idx → EReal) (ix2 r e) = aI V c (ix2 (row (400 * t.val + r.val)) e) := by
  have hN : t.val < 25 := lt_of_lt_of_eq t.isLt (show cfg1.N = 25 from N_1)
  obtain ⟨e0, e1, -⟩ := idx_facts t
  have h : ((cfg1.win 0).blk t).view.emb (ix2 r e) = ix2 (row (400 * t.val + r.val)) e := by
    funext a; apply Fin.ext
    match a with
    | ⟨0, _⟩ => show win1_0.index t (0 : Fin 2) * 400 + 1 * r.val = (400 * t.val + r.val) % 10000; rw [e0]; omega
    | ⟨1, _⟩ => show win1_0.index t (1 : Fin 2) * 8192 + 1 * e.val = e.val; rw [e1]; omega
  unfold iblk1
  rw [View.read_apply]
  show V c (Pipeline.arrRef spec1 0) (((cfg1.win 0).blk t).view.emb (ix2 r e)) = _
  rw [h]

/-- The same for the skip features, -/
theorem blk1 (c : Dev nD) (t : Fin cfg1.N) (r : Fin 400) (f : Fin 32) :
    (iblk1 V c 1 t : S400x32.Idx → EReal) (ix2 r f) = aX V c (ix2 (row (400 * t.val + r.val)) f) := by
  have hN : t.val < 25 := lt_of_lt_of_eq t.isLt (show cfg1.N = 25 from N_1)
  obtain ⟨-, -, e0, e1, -⟩ := idx_facts t
  have h : ((cfg1.win 1).blk t).view.emb (ix2 r f) = ix2 (row (400 * t.val + r.val)) f := by
    funext a; apply Fin.ext
    match a with
    | ⟨0, _⟩ => show win1_1.index t (0 : Fin 2) * 400 + 1 * r.val = (400 * t.val + r.val) % 10000; rw [e0]; omega
    | ⟨1, _⟩ => show win1_1.index t (1 : Fin 2) * 32 + 1 * f.val = f.val; rw [e1]; omega
  unfold iblk1
  rw [View.read_apply]
  show V c (Pipeline.arrRef spec1 1) (((cfg1.win 1).blk t).view.emb (ix2 r f)) = _
  rw [h]

/-- and for the degree column. -/
theorem blk2 (c : Dev nD) (t : Fin cfg1.N) (r : Fin 400) :
    (iblk1 V c 2 t : S400x1.Idx → EReal) (ix2 r (0 : Fin 1)) = aD V c (ix2 (row (400 * t.val + r.val)) (0 : Fin 1)) := by
  have hN : t.val < 25 := lt_of_lt_of_eq t.isLt (show cfg1.N = 25 from N_1)
  obtain ⟨-, -, -, -, e0, e1, -⟩ := idx_facts t
  have h : ((cfg1.win 2).blk t).view.emb (ix2 r (0 : Fin 1)) = ix2 (row (400 * t.val + r.val)) (0 : Fin 1) := by
    funext a; apply Fin.ext
    match a with
    | ⟨0, _⟩ => show win1_2.index t (0 : Fin 2) * 400 + 1 * r.val = (400 * t.val + r.val) % 10000; rw [e0]; omega
    | ⟨1, _⟩ => show win1_2.index t (1 : Fin 2) * 1 + 1 * 0 = 0; rw [e1]
  unfold iblk1
  rw [View.read_apply]
  show V c (Pipeline.arrRef spec1 2) (((cfg1.win 2).blk t).view.emb (ix2 r (0 : Fin 1))) = _
  rw [h]

/-- The edge messages' block is the whole array at every point, -/
theorem blk3 (c : Dev nD) (t : Fin cfg1.N) : (iblk1 V c 3 t : S8192x32.Idx → EReal) = aY V c := by
  obtain ⟨-, -, -, -, -, -, e0, e1, -⟩ := idx_facts t
  funext j
  have h : ((cfg1.win 3).blk t).view.emb j = j := by
    funext a; apply Fin.ext
    match a with
    | ⟨0, _⟩ => show win1_3.index t (0 : Fin 2) * 8192 + 1 * (j 0).val = (j 0).val; rw [e0]; omega
    | ⟨1, _⟩ => show win1_3.index t (1 : Fin 2) * 32 + 1 * (j 1).val = (j 1).val; rw [e1]; omega
  unfold iblk1
  rw [View.read_apply]
  show V c (Pipeline.arrRef spec1 3) (((cfg1.win 3).blk t).view.emb j) = _
  rw [h]

/-- and so is the weights'. -/
theorem blk4 (c : Dev nD) (t : Fin cfg1.N) : (iblk1 V c 4 t : S32x32.Idx → EReal) = aW V c := by
  obtain ⟨-, -, -, -, -, -, -, -, e0, e1, -⟩ := idx_facts t
  funext j
  have h : ((cfg1.win 4).blk t).view.emb j = j := by
    funext a; apply Fin.ext
    match a with
    | ⟨0, _⟩ => show win1_4.index t (0 : Fin 2) * 32 + 1 * (j 0).val = (j 0).val; rw [e0]; omega
    | ⟨1, _⟩ => show win1_4.index t (1 : Fin 2) * 32 + 1 * (j 1).val = (j 1).val; rw [e1]; omega
  unfold iblk1
  rw [View.read_apply]
  show V c (Pipeline.arrRef spec1 4) (((cfg1.win 4).blk t).view.emb j) = _
  rw [h]

/-! ## The running aggregate -/

/-- The edge aggregate of the stepped features over the rows of the first `T` stripes. -/
def acc (I : Cert.Gcn.SNE.Idx → EReal) (X : Cert.Gcn.SNF.Idx → EReal) (D : Cert.Gcn.SN1.Idx → EReal)
    (Y : Cert.Gcn.SEF.Idx → EReal) (Wt : Cert.Gcn.SFF.Idx → EReal) (T : ℕ) : Cert.Gcn.SEF.Idx → EReal :=
  fun j => part T fun n => I (ix2 n (j 0)) * Cert.Gcn.step I X D Y Wt n (j 1)

/-- All 25 stripes: the edge aggregate itself. -/
theorem acc_all (I : Cert.Gcn.SNE.Idx → EReal) (X : Cert.Gcn.SNF.Idx → EReal) (D : Cert.Gcn.SN1.Idx → EReal)
    (Y : Cert.Gcn.SEF.Idx → EReal) (Wt : Cert.Gcn.SFF.Idx → EReal) : acc I X D Y Wt 25 = Cert.Gcn.pass2 I X D Y Wt :=
  funext fun j => Cert.Pass1Lib.part_all _

/-- One point of the grid: the body's store, over the region's arrays, at edge `e` and lane `f`. -/
theorem point_at (c : Dev nD) (t : Fin cfg1.N) (xo : S8192x32.Idx → EReal) (e : Fin 8192) (f : Fin 32) :
    k1_pay2 (F := Ideal) (iblk1 V c 0 t) (iblk1 V c 3 t) (iblk1 V c 2 t) (iblk1 V c 1 t) (iblk1 V c 4 t) xo (ix2 e f)
      = xo (ix2 e f) + ∑ r : Fin 400, aI V c (ix2 (row (400 * t.val + r.val)) e)
          * Cert.Gcn.step (aI V c) (aX V c) (aD V c) (aY V c) (aW V c) (row (400 * t.val + r.val)) f := by
  rw [blk3 V c t, blk4 V c t]
  exact point_apply (aI V c) (aX V c) (aD V c) (aY V c) (aW V c) (iblk1 V c 0 t) (iblk1 V c 2 t) (iblk1 V c 1 t) t.val
    (blk0 V c t) (blk2 V c t) (blk1 V c t) xo e f

/-- What the accumulator's buffer holds after point `n` is the aggregate over the first `n + 1` stripes: by induction
    on the point. -/
theorem outsAt_eq (c : Dev nD) : ∀ (n : ℕ) (h : n < cfg1.N),
    outsAt1 V c n h = acc (aI V c) (aX V c) (aD V c) (aY V c) (aW V c) (n + 1)
  | 0, h => by
    refine (outsAt1_A V c ⟨0, h⟩ rfl).trans ((out_A ..).trans ?_)
    funext j
    obtain ⟨e, f, rfl⟩ : ∃ (e : Fin 8192) (f : Fin 32), j = ix2 e f := ⟨j 0, j 1, eq_ix2 j⟩
    refine (point_at V c ⟨0, h⟩ (k1_pay1 (F := Ideal)) e f).trans ?_
    rw [pay1_apply, zero_add]
    unfold acc
    rw [Cert.Pass1Lib.part_succ, Cert.Pass1Lib.part_zero, zero_add]
  | n + 1, h => by
    have hN : cfg1.N = 25 := N_1
    have hB : ¬(⟨n + 1, h⟩ : Fin cfg1.N).val % 25 = 0 := by dsimp only; omega
    refine (outsAt1_B V c ⟨n + 1, h⟩ hB).trans ((out_B ..).trans ?_)
    funext j
    obtain ⟨e, f, rfl⟩ : ∃ (e : Fin 8192) (f : Fin 32), j = ix2 e f := ⟨j 0, j 1, eq_ix2 j⟩
    refine (point_at V c ⟨n + 1, h⟩ (outsAt1 V c n (Nat.lt_of_succ_lt h)) e f).trans ?_
    rw [outsAt_eq c n]
    unfold acc
    rw [Cert.Pass1Lib.part_succ (n + 1)]

/-! ## The result array -/

/-- The last point of the grid, the one that writes the accumulator back. -/
abbrev tLast : Fin cfg1.N := ⟨24, by rw [show cfg1.N = 25 from N_1]; decide⟩

/-- The one write-back writes the aggregate over all 25 stripes: block (0, 0) of the [8192, 32] array, read through
    zero offsets, is the array. -/
theorem flushed_eq (c : Dev nD) (t : Fin cfg1.N) (hf : (cfg1.win 5).flush t = true) :
    (dat1 V c).flushed 5 t
      = ((cfg1.win 5).blk t).view.read (Elt Ideal) (acc (aI V c) (aX V c) (aD V c) (aY V c) (aW V c) 25) := by
  have hN : cfg1.N = 25 := N_1
  have h24 : t.val = 24 := by have := (flush1_5 t).mp hf; have := t.isLt; omega
  obtain rfl : t = tLast := Fin.ext h24
  show (cfg1.win 5).cut (grid1.coords tLast) ((dat1 V c).after 5 tLast) = _
  rw [after1_5, outsAt_eq]
  have hz' : (fun a => win1_5.index tLast a * main_call0_v11.ty.shape.size a) = fun _ => 0 :=
    funext fun a => by fin_cases a <;> decide
  exact (Memref.read_access_unit_zero (Elt Ideal) main_call0_v11 hz' (fun a => by rw [congrFun hz' a]; simp)
    (acc (aI V c) (aX V c) (aD V c) (aY V c) (aW V c) 25)).symm

/-- THE VALUE OF THE SECOND PASS: the array it leaves is the edge aggregate of the stepped node features of the
    arrays it was handed. -/
theorem value (c : Dev nD) :
    (dat1 V c).arrAt 5 cfg1.N = Cert.Gcn.pass2 (aI V c) (aX V c) (aD V c) (aY V c) (aW V c) := by
  rw [← acc_all]
  refine (dat1 V c).arrAt_eq_of_cover 5 _ (flushed_eq V c) fun i => ⟨tLast, (flush1_5 tLast).mpr rfl, ?_⟩
  show i ∈ ((View.whole main_call0_v11).slice (win1_5.rect tLast)).set
  rw [View.set_slice_whole, Rect.mem_set_unit]
  intro a
  have h0 : (i 0 : Nat) < 8192 := (i 0).isLt
  have h1 : (i 1 : Nat) < 32 := (i 1).isLt
  match a with
  | ⟨0, _⟩ =>
    show win1_5.index tLast 0 * win1_5.size 0 ≤ (i 0 : Nat)
      ∧ (i 0 : Nat) < win1_5.index tLast 0 * win1_5.size 0 + win1_5.xsize (grid1.coords tLast) 0
    rw [show win1_5.index tLast 0 * win1_5.size 0 = 0 from by decide +kernel,
      show win1_5.xsize (grid1.coords tLast) 0 = 8192 from by decide +kernel]
    omega
  | ⟨1, _⟩ =>
    show win1_5.index tLast 1 * win1_5.size 1 ≤ (i 1 : Nat)
      ∧ (i 1 : Nat) < win1_5.index tLast 1 * win1_5.size 1 + win1_5.xsize (grid1.coords tLast) 1
    rw [show win1_5.index tLast 1 * win1_5.size 1 = 0 from by decide +kernel,
      show win1_5.xsize (grid1.coords tLast) 1 = 32 from by decide +kernel]
    omega

/-- The same, with the five arrays spelled as the region's buffers. -/
theorem pass2_arr (c : Dev nD) :
    (dat1 (F := Ideal) V c).arrAt 5 cfg1.N
      = Cert.Gcn.pass2 (V c (Pipeline.arrRef spec1 0)) (V c (Pipeline.arrRef spec1 1)) (V c (Pipeline.arrRef spec1 2))
          (V c (Pipeline.arrRef spec1 3)) (V c (Pipeline.arrRef spec1 4)) :=
  value V c

end Cert.KernelIdeal.Pass2
end
-- ==== Proof.lean ====
/-
  A two-layer hypergraph convolution (UniGCNII) on 10000 nodes and 8192 hyperedges, computed by a kernel of three
  passes over row stripes of the dense incidence weights, against its plain reference: the two return the same
  [10000, 32] array over the extended reals.

  Both programs are sums and products of the same arrays — edge aggregates  Σ_n I n e · z n f,  node scatters
  Σ_e I n e · y e f,  the update  ½ u + ½ u Wᵀ,  the head  u Woᵀ + b  — and differ in two places only. For the edge
  message the reference divides the aggregate by the edge degree  de  and then by  √(ŝ / de)  (ŝ the degree-weighted
  edge sum), while the kernel multiplies it by  rsqrt (de · ŝ);  for the node normalisation the reference divides by
  √dv  where the kernel multiplies by  rsqrt dv.  The second is the same number for every positive degree. The first
  is the same number exactly when  de · √(ŝ / de) = √(de · ŝ),  which holds for  de > 0  and fails, by a sign, for
  de < 0  (there the reference is still defined: ŝ / de > 0). So the claim is stated on the domain where the
  incidence array is what its name says: weights that are real and not negative, with every node degree and every
  edge degree positive (which is also what keeps the reference's quotients and roots defined). On it all degrees
  are positive reals, and only associativity and commutativity of the product on the extended reals are used:
  nothing is asked of the features, the weights or the bias.

  The kernel's side is read off its run pass by pass (the modules Pass1, Pass2, Pass3 say what each pass leaves in
  its arrays; Assemble reads the host lines between them and composes), the reference's side off its run operation
  by operation (RefValue), the law between them is Algebra, and PreDom reads the domain out of the precondition.
-/
import proofs.«172867_g78700980732061_cont_9to1_m_422_2_alg».proof.Defs
import proofs.«172867_g78700980732061_cont_9to1_m_422_2_alg».proof.Proof.Gen.Kernel
import proofs.«172867_g78700980732061_cont_9to1_m_422_2_alg».proof.Proof.Gen.Kernel.Frame
import proofs.«172867_g78700980732061_cont_9to1_m_422_2_alg».proof.Proof.Gen.KernelIdeal
import proofs.«172867_g78700980732061_cont_9to1_m_422_2_alg».proof.Proof.Gen.KernelIdeal.Frame
import proofs.«172867_g78700980732061_cont_9to1_m_422_2_alg».proof.Proof.Gen.ReferenceIdeal
import proofs.«172867_g78700980732061_cont_9to1_m_422_2_alg».proof.Proof.Gen.ReferenceIdeal.Run
import proofs.«172867_g78700980732061_cont_9to1_m_422_2_alg».proof.Proof.Gen.Pre_finite_inputs
import proofs.«172867_g78700980732061_cont_9to1_m_422_2_alg».proof.Proof.Spec
import proofs.«172867_g78700980732061_cont_9to1_m_422_2_alg».proof.Proof.Algebra
import proofs.«172867_g78700980732061_cont_9to1_m_422_2_alg».proof.Proof.PreDom
import proofs.«172867_g78700980732061_cont_9to1_m_422_2_alg».proof.Proof.RefValue
import proofs.«172867_g78700980732061_cont_9to1_m_422_2_alg».proof.Proof.RunValue
import proofs.«172867_g78700980732061_cont_9to1_m_422_2_alg».proof.Proof.Assemble
import proofs.«172867_g78700980732061_cont_9to1_m_422_2_alg».proof.Proof.Pass3
import proofs.«172867_g78700980732061_cont_9to1_m_422_2_alg».proof.Proof.Pass1
import proofs.«172867_g78700980732061_cont_9to1_m_422_2_alg».proof.Proof.Pass2
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the five arguments, the kernel ends at `outK` of them and the
    reference at `outR` of them, and on the precondition's domain — incidence weights real and not negative, node and
    edge degrees positive — the two are one function. -/
theorem algebraic : Cert.algebraic_KernelIdeal_ReferenceIdeal := by
  intro m ρ m' ρ' hpre hagree
  refine ⟨fun c j => Cert.Gcn.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (j 0) (j 1), ?_, ?_⟩
  · exact (θ_run Cert.KernelIdeal.defs _ _).mono
      (fun r h c => ⟨(h c).1.trans (Cert.KernelIdeal.Assemble.result_eq m ρ c Cert.KernelIdeal.Pass1.agg_arr Cert.KernelIdeal.Pass1.de_arr Cert.KernelIdeal.Pass1.ss_arr Cert.KernelIdeal.Pass1.dv_arr Cert.KernelIdeal.Pass2.pass2_arr Cert.KernelIdeal.Pass3.pass3_arr), (h c).2⟩)
      (Cert.KernelIdeal.Run.run_value m ρ)
  · refine (θ_run Cert.ReferenceIdeal.defs _ _).mono (fun r h c => ⟨(h c).1.trans ?_, (h c).2⟩)
      (Cert.ReferenceIdeal.RefValue.ref_run m' ρ')
    rw [(hagree c).1, (hagree c).2.1, (hagree c).2.2.1, (hagree c).2.2.2.1, (hagree c).2.2.2.2]
    exact funext fun j => (congrFun (congrFun
      (Cert.Gcn.outK_eq_outR _ _ _ _ _ (Cert.Gcn.Pre.dom_of_pre m hpre c)) (j 0)) (j 1)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
